-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1 : Shape := ⟨2, ![200000, 1]⟩
abbrev S2x6400000 : Shape := ⟨2, ![2, 6400000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S200000x1 : S_.BroadcastsInDim S200000x1 (![] : Fin 0 → Fin S200000x1.rank)
  reducesTo_S200000x1_S_d0_1 : S200000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg22 : FVec F S1 .f32) (main_v98 : IVec S_ 1) (main_v101 : IVec S16x1 1) (main_c_39 : IVec S_ 1) : IVec S_ 1 :=
  let main_v102 : IVec S_ 1 := (fun x v => Host.reduce IntOp.andi x v reducesTo_S16x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg19 : FVec F S16 .f32) (main_arg20 : FVec F S16x16 .f32) (main_arg21 : FVec F S16x1 .f32) (main_arg22 : FVec F S1 .f32) (main_v83 : IVec S_ 1) (main_v84 : FVec F S16x16 .f32) (main_cst_32 : FVec F S_ .f32) : IVec S_ 1 :=
  let main_v85 : FVec F S16x16 .f32 := broadcastInDim S16x16 ![] bcast_S_S16x16 main_cst_32
  let main_v86 : IVec S16x16 1 := cmpf .olt main_v84 main_v85
  let main_c_33 : IVec S_ 1 := constantI S_ 1 1#1
  let main_v87 : IVec S_ 1 := (fun x v => Host.reduce IntOp.andi x v reducesTo_S16x16_S_d0_1 h_S_) main_v86 main_c_33
  let main_v88 : IVec S_ 1 := andi main_v83 main_v87
  let main_v89 : FVec F S16 .f32 := Host.absf main_arg19
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S16x16 .f32 := Host.absf main_arg20
  let main_cst_36 : FVec F S_ .f32 := constant S_ .f32 0x7F800000#32
  let main_v95 : FVec F S16x16 .f32 := broadcastInDim S16x16 ![] bcast_S_S16x16 main_cst_36
  let main_v96 : IVec S16x16 1 := cmpf .olt main_v94 main_v95
  let main_c_37 : IVec S_ 1 := constantI S_ 1 1#1
  let main_v97 : IVec S_ 1 := (fun x v => Host.reduce IntOp.andi x v reducesTo_S16x16_S_d0_1 h_S_) main_v96 main_c_37
  let main_v98 : IVec S_ 1 := andi main_v93 main_v97
  let main_v99 : FVec F S16x1 .f32 := Host.absf main_arg21
  let main_cst_38 : FVec F S_ .f32 := constant S_ .f32 0x7F800000#32
  let main_v100 : FVec F S16x1 .f32 := broadcastInDim S16x1 ![] bcast_S_S16x1 main_cst_38
  let main_v101 : IVec S16x1 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S16x16 .f32) (main_arg16 : FVec F S16 .f32) (main_arg17 : FVec F S16x16 .f32) (main_arg18 : FVec F S16x16 .f32) (main_arg19 : FVec F S16 .f32) (main_arg20 : FVec F S16x16 .f32) (main_arg21 : FVec F S16x1 .f32) (main_arg22 : FVec F S1 .f32) (main_v63 : IVec S_ 1) (main_v67 : IVec S_ 1) : IVec S_ 1 :=
  let main_v68 : IVec S_ 1 := andi main_v63 main_v67
  let main_v69 : FVec F S16x16 .f32 := Host.absf main_arg15
  let main_cst_26 : FVec F S_ .f32 := constant S_ .f32 0x7F800000#32
  let main_v70 : FVec F S16x16 .f32 := broadcastInDim S16x16 ![] bcast_S_S16x16 main_cst_26
  let main_v71 : IVec S16x16 1 := cmpf .olt main_v69 main_v70
  let main_c_27 : IVec S_ 1 := constantI S_ 1 1#1
  let main_v72 : IVec S_ 1 := (fun x v => Host.reduce IntOp.andi x v reducesTo_S16x16_S_d0_1 h_S_) main_v71 main_c_27
  let main_v73 : IVec S_ 1 := andi main_v68 main_v72
  let main_v74 : FVec F S16 .f32 := Host.absf main_arg16
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16x16 .f32 := Host.absf main_arg17
  let main_cst_30 : FVec F S_ .f32 := constant S_ .f32 0x7F800000#32
  let main_v80 : FVec F S16x16 .f32 := broadcastInDim S16x16 ![] bcast_S_S16x16 main_cst_30
  let main_v81 : IVec S16x16 1 := cmpf .olt main_v79 main_v80
  let main_c_31 : IVec S_ 1 := constantI S_ 1 1#1
  let main_v82 : IVec S_ 1 := (fun x v => Host.reduce IntOp.andi x v reducesTo_S16x16_S_d0_1 h_S_) main_v81 main_c_31
  let main_v83 : IVec S_ 1 := andi main_v78 main_v82
  let main_v84 : FVec F S16x16 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S16x16 .f32) (main_arg13 : FVec F S16 .f32) (main_arg14 : FVec F S16x16 .f32) (main_arg15 : FVec F S16x16 .f32) (main_arg16 : FVec F S16 .f32) (main_arg17 : FVec F S16x16 .f32) (main_arg18 : FVec F S16x16 .f32) (main_arg19 : FVec F S16 .f32) (main_arg20 : FVec F S16x16 .f32) (main_arg21 : FVec F S16x1 .f32) (main_arg22 : FVec F S1 .f32) (main_v48 : IVec S_ 1) (main_v49 : FVec F S16x16 .f32) (main_v50 : FVec F S16x16 .f32) : IVec S_ 1 :=
  let main_v51 : IVec S16x16 1 := cmpf .olt main_v49 main_v50
  let main_c_19 : IVec S_ 1 := constantI S_ 1 1#1
  let main_v52 : IVec S_ 1 := (fun x v => Host.reduce IntOp.andi x v reducesTo_S16x16_S_d0_1 h_S_) main_v51 main_c_19
  let main_v53 : IVec S_ 1 := andi main_v48 main_v52
  let main_v54 : FVec F S16x16 .f32 := Host.absf main_arg12
  let main_cst_20 : FVec F S_ .f32 := constant S_ .f32 0x7F800000#32
  let main_v55 : FVec F S16x16 .f32 := broadcastInDim S16x16 ![] bcast_S_S16x16 main_cst_20
  let main_v56 : IVec S16x16 1 := cmpf .olt main_v54 main_v55
  let main_c_21 : IVec S_ 1 := constantI S_ 1 1#1
  let main_v57 : IVec S_ 1 := (fun x v => Host.reduce IntOp.andi x v reducesTo_S16x16_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x16 .f32 := Host.absf main_arg14
  let main_cst_24 : FVec F S_ .f32 := constant S_ .f32 0x7F800000#32
  let main_v65 : FVec F S16x16 .f32 := broadcastInDim S16x16 ![] bcast_S_S16x16 main_cst_24
  let main_v66 : IVec S16x16 1 := cmpf .olt main_v64 main_v65
  let main_c_25 : IVec S_ 1 := constantI S_ 1 1#1
  let main_v67 : IVec S_ 1 := (fun x v => Host.reduce IntOp.andi x v reducesTo_S16x16_S_d0_1 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S1x16 .f32) (main_arg9 : FVec F S16x16 .f32) (main_arg10 : FVec F S16 .f32) (main_arg11 : FVec F S16x16 .f32) (main_arg12 : FVec F S16x16 .f32) (main_arg13 : FVec F S16 .f32) (main_arg14 : FVec F S16x16 .f32) (main_arg15 : FVec F S16x16 .f32) (main_arg16 : FVec F S16 .f32) (main_arg17 : FVec F S16x16 .f32) (main_arg18 : FVec F S16x16 .f32) (main_arg19 : FVec F S16 .f32) (main_arg20 : FVec F S16x16 .f32) (main_arg21 : FVec F S16x1 .f32) (main_arg22 : FVec F S1 .f32) (main_v33 : IVec S_ 1) : IVec S_ 1 :=
  let main_v34 : FVec F S1x16 .f32 := Host.absf main_arg8
  let main_cst_12 : FVec F S_ .f32 := constant S_ .f32 0x7F800000#32
  let main_v35 : FVec F S1x16 .f32 := broadcastInDim S1x16 ![] bcast_S_S1x16 main_cst_12
  let main_v36 : IVec S1x16 1 := cmpf .olt main_v34 main_v35
  let main_c_13 : IVec S_ 1 := constantI S_ 1 1#1
  let main_v37 : IVec S_ 1 := (fun x v => Host.reduce IntOp.andi x v reducesTo_S1x16_S_d0_1 h_S_) main_v36 main_c_13
  let main_v38 : IVec S_ 1 := andi main_v33 main_v37
  let main_v39 : FVec F S16x16 .f32 := Host.absf main_arg9
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x16 .f32 := Host.absf main_arg11
  let main_cst_18 : FVec F S_ .f32 := constant S_ .f32 0x7F800000#32
  let main_v50 : FVec F S16x16 .f32 := broadcastInDim S16x16 ![] bcast_S_S16x16 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S1x16 .f32) (main_arg6 : FVec F S1x16 .f32) (main_arg7 : FVec F S16 .f32) (main_arg8 : FVec F S1x16 .f32) (main_arg9 : FVec F S16x16 .f32) (main_arg10 : FVec F S16 .f32) (main_arg11 : FVec F S16x16 .f32) (main_arg12 : FVec F S16x16 .f32) (main_arg13 : FVec F S16 .f32) (main_arg14 : FVec F S16x16 .f32) (main_arg15 : FVec F S16x16 .f32) (main_arg16 : FVec F S16 .f32) (main_arg17 : FVec F S16x16 .f32) (main_arg18 : FVec F S16x16 .f32) (main_arg19 : FVec F S16 .f32) (main_arg20 : FVec F S16x16 .f32) (main_arg21 : FVec F S16x1 .f32) (main_arg22 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S1x16 .f32 := Host.absf main_arg5
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S1x16 .f32 := Host.absf main_arg6
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S200000x1 .f32) (main_arg1 : FVec F S200000x1 .f32) (main_arg2 : IVec S2x6400000 32) (main_arg3 : FVec F S1x16 .f32) (main_arg4 : FVec F S16 .f32) (main_arg5 : FVec F S1x16 .f32) (main_arg6 : FVec F S1x16 .f32) (main_arg7 : FVec F S16 .f32) (main_arg8 : FVec F S1x16 .f32) (main_arg9 : FVec F S16x16 .f32) (main_arg10 : FVec F S16 .f32) (main_arg11 : FVec F S16x16 .f32) (main_arg12 : FVec F S16x16 .f32) (main_arg13 : FVec F S16 .f32) (main_arg14 : FVec F S16x16 .f32) (main_arg15 : FVec F S16x16 .f32) (main_arg16 : FVec F S16 .f32) (main_arg17 : FVec F S16x16 .f32) (main_arg18 : FVec F S16x16 .f32) (main_arg19 : FVec F S16 .f32) (main_arg20 : FVec F S16x16 .f32) (main_arg21 : FVec F S16x1 .f32) (main_arg22 : FVec F S1 .f32) : IVec S_ 1 :=
  let main_v0 : FVec F S200000x1 .f32 := Host.absf main_arg0
  let main_cst : FVec F S_ .f32 := constant S_ .f32 0x7F800000#32
  let main_v1 : FVec F S200000x1 .f32 := broadcastInDim S200000x1 ![] bcast_S_S200000x1 main_cst
  let main_v2 : IVec S200000x1 1 := cmpf .olt main_v0 main_v1
  let main_c : IVec S_ 1 := constantI S_ 1 1#1
  let main_v3 : IVec S_ 1 := (fun x v => Host.reduce IntOp.andi x v reducesTo_S200000x1_S_d0_1 h_S_) main_v2 main_c
  let main_v4 : FVec F S200000x1 .f32 := Host.absf main_arg1
  let main_cst_0 : FVec F S_ .f32 := constant S_ .f32 0x7F800000#32
  let main_v5 : FVec F S200000x1 .f32 := broadcastInDim S200000x1 ![] bcast_S_S200000x1 main_cst_0
  let main_v6 : IVec S200000x1 1 := cmpf .olt main_v4 main_v5
  let main_c_1 : IVec S_ 1 := constantI S_ 1 1#1
  let main_v7 : IVec S_ 1 := (fun x v => Host.reduce IntOp.andi x v reducesTo_S200000x1_S_d0_1 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S200000x1 : Shape := ⟨2, ![200000, 1]⟩
abbrev S2x6400000 : Shape := ⟨2, ![2, 6400000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S200000x16 : Shape := ⟨2, ![200000, 16]⟩
abbrev S5000x1 : Shape := ⟨2, ![5000, 1]⟩
abbrev S5000x16 : Shape := ⟨2, ![5000, 16]⟩
abbrev S6400000x16 : Shape := ⟨2, ![6400000, 16]⟩
abbrev S1x1 : Shape := ⟨2, ![1, 1]⟩

abbrev nBuf : Space → Nat
  | .hbm => 128
  | .vmem => 57
  | .smem => 0
  | _ => 0

abbrev bufTy : (tb : Table) → Fin (tcTables nBuf tb) → BufTy
  | .hbm, ⟨0, _⟩ => ⟨S200000x1, .f32⟩
  | .hbm, ⟨1, _⟩ => ⟨S200000x1, .f32⟩
  | .hbm, ⟨2, _⟩ => ⟨S2x6400000, .i32⟩
  | .hbm, ⟨3, _⟩ => ⟨S1x16, .f32⟩
  | .hbm, ⟨4, _⟩ => ⟨S16, .f32⟩
  | .hbm, ⟨5, _⟩ => ⟨S1x16, .f32⟩
  | .hbm, ⟨6, _⟩ => ⟨S1x16, .f32⟩
  | .hbm, ⟨7, _⟩ => ⟨S16, .f32⟩
  | .hbm, ⟨8, _⟩ => ⟨S1x16, .f32⟩
  | .hbm, ⟨9, _⟩ => ⟨S16x16, .f32⟩
  | .hbm, ⟨10, _⟩ => ⟨S16, .f32⟩
  | .hbm, ⟨11, _⟩ => ⟨S16x16, .f32⟩
  | .hbm, ⟨12, _⟩ => ⟨S16x16, .f32⟩
  | .hbm, ⟨13, _⟩ => ⟨S16, .f32⟩
  | .hbm, ⟨14, _⟩ => ⟨S16x16, .f32⟩
  | .hbm, ⟨15, _⟩ => ⟨S16x16, .f32⟩
  | .hbm, ⟨16, _⟩ => ⟨S16, .f32⟩
  | .hbm, ⟨17, _⟩ => ⟨S16x16, .f32⟩
  | .hbm, ⟨18, _⟩ => ⟨S16x16, .f32⟩
  | .hbm, ⟨19, _⟩ => ⟨S16, .f32⟩
  | .hbm, ⟨20, _⟩ => ⟨S16x16, .f32⟩
  | .hbm, ⟨21, _⟩ => ⟨S16x1, .f32⟩
  | .hbm, ⟨22, _⟩ => ⟨S1, .f32⟩
  | .hbm, ⟨23, _⟩ => ⟨S1x6400000, .i32⟩
  | .hbm, ⟨24, _⟩ => ⟨S6400000, .i32⟩
  | .hbm, ⟨25, _⟩ => ⟨S1x6400000, .i32⟩
  | .hbm, ⟨26, _⟩ => ⟨S6400000, .i32⟩
  | .hbm, ⟨27, _⟩ => ⟨S_, .f32⟩
  | .hbm, ⟨28, _⟩ => ⟨S6400000, .f32⟩
  | .hbm, ⟨29, _⟩ => ⟨S_, .f32⟩
  | .hbm, ⟨30, _⟩ => ⟨S200000, .f32⟩
  | .hbm, ⟨31, _⟩ => ⟨S6400000x1, .i32⟩
  | .hbm, ⟨32, _⟩ => ⟨S200000, .f32⟩
  | .hbm, ⟨33, _⟩ => ⟨S_, .f32⟩
  | .hbm, ⟨34, _⟩ => ⟨S200000, .f32⟩
  | .hbm, ⟨35, _⟩ => ⟨S6400000x1, .i32⟩
  | .hbm, ⟨36, _⟩ => ⟨S200000, .f32⟩
  | .hbm, ⟨37, _⟩ => ⟨S_, .f32⟩
  | .hbm, ⟨38, _⟩ => ⟨S200000, .f32⟩
  | .hbm, ⟨39, _⟩ => ⟨S200000, .f32⟩
  | .hbm, ⟨40, _⟩ => ⟨S_, .f32⟩
  | .hbm, ⟨41, _⟩ => ⟨S200000, .f32⟩
  | .hbm, ⟨42, _⟩ => ⟨S200000, .f32⟩
  | .hbm, ⟨43, _⟩ => ⟨S200000x1, .f32⟩
  | .hbm, ⟨44, _⟩ => ⟨S_, .f32⟩
  | .hbm, ⟨45, _⟩ => ⟨S200000, .f32⟩
  | .hbm, ⟨46, _⟩ => ⟨S200000, .f32⟩
  | .hbm, ⟨47, _⟩ => ⟨S_, .f32⟩
  | .hbm, ⟨48, _⟩ => ⟨S200000, .f32⟩
  | .hbm, ⟨49, _⟩ => ⟨S200000, .f32⟩
  | .hbm, ⟨50, _⟩ => ⟨S200000x1, .f32⟩
  | .hbm, ⟨51, _⟩ => ⟨S_, .i32⟩
  | .hbm, ⟨52, _⟩ => ⟨S6400000, .i32⟩
  | .hbm, ⟨53, _⟩ => ⟨S6400000, .i1⟩
  | .hbm, ⟨54, _⟩ => ⟨S_, .i32⟩
  | .hbm, ⟨55, _⟩ => ⟨S6400000, .i32⟩
  | .hbm, ⟨56, _⟩ => ⟨S6400000, .i32⟩
  | .hbm, ⟨57, _⟩ => ⟨S6400000, .i32⟩
  | .hbm, ⟨58, _⟩ => ⟨S6400000x1, .i32⟩
  | .hbm, ⟨59, _⟩ => ⟨S6400000x1, .f32⟩
  | .hbm, ⟨60, _⟩ => ⟨S_, .f32⟩
  | .hbm, ⟨61, _⟩ => ⟨S200000x1, .f32⟩
  | .hbm, ⟨62, _⟩ => ⟨S6400000x1, .i32⟩
  | .hbm, ⟨63, _⟩ => ⟨S200000x1, .f32⟩
  | .hbm, ⟨64, _⟩ => ⟨S1x16, .f32⟩
  | .hbm, ⟨65, _⟩ => ⟨S200000x16, .f32⟩
  | .hbm, ⟨66, _⟩ => ⟨S_, .i32⟩
  | .hbm, ⟨67, _⟩ => ⟨S6400000, .i32⟩
  | .hbm, ⟨68, _⟩ => ⟨S6400000, .i1⟩
  | .hbm, ⟨69, _⟩ => ⟨S_, .i32⟩
  | .hbm, ⟨70, _⟩ => ⟨S6400000, .i32⟩
  | .hbm, ⟨71, _⟩ => ⟨S6400000, .i32⟩
  | .hbm, ⟨72, _⟩ => ⟨S6400000, .i32⟩
  | .hbm, ⟨73, _⟩ => ⟨S6400000x1, .i32⟩
  | .hbm, ⟨74, _⟩ => ⟨S6400000x1, .f32⟩
  | .hbm, ⟨75, _⟩ => ⟨S_, .f32⟩
  | .hbm, ⟨76, _⟩ => ⟨S200000x1, .f32⟩
  | .hbm, ⟨77, _⟩ => ⟨S6400000x1, .i32⟩
  | .hbm, ⟨78, _⟩ => ⟨S200000x1, .f32⟩
  | .hbm, ⟨79, _⟩ => ⟨S1x16, .f32⟩
  | .hbm, ⟨80, _⟩ => ⟨S200000x16, .f32⟩
  | .hbm, ⟨81, _⟩ => ⟨S_, .i32⟩
  | .hbm, ⟨82, _⟩ => ⟨S6400000, .i32⟩
  | .hbm, ⟨83, _⟩ => ⟨S6400000, .i1⟩
  | .hbm, ⟨84, _⟩ => ⟨S_, .i32⟩
  | .hbm, ⟨85, _⟩ => ⟨S6400000, .i32⟩
  | .hbm, ⟨86, _⟩ => ⟨S6400000, .i32⟩
  | .hbm, ⟨87, _⟩ => ⟨S6400000, .i32⟩
  | .hbm, ⟨88, _⟩ => ⟨S6400000x1, .i32⟩
  | .hbm, ⟨89, _⟩ => ⟨S6400000x16, .f32⟩
  | .hbm, ⟨90, _⟩ => ⟨S_, .f32⟩
  | .hbm, ⟨91, _⟩ => ⟨S200000x16, .f32⟩
  | .hbm, ⟨92, _⟩ => ⟨S6400000x1, .i32⟩
  | .hbm, ⟨93, _⟩ => ⟨S200000x16, .f32⟩
  | .hbm, ⟨94, _⟩ => ⟨S1x16, .f32⟩
  | .hbm, ⟨95, _⟩ => ⟨S200000x16, .f32⟩
  | .hbm, ⟨96, _⟩ => ⟨S_, .i32⟩
  | .hbm, ⟨97, _⟩ => ⟨S6400000, .i32⟩
  | .hbm, ⟨98, _⟩ => ⟨S6400000, .i1⟩
  | .hbm, ⟨99, _⟩ => ⟨S_, .i32⟩
  | .hbm, ⟨100, _⟩ => ⟨S6400000, .i32⟩
  | .hbm, ⟨101, _⟩ => ⟨S6400000, .i32⟩
  | .hbm, ⟨102, _⟩ => ⟨S6400000, .i32⟩
  | .hbm, ⟨103, _⟩ => ⟨S6400000x1, .i32⟩
  | .hbm, ⟨104, _⟩ => ⟨S6400000x16, .f32⟩
  | .hbm, ⟨105, _⟩ => ⟨S_, .f32⟩
  | .hbm, ⟨106, _⟩ => ⟨S200000x16, .f32⟩
  | .hbm, ⟨107, _⟩ => ⟨S6400000x1, .i32⟩
  | .hbm, ⟨108, _⟩ => ⟨S200000x16, .f32⟩
  | .hbm, ⟨109, _⟩ => ⟨S1x16, .f32⟩
  | .hbm, ⟨110, _⟩ => ⟨S200000x16, .f32⟩
  | .hbm, ⟨111, _⟩ => ⟨S_, .i32⟩
  | .hbm, ⟨112, _⟩ => ⟨S6400000, .i32⟩
  | .hbm, ⟨113, _⟩ => ⟨S6400000, .i1⟩
  | .hbm, ⟨114, _⟩ => ⟨S_, .i32⟩
  | .hbm, ⟨115, _⟩ => ⟨S6400000, .i32⟩
  | .hbm, ⟨116, _⟩ => ⟨S6400000, .i32⟩
  | .hbm, ⟨117, _⟩ => ⟨S6400000, .i32⟩
  | .hbm, ⟨118, _⟩ => ⟨S6400000x1, .i32⟩
  | .hbm, ⟨119, _⟩ => ⟨S6400000x16, .f32⟩
  | .hbm, ⟨120, _⟩ => ⟨S_, .f32⟩
  | .hbm, ⟨121, _⟩ => ⟨S200000x16, .f32⟩
  | .hbm, ⟨122, _⟩ => ⟨S6400000x1, .i32⟩
  | .hbm, ⟨123, _⟩ => ⟨S200000x16, .f32⟩
  | .hbm, ⟨124, _⟩ => ⟨S1x16, .f32⟩
  | .hbm, ⟨125, _⟩ => ⟨S1x1, .f32⟩
  | .hbm, ⟨126, _⟩ => ⟨S200000x1, .f32⟩
  | .hbm, ⟨127, _⟩ => ⟨S200000, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S1x16, .f32⟩
  | .local _ .vmem, ⟨7, _⟩ => ⟨S1x16, .f32⟩
  | .local _ .vmem, ⟨8, _⟩ => ⟨S1x16, .f32⟩
  | .local _ .vmem, ⟨9, _⟩ => ⟨S5000x16, .f32⟩
  | .local _ .vmem, ⟨10, _⟩ => ⟨S5000x16, .f32⟩
  | .local _ .vmem, ⟨11, _⟩ => ⟨S5000x1, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S5000x1, .f32⟩
  | .local _ .vmem, ⟨17, _⟩ => ⟨S1x16, .f32⟩
  | .local _ .vmem, ⟨18, _⟩ => ⟨S1x16, .f32⟩
  | .local _ .vmem, ⟨19, _⟩ => ⟨S1x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x16, .f32⟩
  | .local _ .vmem, ⟨24, _⟩ => ⟨S5000x1, .f32⟩
  | .local _ .vmem, ⟨25, _⟩ => ⟨S5000x1, .f32⟩
  | .local _ .vmem, ⟨26, _⟩ => ⟨S5000x16, .f32⟩
  | .local _ .vmem, ⟨27, _⟩ => ⟨S5000x16, .f32⟩
  | .local _ .vmem, ⟨28, _⟩ => ⟨S16x16, .f32⟩
  | .local _ .vmem, ⟨29, _⟩ => ⟨S1x16, .f32⟩
  | .local _ .vmem, ⟨30, _⟩ => ⟨S16x16, .f32⟩
  | .local _ .vmem, ⟨31, _⟩ => ⟨S5000x16, .f32⟩
  | .local _ .vmem, ⟨32, _⟩ => ⟨S5000x16, .f32⟩
  | .local _ .vmem, ⟨33, _⟩ => ⟨S5000x16, .f32⟩
  | .local _ .vmem, ⟨34, _⟩ => ⟨S5000x16, .f32⟩
  | .local _ .vmem, ⟨35, _⟩ => ⟨S5000x1, .f32⟩
  | .local _ .vmem, ⟨36, _⟩ => ⟨S5000x1, .f32⟩
  | .local _ .vmem, ⟨37, _⟩ => ⟨S5000x16, .f32⟩
  | .local _ .vmem, ⟨38, _⟩ => ⟨S5000x16, .f32⟩
  | .local _ .vmem, ⟨39, _⟩ => ⟨S16x16, .f32⟩
  | .local _ .vmem, ⟨40, _⟩ => ⟨S1x16, .f32⟩
  | .local _ .vmem, ⟨41, _⟩ => ⟨S16x16, .f32⟩
  | .local _ .vmem, ⟨42, _⟩ => ⟨S5000x16, .f32⟩
  | .local _ .vmem, ⟨43, _⟩ => ⟨S5000x16, .f32⟩
  | .local _ .vmem, ⟨44, _⟩ => ⟨S5000x16, .f32⟩
  | .local _ .vmem, ⟨45, _⟩ => ⟨S5000x16, .f32⟩
  | .local _ .vmem, ⟨46, _⟩ => ⟨S5000x1, .f32⟩
  | .local _ .vmem, ⟨47, _⟩ => ⟨S5000x1, .f32⟩
  | .local _ .vmem, ⟨48, _⟩ => ⟨S5000x16, .f32⟩
  | .local _ .vmem, ⟨49, _⟩ => ⟨S5000x16, .f32⟩
  | .local _ .vmem, ⟨50, _⟩ => ⟨S16x16, .f32⟩
  | .local _ .vmem, ⟨51, _⟩ => ⟨S1x16, .f32⟩
  | .local _ .vmem, ⟨52, _⟩ => ⟨S16x16, .f32⟩
  | .local _ .vmem, ⟨53, _⟩ => ⟨S16x1, .f32⟩
  | .local _ .vmem, ⟨54, _⟩ => ⟨S1x1, .f32⟩
  | .local _ .vmem, ⟨55, _⟩ => ⟨S5000x1, .f32⟩
  | .local _ .vmem, ⟨56, _⟩ => ⟨S5000x1, .f32⟩
  | _, _ => ⟨S200000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_cst_3 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_4 : Ref sig .tc := ⟨.hbm, 44, rfl⟩
abbrev main_v16 : Ref sig .tc := ⟨.hbm, 45, rfl⟩
abbrev main_v17 : Ref sig .tc := ⟨.hbm, 46, rfl⟩
abbrev main_cst_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c : Ref sig .tc := ⟨.hbm, 51, rfl⟩
abbrev main_v21 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_7 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_8 : Ref sig .tc := ⟨.hbm, 66, rfl⟩
abbrev main_v33 : Ref sig .tc := ⟨.hbm, 67, rfl⟩
abbrev main_v34 : Ref sig .tc := ⟨.hbm, 68, rfl⟩
abbrev main_c_9 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_10 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_c_11 : Ref sig .tc := ⟨.hbm, 81, rfl⟩
abbrev main_v45 : Ref sig .tc := ⟨.hbm, 82, rfl⟩
abbrev main_v46 : Ref sig .tc := ⟨.hbm, 83, rfl⟩
abbrev main_c_12 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_13 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_c_14 : Ref sig .tc := ⟨.hbm, 96, rfl⟩
abbrev main_v57 : Ref sig .tc := ⟨.hbm, 97, rfl⟩
abbrev main_v58 : Ref sig .tc := ⟨.hbm, 98, rfl⟩
abbrev main_c_15 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_16 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_c_17 : Ref sig .tc := ⟨.hbm, 111, rfl⟩
abbrev main_v69 : Ref sig .tc := ⟨.hbm, 112, rfl⟩
abbrev main_v70 : Ref sig .tc := ⟨.hbm, 113, rfl⟩
abbrev main_c_18 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_19 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg7_0 : Ref sig .tc := ⟨.vmem, 54, rfl⟩
abbrev cc4_stg8_0 : Ref sig .tc := ⟨.vmem, 55, rfl⟩
abbrev cc4_stg8_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem7_0 : DmaSem sig := 54
abbrev cc4_sem8_0 : DmaSem sig := 55
abbrev cc4_sem8_1 : DmaSem sig := 56

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x16 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S16x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S16x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S16x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S5000x1 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S200000_S200000x1_0 : S200000.BroadcastsInDim S200000x1 (![0] : Fin 1 → Fin S200000x1.rank)
  bcast_S_S200000x1 : S_.BroadcastsInDim S200000x1 (![] : Fin 0 → Fin S200000x1.rank)
  shapeCasts_S16_S1x16 : S16.ShapeCasts S1x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S200000x16 : S_.BroadcastsInDim S200000x16 (![] : Fin 0 → Fin S200000x16.rank)
  shapeCasts_S5000x16_S5000x16 : S5000x16.ShapeCasts S5000x16
  broadcasts_S5000x1_S5000x16 : S5000x1.Broadcasts S5000x16
  inb_S16x16_S16x16_0_0 : ∀ a, (![0, 0] : Fin 2 → Nat) a + S16x16.size a ≤ S16x16.size a
  h_S16x16 : 0 < S16x16.numel
  shapeCasts_S1_S1x1 : S1.ShapeCasts S1x1
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S200000x1_S200000 : S200000x1.ShapeCasts S200000
  scatter_S200000_S6400000x1_S6400000_n_0_0_1_wf : ScatterDims.WF S200000 S6400000x1 S6400000 [] [0] [0] 1
  gather_S200000x1_S6400000x1_S6400000x1_1_0_n_n_0_1_11_wf : GatherDims.WF S200000x1 S6400000x1 S6400000x1 [1] [0] [] [0] [] 1 ![1, 1]
  scatter_S200000x1_S6400000x1_S6400000x1_1_0_0_1_wf : ScatterDims.WF S200000x1 S6400000x1 S6400000x1 [1] [0] [0] 1
  dot_S5000x1_S1x16_S5000x16_1_0_0_1_n_n_wf : DotDims.WF S5000x1 S1x16 S5000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S5000x16_S16x16_S5000x16_1_0_0_1_n_n_wf : DotDims.WF S5000x16 S16x16 S5000x16 [1] [0] [0] [1] [] []
  dot_S5000x16_S16x1_S5000x1_1_0_0_1_n_n_wf : DotDims.WF S5000x16 S16x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S200000x1.size a
  hwx0_0 : ∀ i : grid0.Coords, EltTy.bits .f32 = 32 ∨ (Rect.block (s := S200000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S200000x1.size a
  hwx0_1 : ∀ i : grid0.Coords, EltTy.bits .f32 = 32 ∨ (Rect.block (s := S200000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S200000x1.size a
  hwx0_2 : ∀ i : grid0.Coords, EltTy.bits .f32 = 32 ∨ (Rect.block (s := S200000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x16.size a ≤ S200000x16.size a
  hwx0_6 : ∀ i : grid0.Coords, EltTy.bits .f32 = 32 ∨ (Rect.block (s := S200000x16) S5000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S200000x1.size a
  hwx1_0 : ∀ i : grid1.Coords, EltTy.bits .f32 = 32 ∨ (Rect.block (s := S200000x1) S5000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S200000x1.size a
  hwx1_1 : ∀ i : grid1.Coords, EltTy.bits .f32 = 32 ∨ (Rect.block (s := S200000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S200000x1.size a
  hwx1_2 : ∀ i : grid1.Coords, EltTy.bits .f32 = 32 ∨ (Rect.block (s := S200000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x16.size a ≤ S200000x16.size a
  hwx1_6 : ∀ i : grid1.Coords, EltTy.bits .f32 = 32 ∨ (Rect.block (s := S200000x16) S5000x16.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S200000x16.size a
  hwx2_0 : ∀ i : grid2.Coords, EltTy.bits .f32 = 32 ∨ (Rect.block (s := S200000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S200000x1.size a
  hwx2_1 : ∀ i : grid2.Coords, EltTy.bits .f32 = 32 ∨ (Rect.block (s := S200000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S200000x16.size a
  hwx2_2 : ∀ i : grid2.Coords, EltTy.bits .f32 = 32 ∨ (Rect.block (s := S200000x16) S5000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x16.size a ≤ S16x16.size a
  hwx2_3 : ∀ i : grid2.Coords, EltTy.bits .f32 = 32 ∨ (Rect.block (s := S16x16) S16x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x16.size a ≤ S16x16.size a
  hwx2_5 : ∀ i : grid2.Coords, EltTy.bits .f32 = 32 ∨ (Rect.block (s := S16x16) S16x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x16.size a ≤ S200000x16.size a
  hwx2_6 : ∀ i : grid2.Coords, EltTy.bits .f32 = 32 ∨ (Rect.block (s := S200000x16) S5000x16.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S200000x16.size a
  hwx3_0 : ∀ i : grid3.Coords, EltTy.bits .f32 = 32 ∨ (Rect.block (s := S200000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S200000x1.size a
  hwx3_1 : ∀ i : grid3.Coords, EltTy.bits .f32 = 32 ∨ (Rect.block (s := S200000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S200000x16.size a
  hwx3_2 : ∀ i : grid3.Coords, EltTy.bits .f32 = 32 ∨ (Rect.block (s := S200000x16) S5000x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x16.size a ≤ S16x16.size a
  hwx3_3 : ∀ i : grid3.Coords, EltTy.bits .f32 = 32 ∨ (Rect.block (s := S16x16) S16x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x16.size a ≤ S16x16.size a
  hwx3_5 : ∀ i : grid3.Coords, EltTy.bits .f32 = 32 ∨ (Rect.block (s := S16x16) S16x16.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x16.size a ≤ S200000x16.size a
  hwx3_6 : ∀ i : grid3.Coords, EltTy.bits .f32 = 32 ∨ (Rect.block (s := S200000x16) S5000x16.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S200000x16.size a
  hwx4_0 : ∀ i : grid4.Coords, EltTy.bits .f32 = 32 ∨ (Rect.block (s := S200000x16) S5000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S200000x1.size a
  hwx4_1 : ∀ i : grid4.Coords, EltTy.bits .f32 = 32 ∨ (Rect.block (s := S200000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x16.size a ≤ S200000x16.size a
  hwx4_2 : ∀ i : grid4.Coords, EltTy.bits .f32 = 32 ∨ (Rect.block (s := S200000x16) S5000x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x16.size a ≤ S16x16.size a
  hwx4_3 : ∀ i : grid4.Coords, EltTy.bits .f32 = 32 ∨ (Rect.block (s := S16x16) S16x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x16.size a ≤ S1x16.size a
  hwx4_4 : ∀ i : grid4.Coords, EltTy.bits .f32 = 32 ∨ (Rect.block (s := S1x16) S1x16.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S16x16.size a ≤ S16x16.size a
  hwx4_5 : ∀ i : grid4.Coords, EltTy.bits .f32 = 32 ∨ (Rect.block (s := S16x16) S16x16.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S16x1.size a ≤ S16x1.size a
  hwx4_6 : ∀ i : grid4.Coords, EltTy.bits .f32 = 32 ∨ (Rect.block (s := S16x1) S16x1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1.size a ≤ S1x1.size a
  hwx4_7 : ∀ i : grid4.Coords, EltTy.bits .f32 = 32 ∨ (Rect.block (s := S1x1) S1x1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x1.size a ≤ S200000x1.size a
  hwx4_8 : ∀ i : grid4.Coords, EltTy.bits .f32 = 32 ∨ (Rect.block (s := S200000x1) S5000x1.size (cc4_transform_8 i) (hinb4_8 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000x1_S6400000x1_S6400000x1_1_0_n_n_0_1_11 : GatherDims S200000x1 S6400000x1 S6400000x1 where
  offsetDims := [1]
  collapsedSliceDims := [0]
  operandBatchingDims := []
  startIndicesBatchingDims := []
  startIndexMap := [0]
  indexVectorDim := 1
  sliceSizes := ![1, 1]
  wf := gather_S200000x1_S6400000x1_S6400000x1_1_0_n_n_0_1_11_wf
def scatter_S200000x1_S6400000x1_S6400000x1_1_0_0_1 : ScatterDims S200000x1 S6400000x1 S6400000x1 where
  updateWindowDims := [1]
  insertedWindowDims := [0]
  scatterDimsToOperandDims := [0]
  indexVectorDim := 1
  wf := scatter_S200000x1_S6400000x1_S6400000x1_1_0_0_1_wf
def dot_S5000x1_S1x16_S5000x16_1_0_0_1_n_n : DotDims S5000x1 S1x16 S5000x16 where
  lhsContracting := [1]
  rhsContracting := [0]
  lhsNonContracting := [0]
  rhsNonContracting := [1]
  lhsBatch := []
  rhsBatch := []
  wf := dot_S5000x1_S1x16_S5000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf

abbrev win0_0 : Pipeline.Window sig grid0 :=
  Pipeline.Window.ofSpec (Memref.whole main_v30) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S5000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v42) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S5000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v54) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S16x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S5000x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v66) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S5000x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S16x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S16x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S5000x16.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v78) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S5000x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S16x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79) S1x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg17) S16x16.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg21) S16x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v80) S1x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v81) S5000x1.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S200000x1 : Shape := ⟨2, ![200000, 1]⟩
abbrev S2x6400000 : Shape := ⟨2, ![2, 6400000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S200000x16 : Shape := ⟨2, ![200000, 16]⟩
abbrev S6400000x16 : Shape := ⟨2, ![6400000, 16]⟩
abbrev S1x1 : Shape := ⟨2, ![1, 1]⟩

abbrev nBuf : Space → Nat
  | .hbm => 182
  | .vmem => 0
  | .smem => 0
  | _ => 0

abbrev hbmTy0_0 (i : Nat) : BufTy := match i % 128 with
  | 0 => ⟨S200000x1, .f32⟩
  | 1 => ⟨S200000x1, .f32⟩
  | 2 => ⟨S2x6400000, .i32⟩
  | 3 => ⟨S1x16, .f32⟩
  | 4 => ⟨S16, .f32⟩
  | 5 => ⟨S1x16, .f32⟩
  | 6 => ⟨S1x16, .f32⟩
  | 7 => ⟨S16, .f32⟩
  | 8 => ⟨S1x16, .f32⟩
  | 9 => ⟨S16x16, .f32⟩
  | 10 => ⟨S16, .f32⟩
  | 11 => ⟨S16x16, .f32⟩
  | 12 => ⟨S16x16, .f32⟩
  | 13 => ⟨S16, .f32⟩
  | 14 => ⟨S16x16, .f32⟩
  | 15 => ⟨S16x16, .f32⟩
  | 16 => ⟨S16, .f32⟩
  | 17 => ⟨S16x16, .f32⟩
  | 18 => ⟨S16x16, .f32⟩
  | 19 => ⟨S16, .f32⟩
  | 20 => ⟨S16x16, .f32⟩
  | 21 => ⟨S16x1, .f32⟩
  | 22 => ⟨S1, .f32⟩
  | 23 => ⟨S1x6400000, .i32⟩
  | 24 => ⟨S6400000, .i32⟩
  | 25 => ⟨S1x6400000, .i32⟩
  | 26 => ⟨S6400000, .i32⟩
  | 27 => ⟨S_, .f32⟩
  | 28 => ⟨S6400000, .f32⟩
  | 29 => ⟨S_, .f32⟩
  | 30 => ⟨S200000, .f32⟩
  | 31 => ⟨S6400000x1, .i32⟩
  | 32 => ⟨S200000, .f32⟩
  | 33 => ⟨S_, .f32⟩
  | 34 => ⟨S200000, .f32⟩
  | 35 => ⟨S6400000x1, .i32⟩
  | 36 => ⟨S200000, .f32⟩
  | 37 => ⟨S_, .f32⟩
  | 38 => ⟨S200000, .f32⟩
  | 39 => ⟨S200000, .f32⟩
  | 40 => ⟨S_, .f32⟩
  | 41 => ⟨S200000, .f32⟩
  | 42 => ⟨S200000, .f32⟩
  | 43 => ⟨S200000x1, .f32⟩
  | 44 => ⟨S_, .f32⟩
  | 45 => ⟨S200000, .f32⟩
  | 46 => ⟨S200000, .f32⟩
  | 47 => ⟨S_, .f32⟩
  | 48 => ⟨S200000, .f32⟩
  | 49 => ⟨S200000, .f32⟩
  | 50 => ⟨S200000x1, .f32⟩
  | 51 => ⟨S_, .i32⟩
  | 52 => ⟨S6400000, .i32⟩
  | 53 => ⟨S6400000, .i1⟩
  | 54 => ⟨S_, .i32⟩
  | 55 => ⟨S6400000, .i32⟩
  | 56 => ⟨S6400000, .i32⟩
  | 57 => ⟨S6400000, .i32⟩
  | 58 => ⟨S6400000x1, .i32⟩
  | 59 => ⟨S6400000x1, .f32⟩
  | 60 => ⟨S_, .f32⟩
  | 61 => ⟨S200000x1, .f32⟩
  | 62 => ⟨S6400000x1, .i32⟩
  | 63 => ⟨S200000x1, .f32⟩
  | 64 => ⟨S200000x1, .f32⟩
  | 65 => ⟨S200000x16, .f32⟩
  | 66 => ⟨S1x16, .f32⟩
  | 67 => ⟨S200000x16, .f32⟩
  | 68 => ⟨S200000x16, .f32⟩
  | 69 => ⟨S200000x16, .f32⟩
  | 70 => ⟨S200000x16, .f32⟩
  | 71 => ⟨S_, .f32⟩
  | 72 => ⟨S200000x16, .f32⟩
  | 73 => ⟨S200000x16, .f32⟩
  | 74 => ⟨S_, .i32⟩
  | 75 => ⟨S6400000, .i32⟩
  | 76 => ⟨S6400000, .i1⟩
  | 77 => ⟨S_, .i32⟩
  | 78 => ⟨S6400000, .i32⟩
  | 79 => ⟨S6400000, .i32⟩
  | 80 => ⟨S6400000, .i32⟩
  | 81 => ⟨S6400000x1, .i32⟩
  | 82 => ⟨S6400000x1, .f32⟩
  | 83 => ⟨S_, .f32⟩
  | 84 => ⟨S200000x1, .f32⟩
  | 85 => ⟨S6400000x1, .i32⟩
  | 86 => ⟨S200000x1, .f32⟩
  | 87 => ⟨S200000x1, .f32⟩
  | 88 => ⟨S200000x16, .f32⟩
  | 89 => ⟨S1x16, .f32⟩
  | 90 => ⟨S200000x16, .f32⟩
  | 91 => ⟨S200000x16, .f32⟩
  | 92 => ⟨S200000x16, .f32⟩
  | 93 => ⟨S200000x16, .f32⟩
  | 94 => ⟨S_, .f32⟩
  | 95 => ⟨S200000x16, .f32⟩
  | 96 => ⟨S200000x16, .f32⟩
  | 97 => ⟨S_, .i32⟩
  | 98 => ⟨S6400000, .i32⟩
  | 99 => ⟨S6400000, .i1⟩
  | 100 => ⟨S_, .i32⟩
  | 101 => ⟨S6400000, .i32⟩
  | 102 => ⟨S6400000, .i32⟩
  | 103 => ⟨S6400000, .i32⟩
  | 104 => ⟨S6400000x1, .i32⟩
  | 105 => ⟨S6400000x16, .f32⟩
  | 106 => ⟨S_, .f32⟩
  | 107 => ⟨S200000x16, .f32⟩
  | 108 => ⟨S6400000x1, .i32⟩
  | 109 => ⟨S200000x16, .f32⟩
  | 110 => ⟨S200000x16, .f32⟩
  | 111 => ⟨S200000x16, .f32⟩
  | 112 => ⟨S200000x16, .f32⟩
  | 113 => ⟨S1x16, .f32⟩
  | 114 => ⟨S200000x16, .f32⟩
  | 115 => ⟨S200000x16, .f32⟩
  | 116 => ⟨S200000x16, .f32⟩
  | 117 => ⟨S200000x16, .f32⟩
  | 118 => ⟨S_, .f32⟩
  | 119 => ⟨S200000x16, .f32⟩
  | 120 => ⟨S200000x16, .f32⟩
  | 121 => ⟨S_, .i32⟩
  | 122 => ⟨S6400000, .i32⟩
  | 123 => ⟨S6400000, .i1⟩
  | 124 => ⟨S_, .i32⟩
  | 125 => ⟨S6400000, .i32⟩
  | 126 => ⟨S6400000, .i32⟩
  | 127 => ⟨S6400000, .i32⟩
  | _ => ⟨S200000x1, .f32⟩

abbrev hbmTy0_1 (i : Nat) : BufTy := match i % 128 with
  | 0 => ⟨S6400000x1, .i32⟩
  | 1 => ⟨S6400000x16, .f32⟩
  | 2 => ⟨S_, .f32⟩
  | 3 => ⟨S200000x16, .f32⟩
  | 4 => ⟨S6400000x1, .i32⟩
  | 5 => ⟨S200000x16, .f32⟩
  | 6 => ⟨S200000x16, .f32⟩
  | 7 => ⟨S200000x16, .f32⟩
  | 8 => ⟨S200000x16, .f32⟩
  | 9 => ⟨S1x16, .f32⟩
  | 10 => ⟨S200000x16, .f32⟩
  | 11 => ⟨S200000x16, .f32⟩
  | 12 => ⟨S200000x16, .f32⟩
  | 13 => ⟨S200000x16, .f32⟩
  | 14 => ⟨S_, .f32⟩
  | 15 => ⟨S200000x16, .f32⟩
  | 16 => ⟨S200000x16, .f32⟩
  | 17 => ⟨S_, .i32⟩
  | 18 => ⟨S6400000, .i32⟩
  | 19 => ⟨S6400000, .i1⟩
  | 20 => ⟨S_, .i32⟩
  | 21 => ⟨S6400000, .i32⟩
  | 22 => ⟨S6400000, .i32⟩
  | 23 => ⟨S6400000, .i32⟩
  | 24 => ⟨S6400000x1, .i32⟩
  | 25 => ⟨S6400000x16, .f32⟩
  | 26 => ⟨S_, .f32⟩
  | 27 => ⟨S200000x16, .f32⟩
  | 28 => ⟨S6400000x1, .i32⟩
  | 29 => ⟨S200000x16, .f32⟩
  | 30 => ⟨S200000x16, .f32⟩
  | 31 => ⟨S200000x16, .f32⟩
  | 32 => ⟨S200000x16, .f32⟩
  | 33 => ⟨S1x16, .f32⟩
  | 34 => ⟨S200000x16, .f32⟩
  | 35 => ⟨S200000x16, .f32⟩
  | 36 => ⟨S200000x16, .f32⟩
  | 37 => ⟨S200000x16, .f32⟩
  | 38 => ⟨S_, .f32⟩
  | 39 => ⟨S200000x16, .f32⟩
  | 40 => ⟨S200000x16, .f32⟩
  | 41 => ⟨S200000x1, .f32⟩
  | 42 => ⟨S1x1, .f32⟩
  | 43 => ⟨S200000x1, .f32⟩
  | 44 => ⟨S200000x1, .f32⟩
  | 45 => ⟨S200000, .f32⟩
  | 46 => ⟨S200000, .f32⟩
  | 47 => ⟨S200000, .f32⟩
  | 48 => ⟨S_, .f32⟩
  | 49 => ⟨S200000, .f32⟩
  | 50 => ⟨S200000, .f32⟩
  | 51 => ⟨S_, .f32⟩
  | 52 => ⟨S200000, .f32⟩
  | 53 => ⟨S200000, .f32⟩
  | _ => ⟨S200000x1, .f32⟩

abbrev hbmTy (i : Nat) : BufTy := match i / 128 with
  | 0 => hbmTy0_0 i
  | 1 => hbmTy0_1 i
  | _ => ⟨S200000x1, .f32⟩

abbrev bufTy : (tb : Table) → Fin (tcTables nBuf tb) → BufTy
  | .hbm, ⟨i, _⟩ => hbmTy i
  | _, _ => ⟨S200000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_cst_3 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_4 : Ref sig .tc := ⟨.hbm, 44, rfl⟩
abbrev main_v16 : Ref sig .tc := ⟨.hbm, 45, rfl⟩
abbrev main_v17 : Ref sig .tc := ⟨.hbm, 46, rfl⟩
abbrev main_cst_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c : Ref sig .tc := ⟨.hbm, 51, rfl⟩
abbrev main_v21 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_7 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_call0_cst : Ref sig .tc := ⟨.hbm, 71, rfl⟩
abbrev main_call0_v0 : Ref sig .tc := ⟨.hbm, 72, rfl⟩
abbrev main_v38 : Ref sig .tc := ⟨.hbm, 73, rfl⟩
abbrev main_c_8 : Ref sig .tc := ⟨.hbm, 74, rfl⟩
abbrev main_v39 : Ref sig .tc := ⟨.hbm, 75, rfl⟩
abbrev main_v40 : Ref sig .tc := ⟨.hbm, 76, rfl⟩
abbrev main_c_9 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_10 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_call1_cst : Ref sig .tc := ⟨.hbm, 94, rfl⟩
abbrev main_call1_v0 : Ref sig .tc := ⟨.hbm, 95, rfl⟩
abbrev main_v56 : Ref sig .tc := ⟨.hbm, 96, rfl⟩
abbrev main_c_11 : Ref sig .tc := ⟨.hbm, 97, rfl⟩
abbrev main_v57 : Ref sig .tc := ⟨.hbm, 98, rfl⟩
abbrev main_v58 : Ref sig .tc := ⟨.hbm, 99, rfl⟩
abbrev main_c_12 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_13 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_call2_cst : Ref sig .tc := ⟨.hbm, 118, rfl⟩
abbrev main_call2_v0 : Ref sig .tc := ⟨.hbm, 119, rfl⟩
abbrev main_v75 : Ref sig .tc := ⟨.hbm, 120, rfl⟩
abbrev main_c_14 : Ref sig .tc := ⟨.hbm, 121, rfl⟩
abbrev main_v76 : Ref sig .tc := ⟨.hbm, 122, rfl⟩
abbrev main_v77 : Ref sig .tc := ⟨.hbm, 123, rfl⟩
abbrev main_c_15 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_16 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_call3_cst : Ref sig .tc := ⟨.hbm, 142, rfl⟩
abbrev main_call3_v0 : Ref sig .tc := ⟨.hbm, 143, rfl⟩
abbrev main_v94 : Ref sig .tc := ⟨.hbm, 144, rfl⟩
abbrev main_c_17 : Ref sig .tc := ⟨.hbm, 145, rfl⟩
abbrev main_v95 : Ref sig .tc := ⟨.hbm, 146, rfl⟩
abbrev main_v96 : Ref sig .tc := ⟨.hbm, 147, rfl⟩
abbrev main_c_18 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_19 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_call4_cst : Ref sig .tc := ⟨.hbm, 166, rfl⟩
abbrev main_call4_v0 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_20 : Ref sig .tc := ⟨.hbm, 176, rfl⟩
abbrev main_v121 : Ref sig .tc := ⟨.hbm, 177, rfl⟩
abbrev main_v122 : Ref sig .tc := ⟨.hbm, 178, rfl⟩
abbrev main_cst_21 : Ref sig .tc := ⟨.hbm, 179, rfl⟩
abbrev main_v123 : Ref sig .tc := ⟨.hbm, 180, rfl⟩
abbrev main_v124 : Ref sig .tc := ⟨.hbm, 181, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S200000x16 : S_.BroadcastsInDim S200000x16 (![] : Fin 0 → Fin S200000x16.rank)
  bcast_S200000x1_S200000x16_0_1 : S200000x1.BroadcastsInDim S200000x16 (![0, 1] : Fin 2 → Fin S200000x16.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  scatter_S200000_S6400000x1_S6400000_n_0_0_1_wf : ScatterDims.WF S200000 S6400000x1 S6400000 [] [0] [0] 1
  gather_S200000x1_S6400000x1_S6400000x1_1_0_n_n_0_1_11_wf : GatherDims.WF S200000x1 S6400000x1 S6400000x1 [1] [0] [] [0] [] 1 ![1, 1]
  scatter_S200000x1_S6400000x1_S6400000x1_1_0_0_1_wf : ScatterDims.WF S200000x1 S6400000x1 S6400000x1 [1] [0] [0] 1
  dot_S200000x1_S1x16_S200000x16_1_0_0_1_n_n_wf : DotDims.WF S200000x1 S1x16 S200000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S200000x16_S16x16_S200000x16_1_0_0_1_n_n_wf : DotDims.WF S200000x16 S16x16 S200000x16 [1] [0] [0] [1] [] []
  dot_S200000x16_S16x1_S200000x1_1_0_0_1_n_n_wf : DotDims.WF S200000x16 S16x1 S200000x1 [1] [0] [0] [1] [] []

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000x1_S6400000x1_S6400000x1_1_0_n_n_0_1_11 : GatherDims S200000x1 S6400000x1 S6400000x1 where
  offsetDims := [1]
  collapsedSliceDims := [0]
  operandBatchingDims := []
  startIndicesBatchingDims := []
  startIndexMap := [0]
  indexVectorDim := 1
  sliceSizes := ![1, 1]
  wf := gather_S200000x1_S6400000x1_S6400000x1_1_0_n_n_0_1_11_wf
def scatter_S200000x1_S6400000x1_S6400000x1_1_0_0_1 : ScatterDims S200000x1 S6400000x1 S6400000x1 where
  updateWindowDims := [1]
  insertedWindowDims := [0]
  scatterDimsToOperandDims := [0]
  indexVectorDim := 1
  wf := scatter_S200000x1_S6400000x1_S6400000x1_1_0_0_1_wf
def dot_S200000x1_S1x16_S200000x16_1_0_0_1_n_n : DotDims S200000x1 S1x16 S200000x16 where
  lhsContracting := [1]
  rhsContracting := [0]
  lhsNonContracting := [0]
  rhsNonContracting := [1]
  lhsBatch := []
  rhsBatch := []
  wf := dot_S200000x1_S1x16_S200000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def dot_S200000x16_S16x1_S200000x1_1_0_0_1_n_n : DotDims S200000x16 S16x1 S200000x1 where
  lhsContracting := [1]
  rhsContracting := [0]
  lhsNonContracting := [0]
  rhsNonContracting := [1]
  lhsBatch := []
  rhsBatch := []
  wf := dot_S200000x16_S16x1_S200000x1_1_0_0_1_n_n_wf

class Facts : Prop extends Facts₀ where

variable [Facts]
-- ==== Proof.KernelRun.lean ====
/-
  The run of the idealized kernel program with every buffer named.

  The program is five kernel launches among six stretches of host operations.  Every weakly fair execution
  terminates, nothing faults, and every buffer that outlives the launches ends holding what the fold of the
  eleven segments over the launch memory says it holds: a host stretch applies its operations, a launch replaces
  its output array by what its grid points wrote back and leaves every other buffer as it found it.  The last stage
  of that fold is `W11`.  The statement below keeps the whole of it, so that the result buffer can be read.

  The library's theorem for a program cut into segments asks, besides the segments: that the launch's tokens are
  owned at the start; that each segment's exit state is the next one's entry state; that the launch memory gives
  the first entry state; that the last exit state can be read against the final memory; and what is concluded from
  that reading — here, the reading itself.
-/
import proofs.«181867_j54949811585206_2_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, without a fault, in a state where each buffer that is
    not scoped to a launch holds the last stage of the fold of the segments over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    -- the program is the run of its segments
    (fun c Q => by rw [main_run m ρ c])
    -- no launch is entered twice
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch's tokens are owned embedded, beside an empty resource per core
    (hu₀ := by
      iintro Htok; imodintro
      isplitl [Htok]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Htok
      iapply (show (BI.emp : sProp 𝕄) ⊢ bigSep Finset.univ (fun _ : Dev nD => (BI.emp : sProp 𝕄)) from by rw [BI.bigSep_emp_const])
      iempintro)
    -- a core starts holding its unscoped buffers at the launch contents, its generator register, and owing nothing
    (T₀ := fun c => iprop(StableHlo.held (c : Thread nD τ) (Pipeline.ucRefs τ sig) (W0 m ρ c) ∗ R c)) (Tₙ := Tₙ m ρ)
    -- each of the eleven segments hands its exit state to the next unchanged; the last exit state regrouped
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        dsimp only [Pipeline.Seg.post, hseg, Pipeline.HostSeg.ofOps]
        iintro ⟨Hheld, Hreg, Howed⟩
        isplitl [Hheld Hreg]
        · isplitl [Hheld]; · iexact Hheld
          iexact Hreg
        iexact Howed⟩)
    -- the launch memory gives the first state on every core
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howed, -, Hreg, -⟩, -⟩
      imodintro
      isplitl [Hheld]; · iexact Hheld
      isplitl [Hreg]; · iexists _; iexact Hreg
      iexists ∅; iexact Howed)
    -- what is read of a final memory: every unscoped buffer at the last stage of the fold
    (QY := fun c s => ∀ b ∈ Pipeline.ucRefs τ sig, s.mem (((c : Thread nD τ)).1, b) = W11 m ρ c b)
    (hfin := fun c s' => by
      iintro ⟨⟨Hheld, -⟩, HSI⟩
      unfold StableHlo.held
      imodintro
      iapply (pointsTo_read_all (Pipeline.ucRefs τ sig) (fun b => (((c : Thread nD τ)).1, b)) (W11 m ρ c) s')
      isplitl [Hheld] <;> iassumption)
    (hQ := fun s h => h)

end Cert.KernelRun

end
-- ==== Proof.Keep.lean ====
/-
  What survives each segment of the idealized kernel program.

  Between the launch memory and the final memory the program's buffer contents pass through eleven stages
  (`W0` … `W11`): a stretch of host operations changes only the buffers its operations write, a kernel launch only
  its output array.  So a buffer read at a late stage holds what it held at the stage where it was last written.
  This module records that for every buffer a later segment reads: the two edge-endpoint vectors, the two columns
  of reciprocal neighbour counts, each layer's output, and the argument arrays (which nothing writes).

  Two kinds of step back: through a host stretch none of whose operations writes the buffer, and through a launch
  the buffer is not an array of; a launch's INPUT array also comes out as it went in.
-/
import proofs.«181867_j54949811585206_2_alg».proof.Proof.Gen.KernelIdeal.Frame

set_option maxRecDepth 16384

noncomputable section

namespace Cert.KernelKeep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- One step back through a stretch of host operations none of which writes the buffer. -/
macro "back_host" : tactic => `(tactic|
  (refine (StableHlo.after_of_forall_not_mem _ _ (List.forall_iff_forall_mem.mp ?_)).trans ?_
   · simp only [hostOps0, hostOps1, hostOps2, hostOps3, hostOps4, hostOps5, List.flatten_cons, List.flatten_nil, List.append_nil,
       List.cons_append, List.nil_append, List.Forall, StableHlo.nullary_writes, StableHlo.unary_writes, StableHlo.binary_writes,
       StableHlo.ternary_writes, StableHlo.quaternary_writes, StableHlo.reshape_writes, StableHlo.binaryIndexed_writes,
       Finset.mem_singleton]
     repeat' apply And.intro
     all_goals exact StableHlo.devRef_ne_of_ne (by decide)))

/-- One step back through a launch the buffer is not an array of. -/
macro "back2" : tactic => `(tactic| refine (W2_of_ne _ _ _ _ (by decide)).trans ?_)
macro "back4" : tactic => `(tactic| refine (W4_of_ne _ _ _ _ (by decide)).trans ?_)
macro "back6" : tactic => `(tactic| refine (W6_of_ne _ _ _ _ (by decide)).trans ?_)
macro "back8" : tactic => `(tactic| refine (W8_of_ne _ _ _ _ (by decide)).trans ?_)

/-- All the way back to the launch memory from a given stage, for a buffer nothing on the way touches. -/
macro "from1" : tactic => `(tactic| (back_host; exact rfl))
macro "from2" : tactic => `(tactic| (back2; from1))
macro "from3" : tactic => `(tactic| (back_host; from2))
macro "from4" : tactic => `(tactic| (back4; from3))
macro "from5" : tactic => `(tactic| (back_host; from4))
macro "from6" : tactic => `(tactic| (back6; from5))
macro "from7" : tactic => `(tactic| (back_host; from6))
macro "from8" : tactic => `(tactic| (back8; from7))
macro "from9" : tactic => `(tactic| (back_host; from8))

/-! ## The edge endpoints, written once before the first launch -/

theorem v1_W2 : W2 m ρ c (Proc.devRef .tc main_v1) = W1 m ρ c (Proc.devRef .tc main_v1) := by back2; exact rfl
theorem v1_W4 : W4 m ρ c (Proc.devRef .tc main_v1) = W1 m ρ c (Proc.devRef .tc main_v1) := by back4; back_host; exact v1_W2 m ρ c
theorem v1_W6 : W6 m ρ c (Proc.devRef .tc main_v1) = W1 m ρ c (Proc.devRef .tc main_v1) := by back6; back_host; exact v1_W4 m ρ c
theorem v1_W8 : W8 m ρ c (Proc.devRef .tc main_v1) = W1 m ρ c (Proc.devRef .tc main_v1) := by back8; back_host; exact v1_W6 m ρ c

theorem v3_W2 : W2 m ρ c (Proc.devRef .tc main_v3) = W1 m ρ c (Proc.devRef .tc main_v3) := by back2; exact rfl
theorem v3_W4 : W4 m ρ c (Proc.devRef .tc main_v3) = W1 m ρ c (Proc.devRef .tc main_v3) := by back4; back_host; exact v3_W2 m ρ c
theorem v3_W6 : W6 m ρ c (Proc.devRef .tc main_v3) = W1 m ρ c (Proc.devRef .tc main_v3) := by back6; back_host; exact v3_W4 m ρ c
theorem v3_W8 : W8 m ρ c (Proc.devRef .tc main_v3) = W1 m ρ c (Proc.devRef .tc main_v3) := by back8; back_host; exact v3_W6 m ρ c

/-! ## The reciprocal counts: an input of launches 0, 2, 4 (first column) and 1, 3 (second column) -/

theorem v15_W2 : W2 m ρ c (Proc.devRef .tc main_v15) = W1 m ρ c (Proc.devRef .tc main_v15) :=
  (W2_arr m ρ c 1).trans (((dat0 (V1 m ρ) c).arrAt_in 1 rfl _).trans (A_eq0 (V1 m ρ) c 1))
theorem v15_W5 : W5 m ρ c (Proc.devRef .tc main_v15) = W1 m ρ c (Proc.devRef .tc main_v15) := by
  back_host; back4; back_host; exact v15_W2 m ρ c
theorem v15_W6 : W6 m ρ c (Proc.devRef .tc main_v15) = W5 m ρ c (Proc.devRef .tc main_v15) :=
  (W6_arr m ρ c 1).trans (((dat2 (V5 m ρ) c).arrAt_in 1 rfl _).trans (A_eq2 (V5 m ρ) c 1))
theorem v15_W9 : W9 m ρ c (Proc.devRef .tc main_v15) = W1 m ρ c (Proc.devRef .tc main_v15) := by
  back_host; back8; back_host; exact (v15_W6 m ρ c).trans (v15_W5 m ρ c)

theorem v20_W3 : W3 m ρ c (Proc.devRef .tc main_v20) = W1 m ρ c (Proc.devRef .tc main_v20) := by back_host; back2; exact rfl
theorem v20_W4 : W4 m ρ c (Proc.devRef .tc main_v20) = W3 m ρ c (Proc.devRef .tc main_v20) :=
  (W4_arr m ρ c 1).trans (((dat1 (V3 m ρ) c).arrAt_in 1 rfl _).trans (A_eq1 (V3 m ρ) c 1))
theorem v20_W7 : W7 m ρ c (Proc.devRef .tc main_v20) = W1 m ρ c (Proc.devRef .tc main_v20) := by
  back_host; back6; back_host; exact (v20_W4 m ρ c).trans (v20_W3 m ρ c)

/-! ## The layers' outputs, read by later segments -/

theorem v32_W4 : W4 m ρ c (Proc.devRef .tc main_v32) = W2 m ρ c (Proc.devRef .tc main_v32) := by back4; back_host; exact rfl
theorem v32_W5 : W5 m ρ c (Proc.devRef .tc main_v32) = W2 m ρ c (Proc.devRef .tc main_v32) := by back_host; exact v32_W4 m ρ c
theorem v32_W6 : W6 m ρ c (Proc.devRef .tc main_v32) = W2 m ρ c (Proc.devRef .tc main_v32) :=
  ((W6_arr m ρ c 2).trans (((dat2 (V5 m ρ) c).arrAt_in 2 rfl _).trans (A_eq2 (V5 m ρ) c 2))).trans (v32_W5 m ρ c)
theorem v44_W7 : W7 m ρ c (Proc.devRef .tc main_v44) = W4 m ρ c (Proc.devRef .tc main_v44) := by back_host; back6; back_host; exact rfl
theorem v56_W9 : W9 m ρ c (Proc.devRef .tc main_v56) = W6 m ρ c (Proc.devRef .tc main_v56) := by back_host; back8; back_host; exact rfl

/-! ## The argument arrays, where a segment reads them -/

theorem arg0_W1 : W1 m ρ c (Proc.devRef .tc main_arg0) = m ((c : Thread nD τ).loc main_arg0) := by from1
theorem arg0_W2 : W2 m ρ c (Proc.devRef .tc main_arg0) = m ((c : Thread nD τ).loc main_arg0) :=
  ((W2_arr m ρ c 2).trans (((dat0 (V1 m ρ) c).arrAt_in 2 rfl _).trans (A_eq0 (V1 m ρ) c 2))).trans (arg0_W1 m ρ c)
theorem arg3_W1 : W1 m ρ c (Proc.devRef .tc main_arg3) = m ((c : Thread nD τ).loc main_arg3) := by from1
theorem arg5_W1 : W1 m ρ c (Proc.devRef .tc main_arg5) = m ((c : Thread nD τ).loc main_arg5) := by from1
theorem arg1_W3 : W3 m ρ c (Proc.devRef .tc main_arg1) = m ((c : Thread nD τ).loc main_arg1) := by from3
theorem arg6_W3 : W3 m ρ c (Proc.devRef .tc main_arg6) = m ((c : Thread nD τ).loc main_arg6) := by from3
theorem arg8_W3 : W3 m ρ c (Proc.devRef .tc main_arg8) = m ((c : Thread nD τ).loc main_arg8) := by from3
theorem arg7_W2 : W2 m ρ c (Proc.devRef .tc main_arg7) = m ((c : Thread nD τ).loc main_arg7) := by from2
theorem arg9_W5 : W5 m ρ c (Proc.devRef .tc main_arg9) = m ((c : Thread nD τ).loc main_arg9) := by from5
theorem arg11_W5 : W5 m ρ c (Proc.devRef .tc main_arg11) = m ((c : Thread nD τ).loc main_arg11) := by from5
theorem arg10_W4 : W4 m ρ c (Proc.devRef .tc main_arg10) = m ((c : Thread nD τ).loc main_arg10) := by from4
theorem arg12_W7 : W7 m ρ c (Proc.devRef .tc main_arg12) = m ((c : Thread nD τ).loc main_arg12) := by from7
theorem arg14_W7 : W7 m ρ c (Proc.devRef .tc main_arg14) = m ((c : Thread nD τ).loc main_arg14) := by from7
theorem arg13_W6 : W6 m ρ c (Proc.devRef .tc main_arg13) = m ((c : Thread nD τ).loc main_arg13) := by from6
theorem arg15_W9 : W9 m ρ c (Proc.devRef .tc main_arg15) = m ((c : Thread nD τ).loc main_arg15) := by from9
theorem arg17_W9 : W9 m ρ c (Proc.devRef .tc main_arg17) = m ((c : Thread nD τ).loc main_arg17) := by from9
theorem arg21_W9 : W9 m ρ c (Proc.devRef .tc main_arg21) = m ((c : Thread nD τ).loc main_arg21) := by from9
theorem arg16_W8 : W8 m ρ c (Proc.devRef .tc main_arg16) = m ((c : Thread nD τ).loc main_arg16) := by from8
theorem arg22_W8 : W8 m ρ c (Proc.devRef .tc main_arg22) = m ((c : Thread nD τ).loc main_arg22) := by from8

end Cert.KernelKeep

end
-- ==== Proof.Spec.lean ====
/-
  The mathematics of the program, stated once over plain arrays of extended reals.

  One layer takes the summed neighbour features `agg` (N rows of K features), the reciprocal neighbour counts
  `inv` (one per row), the node's own features `x`, two K × H weight matrices `Wl`, `Wr` and a bias row `bl`, and
  returns, at row p and column q,

      max ( Σ_k (agg(p,k) · inv(p)) · Wl(k,q)  +  bl(q)  +  Σ_k x(p,k) · Wr(k,q) ,  0 ).

  The last layer is followed by one more product with an H × 1 column `fcW`, a scalar bias `fcb` and the logistic
  function  1 / (1 + e^(-y)).

  Entry (p, q) of a layer depends only on row p of `agg`, `inv` and `x` (and on all of the weights): that is why
  computing the layer block of rows by block of rows gives the same array as computing it at once, and it is stated
  here as `layerAt_congr` / `headAt_congr`: two families of arrays with the same row give the same entry, whatever
  the two row counts are.
-/
import Idealize.ShloMosaic.PureOps.Ideal
import Idealize.ShloMosaic.Lib.ValueIdx

noncomputable section

open scoped BigOperators

namespace Cert.Sage

open Idealize.ShloMosaic Idealize.ShloMosaic.ValueIdx

/-- A two-dimensional array of extended reals. -/
abbrev Mat (a b : Nat) : Type := (⟨2, ![a, b]⟩ : Shape).Idx → EReal

/-- The value the zero word denotes. -/
abbrev zeroWord : EReal := Ideal.ofBits .f32 0x00000000#32

/-- Entry (p, q) of one layer. -/
def layerAt {N K H : Nat} (agg : Mat N K) (inv : Mat N 1) (x : Mat N K) (Wl : Mat K H) (bl : Mat 1 H) (Wr : Mat K H)
    (p : Fin N) (q : Fin H) : EReal :=
  max ((∑ k : Fin K, (agg (ix2 p k) * inv (ix2 p 0)) * Wl (ix2 k q)) + bl (ix2 0 q) + ∑ k : Fin K, x (ix2 p k) * Wr (ix2 k q))
    zeroWord

/-- One layer as a whole array. -/
def layer {N K H : Nat} (agg : Mat N K) (inv : Mat N 1) (x : Mat N K) (Wl : Mat K H) (bl : Mat 1 H) (Wr : Mat K H) : Mat N H :=
  fun j => layerAt agg inv x Wl bl Wr (j 0) (j 1)

theorem layer_ix2 {N K H : Nat} (agg : Mat N K) (inv : Mat N 1) (x : Mat N K) (Wl : Mat K H) (bl : Mat 1 H) (Wr : Mat K H)
    (p : Fin N) (q : Fin H) : layer agg inv x Wl bl Wr (ix2 p q) = layerAt agg inv x Wl bl Wr p q := rfl

/-- Row p of the last stage: the logistic function of the row's product with the column `fcW`, plus `fcb`. -/
def headAt {N H : Nat} (h : Mat N H) (fcW : Mat H 1) (fcb : Mat 1 1) (p : Fin N) : EReal :=
  Ideal.logistic ((∑ k : Fin H, h (ix2 p k) * fcW (ix2 k 0)) + fcb (ix2 0 0))

/-- The last layer followed by the last stage, as a column. -/
def headCol {N K H : Nat} (agg : Mat N K) (inv : Mat N 1) (x : Mat N K) (Wl : Mat K H) (bl : Mat 1 H) (Wr : Mat K H)
    (fcW : Mat H 1) (fcb : Mat 1 1) : Mat N 1 :=
  fun j => headAt (layer agg inv x Wl bl Wr) fcW fcb (j 0)

theorem headCol_ix2 {N K H : Nat} (agg : Mat N K) (inv : Mat N 1) (x : Mat N K) (Wl : Mat K H) (bl : Mat 1 H) (Wr : Mat K H)
    (fcW : Mat H 1) (fcb : Mat 1 1) (p : Fin N) (u : Fin 1) :
    headCol agg inv x Wl bl Wr fcW fcb (ix2 p u) = headAt (layer agg inv x Wl bl Wr) fcW fcb p := rfl

/-- The same column as a vector. -/
def headVec {N K H : Nat} (agg : Mat N K) (inv : Mat N 1) (x : Mat N K) (Wl : Mat K H) (bl : Mat 1 H) (Wr : Mat K H)
    (fcW : Mat H 1) (fcb : Mat 1 1) : (⟨1, ![N]⟩ : Shape).Idx → EReal :=
  fun j => headAt (layer agg inv x Wl bl Wr) fcW fcb (j 0)

theorem headVec_ix1 {N K H : Nat} (agg : Mat N K) (inv : Mat N 1) (x : Mat N K) (Wl : Mat K H) (bl : Mat 1 H) (Wr : Mat K H)
    (fcW : Mat H 1) (fcb : Mat 1 1) (p : Fin N) :
    headVec agg inv x Wl bl Wr fcW fcb (ix1 p) = headAt (layer agg inv x Wl bl Wr) fcW fcb p := rfl

/-- An entry of a layer depends only on its own row of `agg`, `inv` and `x`. -/
theorem layerAt_congr {N N' K H : Nat} (agg : Mat N K) (inv : Mat N 1) (x : Mat N K) (agg' : Mat N' K) (inv' : Mat N' 1)
    (x' : Mat N' K) (Wl : Mat K H) (bl : Mat 1 H) (Wr : Mat K H) (p : Fin N) (p' : Fin N') (q : Fin H)
    (hagg : ∀ k, agg (ix2 p k) = agg' (ix2 p' k)) (hinv : inv (ix2 p 0) = inv' (ix2 p' 0))
    (hx : ∀ k, x (ix2 p k) = x' (ix2 p' k)) :
    layerAt agg inv x Wl bl Wr p q = layerAt agg' inv' x' Wl bl Wr p' q := by
  unfold layerAt
  rw [hinv]
  simp only [hagg, hx]

/-- A row of the last stage depends only on that row of the layer's result. -/
theorem headAt_congr {N N' H : Nat} (h : Mat N H) (h' : Mat N' H) (fcW : Mat H 1) (fcb : Mat 1 1) (p : Fin N) (p' : Fin N')
    (hh : ∀ k, h (ix2 p k) = h' (ix2 p' k)) : headAt h fcW fcb p = headAt h' fcW fcb p' := by
  unfold headAt
  simp only [hh]

end Cert.Sage

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.Body.lean ====
/-
  What each kernel body computes, read at one entry of the block it stores, at the exact values.

  The three bodies share one shape.  With `agg`, `inv`, `x` the blocks of 5000 rows the body loads and `Wl`, `bl`, `Wr`
  the weights, the stored block holds at (p, q)

      max ( Σ_k (agg(p,k) · inv(p)) · Wl(k,q) + bl(q) + Σ_k x(p,k) · Wr(k,q) , 0 ),

  the changes of float format being the identity at the exact values and each matrix product into the zero
  accumulator a plain sum over the contracted axis.  The last body goes on with one more product, a bias and the
  logistic function.
-/
import proofs.«181867_j54949811585206_2_alg».proof.Proof.Gen.KernelIdeal.Skeleton
import proofs.«181867_j54949811585206_2_alg».proof.Proof.Spec
import proofs.«181867_j54949811585206_2_alg».proof.Proof.LibMatmulZero
import proofs.«181867_j54949811585206_2_alg».proof.Proof.LibRowOps
import Idealize.ShloMosaic.Lib.ValueLayout
import Idealize.ShloMosaic.Lib.Pipeline.Value

noncomputable section

namespace Cert.KernelBody

open Idealize.ShloMosaic Idealize.ShloMosaic.ValueIdx Cert.KernelIdeal Cert.KernelIdeal.Gen

open scoped BigOperators

/-- The [5000,1] × [1,16] product into the zero accumulator at (p, q). -/
theorem mm_1_16 {φ₁ φ₂ : FTy} (l : FVec Ideal S5000x1 φ₁) (r : FVec Ideal S1x16 φ₂) (p : Fin 5000) (q : Fin 16) :
    matmul dot_S5000x1_S1x16_S5000x16_1_0_0_1_n_n none l r (constant (F := Ideal) S5000x16 .f32 0x00000000#32) (ix2 p q)
      = ∑ k : Fin 1, l (ix2 p k) * r (ix2 k q) :=
  Cert.LibMatmulZero.matmul_zero_ix2 (R := 5000) (K := 1) (C := 16) dot_S5000x1_S1x16_S5000x16_1_0_0_1_n_n rfl rfl rfl rfl
    (fun i c => by
      unfold DotDims.lhsIdx
      rw [dif_neg (show ¬(0 : Fin _) ∈ dot_S5000x1_S1x16_S5000x16_1_0_0_1_n_n.lhsBatch by decide),
        dif_pos (show (0 : Fin _) ∈ dot_S5000x1_S1x16_S5000x16_1_0_0_1_n_n.lhsNonContracting by decide)]
      rfl)
    (fun i c => by
      unfold DotDims.rhsIdx
      rw [dif_neg (show ¬(1 : Fin _) ∈ dot_S5000x1_S1x16_S5000x16_1_0_0_1_n_n.rhsBatch by decide),
        dif_pos (show (1 : Fin _) ∈ dot_S5000x1_S1x16_S5000x16_1_0_0_1_n_n.rhsNonContracting by decide)]
      rfl)
    none l r p q

/-- The [5000,16] × [16,16] product into the zero accumulator at (p, q). -/
theorem mm_16_16 {φ₁ φ₂ : FTy} (l : FVec Ideal S5000x16 φ₁) (r : FVec Ideal S16x16 φ₂) (p : Fin 5000) (q : Fin 16) :
    matmul dot_S5000x16_S16x16_S5000x16_1_0_0_1_n_n none l r (constant (F := Ideal) S5000x16 .f32 0x00000000#32) (ix2 p q)
      = ∑ k : Fin 16, l (ix2 p k) * r (ix2 k q) :=
  Cert.LibMatmulZero.matmul_zero_ix2 (R := 5000) (K := 16) (C := 16) dot_S5000x16_S16x16_S5000x16_1_0_0_1_n_n rfl rfl rfl rfl
    (fun i c => by
      unfold DotDims.lhsIdx
      rw [dif_neg (show ¬(0 : Fin _) ∈ dot_S5000x16_S16x16_S5000x16_1_0_0_1_n_n.lhsBatch by decide),
        dif_pos (show (0 : Fin _) ∈ dot_S5000x16_S16x16_S5000x16_1_0_0_1_n_n.lhsNonContracting by decide)]
      rfl)
    (fun i c => by
      unfold DotDims.rhsIdx
      rw [dif_neg (show ¬(1 : Fin _) ∈ dot_S5000x16_S16x16_S5000x16_1_0_0_1_n_n.rhsBatch by decide),
        dif_pos (show (1 : Fin _) ∈ dot_S5000x16_S16x16_S5000x16_1_0_0_1_n_n.rhsNonContracting by decide)]
      rfl)
    none l r p q

/-- The [5000,16] × [16,1] product into the zero accumulator at (p, u). -/
theorem mm_16_1 {φ₁ φ₂ : FTy} (l : FVec Ideal S5000x16 φ₁) (r : FVec Ideal S16x1 φ₂) (p : Fin 5000) (u : Fin 1) :
    matmul dot_S5000x16_S16x1_S5000x1_1_0_0_1_n_n none l r (constant (F := Ideal) S5000x1 .f32 0x00000000#32) (ix2 p u)
      = ∑ k : Fin 16, l (ix2 p k) * r (ix2 k u) :=
  Cert.LibMatmulZero.matmul_zero_ix2 (R := 5000) (K := 16) (C := 1) dot_S5000x16_S16x1_S5000x1_1_0_0_1_n_n rfl rfl rfl rfl
    (fun i c => by
      unfold DotDims.lhsIdx
      rw [dif_neg (show ¬(0 : Fin _) ∈ dot_S5000x16_S16x1_S5000x1_1_0_0_1_n_n.lhsBatch by decide),
        dif_pos (show (0 : Fin _) ∈ dot_S5000x16_S16x1_S5000x1_1_0_0_1_n_n.lhsNonContracting by decide)]
      rfl)
    (fun i c => by
      unfold DotDims.rhsIdx
      rw [dif_neg (show ¬(1 : Fin _) ∈ dot_S5000x16_S16x1_S5000x1_1_0_0_1_n_n.rhsBatch by decide),
        dif_pos (show (1 : Fin _) ∈ dot_S5000x16_S16x1_S5000x1_1_0_0_1_n_n.rhsNonContracting by decide)]
      rfl)
    none l r p u

theorem pay0 (v0 v2 : Vec Ideal S5000x1 .f32) (v6 v9 : Vec Ideal S1x16 .f32) (v13 : Vec Ideal S5000x1 .f32)
    (v15 : Vec Ideal S1x16 .f32) (p : Fin 5000) (q : Fin 16) :
    k0_pay1 (F := Ideal) v0 v2 v6 v9 v13 v15 (ix2 p q) = Cert.Sage.layerAt v0 v2 v13 v6 v9 v15 p q := by
  unfold k0_pay1 Cert.Sage.layerAt
  refine (maximumf_apply _ _ _).trans (congrArg₂ max ?_ rfl)
  refine (addf_apply _ _ _).trans (congrArg₂ (· + ·) ?_ ?_)
  · refine (addf_apply _ _ _).trans (congrArg₂ (· + ·) ?_ ?_)
    · -- the scaled rows times the left weights
      refine (mm_1_16 _ _ p q).trans (Finset.sum_congr rfl fun k _ => ?_)
      have hk : k = 0 := Subsingleton.elim _ _
      subst hk
      exact congrArg₂ (· * ·)
        (congrArg₂ (· * ·) (congrFun (shapeCast_self v0 _) _) (congrFun (shapeCast_self v2 _) _)) rfl
    · -- the bias row repeated down the rows
      exact (broadcastTo_1b_ab_apply _ _ p q).trans (congrFun (shapeCast_self v9 _) _)
  · -- the rows times the right weights
    exact mm_1_16 _ _ p q

theorem pay1 (v0 v2 : Vec Ideal S5000x1 .f32) (v6 v9 : Vec Ideal S1x16 .f32) (v13 : Vec Ideal S5000x1 .f32)
    (v15 : Vec Ideal S1x16 .f32) (p : Fin 5000) (q : Fin 16) :
    k1_pay1 (F := Ideal) v0 v2 v6 v9 v13 v15 (ix2 p q) = Cert.Sage.layerAt v0 v2 v13 v6 v9 v15 p q := by
  unfold k1_pay1 Cert.Sage.layerAt
  refine (maximumf_apply _ _ _).trans (congrArg₂ max ?_ rfl)
  refine (addf_apply _ _ _).trans (congrArg₂ (· + ·) ?_ ?_)
  · refine (addf_apply _ _ _).trans (congrArg₂ (· + ·) ?_ ?_)
    · -- the scaled rows times the left weights
      refine (mm_1_16 _ _ p q).trans (Finset.sum_congr rfl fun k _ => ?_)
      have hk : k = 0 := Subsingleton.elim _ _
      subst hk
      exact congrArg₂ (· * ·)
        (congrArg₂ (· * ·) (congrFun (shapeCast_self v0 _) _) (congrFun (shapeCast_self v2 _) _)) rfl
    · -- the bias row repeated down the rows
      exact (broadcastTo_1b_ab_apply _ _ p q).trans (congrFun (shapeCast_self v9 _) _)
  · -- the rows times the right weights
    exact mm_1_16 _ _ p q

theorem pay2 (v0 : Vec Ideal S5000x16 .f32) (v2 : Vec Ideal S5000x1 .f32) (v7 : Vec Ideal S16x16 .f32)
    (v10 : Vec Ideal S1x16 .f32) (v14 : Vec Ideal S5000x16 .f32) (v17 : Vec Ideal S16x16 .f32) (p : Fin 5000) (q : Fin 16) :
    k2_pay1 (F := Ideal) v0 v2 v7 v10 v14 v17 (ix2 p q) = Cert.Sage.layerAt v0 v2 v14 v7 v10 v17 p q := by
  unfold k2_pay1 Cert.Sage.layerAt
  refine (maximumf_apply _ _ _).trans (congrArg₂ max ?_ rfl)
  refine (addf_apply _ _ _).trans (congrArg₂ (· + ·) ?_ ?_)
  · refine (addf_apply _ _ _).trans (congrArg₂ (· + ·) ?_ ?_)
    · -- the scaled rows times the left weights
      refine (mm_16_16 _ _ p q).trans (Finset.sum_congr rfl fun k _ => ?_)
      exact congrArg₂ (· * ·)
        (congrArg₂ (· * ·) (congrFun (shapeCast_self v0 _) _)
          ((Cert.LibRowOps.broadcastTo_a1_ab_apply _ _ p k).trans (congrFun (shapeCast_self v2 _) _))) rfl
    · -- the bias row repeated down the rows
      exact (broadcastTo_1b_ab_apply _ _ p q).trans (congrFun (shapeCast_self v10 _) _)
  · -- the rows times the right weights
    refine (mm_16_16 _ _ p q).trans (Finset.sum_congr rfl fun k _ => ?_)
    exact congrArg₂ (· * ·) (congrFun (shapeCast_self v14 _) _) rfl

theorem pay3 (v0 : Vec Ideal S5000x16 .f32) (v2 : Vec Ideal S5000x1 .f32) (v7 : Vec Ideal S16x16 .f32)
    (v10 : Vec Ideal S1x16 .f32) (v14 : Vec Ideal S5000x16 .f32) (v17 : Vec Ideal S16x16 .f32) (p : Fin 5000) (q : Fin 16) :
    k3_pay1 (F := Ideal) v0 v2 v7 v10 v14 v17 (ix2 p q) = Cert.Sage.layerAt v0 v2 v14 v7 v10 v17 p q := by
  unfold k3_pay1 Cert.Sage.layerAt
  refine (maximumf_apply _ _ _).trans (congrArg₂ max ?_ rfl)
  refine (addf_apply _ _ _).trans (congrArg₂ (· + ·) ?_ ?_)
  · refine (addf_apply _ _ _).trans (congrArg₂ (· + ·) ?_ ?_)
    · -- the scaled rows times the left weights
      refine (mm_16_16 _ _ p q).trans (Finset.sum_congr rfl fun k _ => ?_)
      exact congrArg₂ (· * ·)
        (congrArg₂ (· * ·) (congrFun (shapeCast_self v0 _) _)
          ((Cert.LibRowOps.broadcastTo_a1_ab_apply _ _ p k).trans (congrFun (shapeCast_self v2 _) _))) rfl
    · -- the bias row repeated down the rows
      exact (broadcastTo_1b_ab_apply _ _ p q).trans (congrFun (shapeCast_self v10 _) _)
  · -- the rows times the right weights
    refine (mm_16_16 _ _ p q).trans (Finset.sum_congr rfl fun k _ => ?_)
    exact congrArg₂ (· * ·) (congrFun (shapeCast_self v14 _) _) rfl

theorem pay4 (v0 : Vec Ideal S5000x16 .f32) (v2 : Vec Ideal S5000x1 .f32) (v7 : Vec Ideal S16x16 .f32)
    (v10 : Vec Ideal S1x16 .f32) (v14 : Vec Ideal S5000x16 .f32) (v17 : Vec Ideal S16x16 .f32)
    (v24 : Vec Ideal S16x1 .f32) (v27 : Vec Ideal S1x1 .f32) (p : Fin 5000) (u : Fin 1) :
    k4_pay1 (F := Ideal) v0 v2 v7 v10 v14 v17 v24 v27 (ix2 p u)
      = Cert.Sage.headAt (Cert.Sage.layer v0 v2 v14 v7 v10 v17) v24 v27 p := by
  have hu : u = 0 := Subsingleton.elim _ _
  subst hu
  unfold k4_pay1 Cert.Sage.headAt
  refine congrArg Ideal.logistic ?_
  refine (addf_apply _ _ _).trans (congrArg₂ (· + ·) ?_ ?_)
  · -- the layer's row times the last column: the layer's entries are the third body's term
    refine (mm_16_1 _ _ p 0).trans (Finset.sum_congr rfl fun k _ => ?_)
    exact congrArg₂ (· * ·) (pay2 v0 v2 v7 v10 v14 v17 p k) rfl
  · -- the one bias entry repeated down the rows
    exact (broadcastTo_1b_ab_apply _ _ p 0).trans (congrFun (shapeCast_self v27 _) _)

end Cert.KernelBody

end
-- ==== Proof.Region0.lean ====
/-
  Region 0, from blocks to the array.

  The region's grid has 40 points; point t loads rows 5000·t … 5000·t + 4999 of the three row-blocked operands
  (summed neighbour features, reciprocal neighbour counts, own features) and all of every weight operand, and stores
  one block of 5000 rows of the result.  Entry (p, q) of the stored block is entry (5000·t + p, q) of the layer of the WHOLE
  operands, because an entry of a layer depends only on its own row of the row-blocked operands;
  the 40 blocks tile the 200000 rows, so after the region the result array is that function of the operands as the
  region found them.
-/
import proofs.«181867_j54949811585206_2_alg».proof.Proof.Gen.KernelIdeal.Frame
import proofs.«181867_j54949811585206_2_alg».proof.Proof.Spec
import proofs.«181867_j54949811585206_2_alg».proof.Proof.Body
import Idealize.ShloMosaic.Lib.Pipeline.Value
import Idealize.ShloMosaic.Lib.ValueIdx

noncomputable section

namespace Cert.KernelRegions

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_off0 : (![0, 0] : Fin 2 → Nat) = fun _ => 0 := funext fun a => by fin_cases a <;> rfl

/-! ## The index maps over the grid: a row-blocked window is at block (t, 0), a weight window at block (0, 0) -/

theorem index0_0 : ∀ t : Fin cfg0.N, win0_0.index t (0 : Fin 2) = t.val ∧ win0_0.index t (1 : Fin 2) = 0 :=
  (by decide +kernel : ∀ t : Fin grid0.N, _)
theorem index0_1 : ∀ t : Fin cfg0.N, win0_1.index t (0 : Fin 2) = t.val ∧ win0_1.index t (1 : Fin 2) = 0 :=
  (by decide +kernel : ∀ t : Fin grid0.N, _)
theorem index0_2 : ∀ t : Fin cfg0.N, win0_2.index t (0 : Fin 2) = t.val ∧ win0_2.index t (1 : Fin 2) = 0 :=
  (by decide +kernel : ∀ t : Fin grid0.N, _)
theorem index0_6 : ∀ t : Fin cfg0.N, win0_6.index t (0 : Fin 2) = t.val ∧ win0_6.index t (1 : Fin 2) = 0 :=
  (by decide +kernel : ∀ t : Fin grid0.N, _)
theorem index0_3 : ∀ t : Fin cfg0.N, win0_3.index t (0 : Fin 2) = 0 ∧ win0_3.index t (1 : Fin 2) = 0 :=
  (by decide +kernel : ∀ t : Fin grid0.N, _)
theorem index0_4 : ∀ t : Fin cfg0.N, win0_4.index t (0 : Fin 2) = 0 ∧ win0_4.index t (1 : Fin 2) = 0 :=
  (by decide +kernel : ∀ t : Fin grid0.N, _)
theorem index0_5 : ∀ t : Fin cfg0.N, win0_5.index t (0 : Fin 2) = 0 ∧ win0_5.index t (1 : Fin 2) = 0 :=
  (by decide +kernel : ∀ t : Fin grid0.N, _)

/-! ## One point -/

/-- Entry (p, q) of what a point stores is entry (5000·n + p, q) of the layer of any arrays whose rows
    5000·n … 5000·n + 4999 are the loaded blocks. -/
theorem point0 (x0 : Vec Ideal S5000x1 .f32) (x1 : Vec Ideal S5000x1 .f32) (x2 : Vec Ideal S5000x1 .f32) (x3 : Vec Ideal S1x16 .f32) (x4 : Vec Ideal S1x16 .f32) (x5 : Vec Ideal S1x16 .f32)
    (A0 : Cert.Sage.Mat 200000 1) (A1 : Cert.Sage.Mat 200000 1) (A2 : Cert.Sage.Mat 200000 1) (n : Nat)
    (h0 : ∀ (y : S5000x1.Idx) (i : S200000x1.Idx), (i 0).val = 5000 * n + (y 0).val → (i 1).val = (y 1).val → x0 y = A0 i)
    (h1 : ∀ (y : S5000x1.Idx) (i : S200000x1.Idx), (i 0).val = 5000 * n + (y 0).val → (i 1).val = (y 1).val → x1 y = A1 i)
    (h2 : ∀ (y : S5000x1.Idx) (i : S200000x1.Idx), (i 0).val = 5000 * n + (y 0).val → (i 1).val = (y 1).val → x2 y = A2 i)
    (j : S5000x16.Idx) (i : S200000x16.Idx) (hi0 : (i 0).val = 5000 * n + (j 0).val) (hi1 : (i 1).val = (j 1).val) :
    k0_pay1 (F := Ideal) x0 x1 x3 x4 x2 x5 j = Cert.Sage.layer A0 A1 A2 x3 x4 x5 i := by
  obtain ⟨p, q, rfl⟩ : ∃ (p : Fin 5000) (q : Fin 16), j = ix2 p q := ⟨j 0, j 1, eq_ix2 j⟩
  obtain ⟨p', q', rfl⟩ : ∃ (p' : Fin 200000) (q' : Fin 16), i = ix2 p' q' := ⟨i 0, i 1, eq_ix2 i⟩
  obtain rfl : q' = q := Fin.ext hi1
  rw [Cert.KernelBody.pay0, Cert.Sage.layer_ix2]
  exact Cert.Sage.layerAt_congr x0 x1 x2 A0 A1 A2 x3 x4 x5 p p' q'
    (fun k => h0 (ix2 p k) (ix2 p' k) hi0 rfl) (h1 (ix2 p 0) (ix2 p' 0) hi0 rfl)
    (fun k => h2 (ix2 p k) (ix2 p' k) hi0 rfl)

/-! ## The loaded blocks as rows of the arrays the region found -/

/-- Window 0's block at point t is rows 5000·t … 5000·t + 4999 of its array (the summed neighbour features). -/
theorem rows0_0 (c : Dev nD) (t : Fin cfg0.N) (y : S5000x1.Idx) (i : S200000x1.Idx)
    (hi0 : (i 0).val = 5000 * t.val + (y 0).val) (hi1 : (i 1).val = (y 1).val) :
    (iblk0 (F := Ideal) V c 0 t : Vec Ideal S5000x1 .f32) y = (V c main_v30 : S200000x1.Idx → Elt Ideal .f32) i := by
  obtain ⟨e0, e1⟩ := index0_0 t
  unfold iblk0
  rw [View.read_apply]
  show V c main_v30 _ = V c main_v30 _
  congr 1
  funext a
  apply Fin.ext
  match a with
  | ⟨0, _⟩ => show win0_0.index t 0 * 5000 + 1 * (y 0).val = (i 0).val; rw [e0, hi0]; omega
  | ⟨1, _⟩ => show win0_0.index t 1 * 1 + 1 * (y 1).val = (i 1).val; rw [e1, hi1]; omega

/-- Window 1's block at point t is rows 5000·t … 5000·t + 4999 of its array (the reciprocal neighbour counts). -/
theorem rows0_1 (c : Dev nD) (t : Fin cfg0.N) (y : S5000x1.Idx) (i : S200000x1.Idx)
    (hi0 : (i 0).val = 5000 * t.val + (y 0).val) (hi1 : (i 1).val = (y 1).val) :
    (iblk0 (F := Ideal) V c 1 t : Vec Ideal S5000x1 .f32) y = (V c main_v15 : S200000x1.Idx → Elt Ideal .f32) i := by
  obtain ⟨e0, e1⟩ := index0_1 t
  unfold iblk0
  rw [View.read_apply]
  show V c main_v15 _ = V c main_v15 _
  congr 1
  funext a
  apply Fin.ext
  match a with
  | ⟨0, _⟩ => show win0_1.index t 0 * 5000 + 1 * (y 0).val = (i 0).val; rw [e0, hi0]; omega
  | ⟨1, _⟩ => show win0_1.index t 1 * 1 + 1 * (y 1).val = (i 1).val; rw [e1, hi1]; omega

/-- Window 2's block at point t is rows 5000·t … 5000·t + 4999 of its array (the nodes' own features). -/
theorem rows0_2 (c : Dev nD) (t : Fin cfg0.N) (y : S5000x1.Idx) (i : S200000x1.Idx)
    (hi0 : (i 0).val = 5000 * t.val + (y 0).val) (hi1 : (i 1).val = (y 1).val) :
    (iblk0 (F := Ideal) V c 2 t : Vec Ideal S5000x1 .f32) y = (V c main_arg0 : S200000x1.Idx → Elt Ideal .f32) i := by
  obtain ⟨e0, e1⟩ := index0_2 t
  unfold iblk0
  rw [View.read_apply]
  show V c main_arg0 _ = V c main_arg0 _
  congr 1
  funext a
  apply Fin.ext
  match a with
  | ⟨0, _⟩ => show win0_2.index t 0 * 5000 + 1 * (y 0).val = (i 0).val; rw [e0, hi0]; omega
  | ⟨1, _⟩ => show win0_2.index t 1 * 1 + 1 * (y 1).val = (i 1).val; rw [e1, hi1]; omega

/-- Window 3's block at any point is its whole array (the neighbour weights). -/
theorem whole0_3 (c : Dev nD) (t : Fin cfg0.N) :
    (iblk0 (F := Ideal) V c 3 t : Vec Ideal S1x16 .f32) = (V c main_arg3 : S1x16.Idx → Elt Ideal .f32) := by
  obtain ⟨e0, e1⟩ := index0_3 t
  funext y
  unfold iblk0
  rw [View.read_apply]
  show V c main_arg3 _ = V c main_arg3 _
  congr 1
  funext a
  apply Fin.ext
  match a with
  | ⟨0, _⟩ => show win0_3.index t 0 * 1 + 1 * (y 0).val = (y 0).val; rw [e0]; omega
  | ⟨1, _⟩ => show win0_3.index t 1 * 16 + 1 * (y 1).val = (y 1).val; rw [e1]; omega

/-- Window 4's block at any point is its whole array (the bias row). -/
theorem whole0_4 (c : Dev nD) (t : Fin cfg0.N) :
    (iblk0 (F := Ideal) V c 4 t : Vec Ideal S1x16 .f32) = (V c main_v31 : S1x16.Idx → Elt Ideal .f32) := by
  obtain ⟨e0, e1⟩ := index0_4 t
  funext y
  unfold iblk0
  rw [View.read_apply]
  show V c main_v31 _ = V c main_v31 _
  congr 1
  funext a
  apply Fin.ext
  match a with
  | ⟨0, _⟩ => show win0_4.index t 0 * 1 + 1 * (y 0).val = (y 0).val; rw [e0]; omega
  | ⟨1, _⟩ => show win0_4.index t 1 * 16 + 1 * (y 1).val = (y 1).val; rw [e1]; omega

/-- Window 5's block at any point is its whole array (the own-feature weights). -/
theorem whole0_5 (c : Dev nD) (t : Fin cfg0.N) :
    (iblk0 (F := Ideal) V c 5 t : Vec Ideal S1x16 .f32) = (V c main_arg5 : S1x16.Idx → Elt Ideal .f32) := by
  obtain ⟨e0, e1⟩ := index0_5 t
  funext y
  unfold iblk0
  rw [View.read_apply]
  show V c main_arg5 _ = V c main_arg5 _
  congr 1
  funext a
  apply Fin.ext
  match a with
  | ⟨0, _⟩ => show win0_5.index t 0 * 1 + 1 * (y 0).val = (y 0).val; rw [e0]; omega
  | ⟨1, _⟩ => show win0_5.index t 1 * 16 + 1 * (y 1).val = (y 1).val; rw [e1]; omega

/-! ## What a point writes back, the cover, the array after the region -/

/-- What point t writes back is block t of the layer of the operands as the region found them. -/
theorem flushed0 (c : Dev nD) (t : Fin cfg0.N) :
    (dat0 (F := Ideal) V c).flushed 6 t = ((cfg0.win 6).blk t).view.read (Elt Ideal)
      (Cert.Sage.layer (V c main_v30) (V c main_v15) (V c main_arg0) (V c main_arg3) (V c main_v31) (V c main_arg5)) := by
  show (cfg0.win 6).cut (grid0.coords t) ((dat0 V c).after 6 t) = _
  rw [after0_6]
  unfold out0_6
  rw [View.canon_unit_zero zero_off0]
  simp only [View.ld_unit_zero (S := S5000x1) zero_off0, View.ld_unit_zero (S := S1x16) zero_off0]
  rw [whole0_3 V c t, whole0_4 V c t, whole0_5 V c t]
  obtain ⟨e0, e1⟩ := index0_6 t
  funext j
  rw [View.read_apply]
  refine point0 _ _ _ _ _ _ _ _ _ t.val (rows0_0 V c t) (rows0_1 V c t) (rows0_2 V c t) j _ ?_ ?_
  · show win0_6.index t 0 * 5000 + 1 * (j 0).val = 5000 * t.val + (j 0).val; rw [e0]; omega
  · show win0_6.index t 1 * 16 + 1 * (j 1).val = (j 1).val; rw [e1]; omega

/-- An index of the result array is in point t's block iff each coordinate is in the block's range on its axis. -/
theorem mem_blk0 (t : Fin cfg0.N) (i : S200000x16.Idx) :
    i ∈ ((cfg0.win 6).blk t).view.set ↔ ∀ a : Fin 2, win0_6.index t a * S5000x16.size a ≤ (i a).val ∧ (i a).val < win0_6.index t a * S5000x16.size a + S5000x16.size a := by
  show i ∈ ((View.whole main_v32).slice (win0_6.rect t)).set ↔ _
  rw [View.set_slice_whole, Rect.mem_set_unit]
  exact Iff.rfl

/-- Row r of the result is in the block of point r / 5000. -/
theorem cover0 (i : S200000x16.Idx) :
    ∃ t : Fin cfg0.N, (cfg0.win 6).flush t = true ∧ i ∈ ((cfg0.win 6).blk t).view.set := by
  have hi0 : (i 0).val < 200000 := (i 0).isLt
  have hi1 : (i 1).val < 16 := (i 1).isLt
  have ht : (i 0).val / 5000 < 40 := by omega
  refine ⟨⟨(i 0).val / 5000, ht⟩, flush0_6 _, ?_⟩
  rw [mem_blk0]
  obtain ⟨e0, e1⟩ := index0_6 ⟨(i 0).val / 5000, ht⟩
  intro a
  match a with
  | ⟨0, _⟩ =>
    show win0_6.index ⟨(i 0).val / 5000, ht⟩ 0 * 5000 ≤ (i 0).val ∧ (i 0).val < win0_6.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ 1 * 16 ≤ (i 1).val ∧ (i 1).val < win0_6.index ⟨(i 0).val / 5000, ht⟩ 1 * 16 + 16
    rw [e1]; omega

/-- After region 0 its result array is the layer of the operands as the region found them. -/
theorem region0 (c : Dev nD) : (dat0 (F := Ideal) V c).arrAt 6 cfg0.N
    = Cert.Sage.layer (V c main_v30) (V c main_v15) (V c main_arg0) (V c main_arg3) (V c main_v31) (V c main_arg5) :=
  (dat0 (F := Ideal) V c).arrAt_eq_of_cover 6 _ (fun t _ => flushed0 V c t) cover0

end Cert.KernelRegions

end
-- ==== Proof.Region1.lean ====
/-
  Region 1, from blocks to the array.

  The region's grid has 40 points; point t loads rows 5000·t … 5000·t + 4999 of the three row-blocked operands
  (summed neighbour features, reciprocal neighbour counts, own features) and all of every weight operand, and stores
  one block of 5000 rows of the result.  Entry (p, q) of the stored block is entry (5000·t + p, q) of the layer of the WHOLE
  operands, because an entry of a layer depends only on its own row of the row-blocked operands;
  the 40 blocks tile the 200000 rows, so after the region the result array is that function of the operands as the
  region found them.
-/
import proofs.«181867_j54949811585206_2_alg».proof.Proof.Gen.KernelIdeal.Frame
import proofs.«181867_j54949811585206_2_alg».proof.Proof.Spec
import proofs.«181867_j54949811585206_2_alg».proof.Proof.Body
import Idealize.ShloMosaic.Lib.Pipeline.Value
import Idealize.ShloMosaic.Lib.ValueIdx

noncomputable section

namespace Cert.KernelRegions

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_off1 : (![0, 0] : Fin 2 → Nat) = fun _ => 0 := funext fun a => by fin_cases a <;> rfl

/-! ## The index maps over the grid: a row-blocked window is at block (t, 0), a weight window at block (0, 0) -/

theorem index1_0 : ∀ t : Fin cfg1.N, win1_0.index t (0 : Fin 2) = t.val ∧ win1_0.index t (1 : Fin 2) = 0 :=
  (by decide +kernel : ∀ t : Fin grid1.N, _)
theorem index1_1 : ∀ t : Fin cfg1.N, win1_1.index t (0 : Fin 2) = t.val ∧ win1_1.index t (1 : Fin 2) = 0 :=
  (by decide +kernel : ∀ t : Fin grid1.N, _)
theorem index1_2 : ∀ t : Fin cfg1.N, win1_2.index t (0 : Fin 2) = t.val ∧ win1_2.index t (1 : Fin 2) = 0 :=
  (by decide +kernel : ∀ t : Fin grid1.N, _)
theorem index1_6 : ∀ t : Fin cfg1.N, win1_6.index t (0 : Fin 2) = t.val ∧ win1_6.index t (1 : Fin 2) = 0 :=
  (by decide +kernel : ∀ t : Fin grid1.N, _)
theorem index1_3 : ∀ t : Fin cfg1.N, win1_3.index t (0 : Fin 2) = 0 ∧ win1_3.index t (1 : Fin 2) = 0 :=
  (by decide +kernel : ∀ t : Fin grid1.N, _)
theorem index1_4 : ∀ t : Fin cfg1.N, win1_4.index t (0 : Fin 2) = 0 ∧ win1_4.index t (1 : Fin 2) = 0 :=
  (by decide +kernel : ∀ t : Fin grid1.N, _)
theorem index1_5 : ∀ t : Fin cfg1.N, win1_5.index t (0 : Fin 2) = 0 ∧ win1_5.index t (1 : Fin 2) = 0 :=
  (by decide +kernel : ∀ t : Fin grid1.N, _)

/-! ## One point -/

/-- Entry (p, q) of what a point stores is entry (5000·n + p, q) of the layer of any arrays whose rows
    5000·n … 5000·n + 4999 are the loaded blocks. -/
theorem point1 (x0 : Vec Ideal S5000x1 .f32) (x1 : Vec Ideal S5000x1 .f32) (x2 : Vec Ideal S5000x1 .f32) (x3 : Vec Ideal S1x16 .f32) (x4 : Vec Ideal S1x16 .f32) (x5 : Vec Ideal S1x16 .f32)
    (A0 : Cert.Sage.Mat 200000 1) (A1 : Cert.Sage.Mat 200000 1) (A2 : Cert.Sage.Mat 200000 1) (n : Nat)
    (h0 : ∀ (y : S5000x1.Idx) (i : S200000x1.Idx), (i 0).val = 5000 * n + (y 0).val → (i 1).val = (y 1).val → x0 y = A0 i)
    (h1 : ∀ (y : S5000x1.Idx) (i : S200000x1.Idx), (i 0).val = 5000 * n + (y 0).val → (i 1).val = (y 1).val → x1 y = A1 i)
    (h2 : ∀ (y : S5000x1.Idx) (i : S200000x1.Idx), (i 0).val = 5000 * n + (y 0).val → (i 1).val = (y 1).val → x2 y = A2 i)
    (j : S5000x16.Idx) (i : S200000x16.Idx) (hi0 : (i 0).val = 5000 * n + (j 0).val) (hi1 : (i 1).val = (j 1).val) :
    k1_pay1 (F := Ideal) x0 x1 x3 x4 x2 x5 j = Cert.Sage.layer A0 A1 A2 x3 x4 x5 i := by
  obtain ⟨p, q, rfl⟩ : ∃ (p : Fin 5000) (q : Fin 16), j = ix2 p q := ⟨j 0, j 1, eq_ix2 j⟩
  obtain ⟨p', q', rfl⟩ : ∃ (p' : Fin 200000) (q' : Fin 16), i = ix2 p' q' := ⟨i 0, i 1, eq_ix2 i⟩
  obtain rfl : q' = q := Fin.ext hi1
  rw [Cert.KernelBody.pay1, Cert.Sage.layer_ix2]
  exact Cert.Sage.layerAt_congr x0 x1 x2 A0 A1 A2 x3 x4 x5 p p' q'
    (fun k => h0 (ix2 p k) (ix2 p' k) hi0 rfl) (h1 (ix2 p 0) (ix2 p' 0) hi0 rfl)
    (fun k => h2 (ix2 p k) (ix2 p' k) hi0 rfl)

/-! ## The loaded blocks as rows of the arrays the region found -/

/-- Window 0's block at point t is rows 5000·t … 5000·t + 4999 of its array (the summed neighbour features). -/
theorem rows1_0 (c : Dev nD) (t : Fin cfg1.N) (y : S5000x1.Idx) (i : S200000x1.Idx)
    (hi0 : (i 0).val = 5000 * t.val + (y 0).val) (hi1 : (i 1).val = (y 1).val) :
    (iblk1 (F := Ideal) V c 0 t : Vec Ideal S5000x1 .f32) y = (V c main_v42 : S200000x1.Idx → Elt Ideal .f32) i := by
  obtain ⟨e0, e1⟩ := index1_0 t
  unfold iblk1
  rw [View.read_apply]
  show V c main_v42 _ = V c main_v42 _
  congr 1
  funext a
  apply Fin.ext
  match a with
  | ⟨0, _⟩ => show win1_0.index t 0 * 5000 + 1 * (y 0).val = (i 0).val; rw [e0, hi0]; omega
  | ⟨1, _⟩ => show win1_0.index t 1 * 1 + 1 * (y 1).val = (i 1).val; rw [e1, hi1]; omega

/-- Window 1's block at point t is rows 5000·t … 5000·t + 4999 of its array (the reciprocal neighbour counts). -/
theorem rows1_1 (c : Dev nD) (t : Fin cfg1.N) (y : S5000x1.Idx) (i : S200000x1.Idx)
    (hi0 : (i 0).val = 5000 * t.val + (y 0).val) (hi1 : (i 1).val = (y 1).val) :
    (iblk1 (F := Ideal) V c 1 t : Vec Ideal S5000x1 .f32) y = (V c main_v20 : S200000x1.Idx → Elt Ideal .f32) i := by
  obtain ⟨e0, e1⟩ := index1_1 t
  unfold iblk1
  rw [View.read_apply]
  show V c main_v20 _ = V c main_v20 _
  congr 1
  funext a
  apply Fin.ext
  match a with
  | ⟨0, _⟩ => show win1_1.index t 0 * 5000 + 1 * (y 0).val = (i 0).val; rw [e0, hi0]; omega
  | ⟨1, _⟩ => show win1_1.index t 1 * 1 + 1 * (y 1).val = (i 1).val; rw [e1, hi1]; omega

/-- Window 2's block at point t is rows 5000·t … 5000·t + 4999 of its array (the nodes' own features). -/
theorem rows1_2 (c : Dev nD) (t : Fin cfg1.N) (y : S5000x1.Idx) (i : S200000x1.Idx)
    (hi0 : (i 0).val = 5000 * t.val + (y 0).val) (hi1 : (i 1).val = (y 1).val) :
    (iblk1 (F := Ideal) V c 2 t : Vec Ideal S5000x1 .f32) y = (V c main_arg1 : S200000x1.Idx → Elt Ideal .f32) i := by
  obtain ⟨e0, e1⟩ := index1_2 t
  unfold iblk1
  rw [View.read_apply]
  show V c main_arg1 _ = V c main_arg1 _
  congr 1
  funext a
  apply Fin.ext
  match a with
  | ⟨0, _⟩ => show win1_2.index t 0 * 5000 + 1 * (y 0).val = (i 0).val; rw [e0, hi0]; omega
  | ⟨1, _⟩ => show win1_2.index t 1 * 1 + 1 * (y 1).val = (i 1).val; rw [e1, hi1]; omega

/-- Window 3's block at any point is its whole array (the neighbour weights). -/
theorem whole1_3 (c : Dev nD) (t : Fin cfg1.N) :
    (iblk1 (F := Ideal) V c 3 t : Vec Ideal S1x16 .f32) = (V c main_arg6 : S1x16.Idx → Elt Ideal .f32) := by
  obtain ⟨e0, e1⟩ := index1_3 t
  funext y
  unfold iblk1
  rw [View.read_apply]
  show V c main_arg6 _ = V c main_arg6 _
  congr 1
  funext a
  apply Fin.ext
  match a with
  | ⟨0, _⟩ => show win1_3.index t 0 * 1 + 1 * (y 0).val = (y 0).val; rw [e0]; omega
  | ⟨1, _⟩ => show win1_3.index t 1 * 16 + 1 * (y 1).val = (y 1).val; rw [e1]; omega

/-- Window 4's block at any point is its whole array (the bias row). -/
theorem whole1_4 (c : Dev nD) (t : Fin cfg1.N) :
    (iblk1 (F := Ideal) V c 4 t : Vec Ideal S1x16 .f32) = (V c main_v43 : S1x16.Idx → Elt Ideal .f32) := by
  obtain ⟨e0, e1⟩ := index1_4 t
  funext y
  unfold iblk1
  rw [View.read_apply]
  show V c main_v43 _ = V c main_v43 _
  congr 1
  funext a
  apply Fin.ext
  match a with
  | ⟨0, _⟩ => show win1_4.index t 0 * 1 + 1 * (y 0).val = (y 0).val; rw [e0]; omega
  | ⟨1, _⟩ => show win1_4.index t 1 * 16 + 1 * (y 1).val = (y 1).val; rw [e1]; omega

/-- Window 5's block at any point is its whole array (the own-feature weights). -/
theorem whole1_5 (c : Dev nD) (t : Fin cfg1.N) :
    (iblk1 (F := Ideal) V c 5 t : Vec Ideal S1x16 .f32) = (V c main_arg8 : S1x16.Idx → Elt Ideal .f32) := by
  obtain ⟨e0, e1⟩ := index1_5 t
  funext y
  unfold iblk1
  rw [View.read_apply]
  show V c main_arg8 _ = V c main_arg8 _
  congr 1
  funext a
  apply Fin.ext
  match a with
  | ⟨0, _⟩ => show win1_5.index t 0 * 1 + 1 * (y 0).val = (y 0).val; rw [e0]; omega
  | ⟨1, _⟩ => show win1_5.index t 1 * 16 + 1 * (y 1).val = (y 1).val; rw [e1]; omega

/-! ## What a point writes back, the cover, the array after the region -/

/-- What point t writes back is block t of the layer of the operands as the region found them. -/
theorem flushed1 (c : Dev nD) (t : Fin cfg1.N) :
    (dat1 (F := Ideal) V c).flushed 6 t = ((cfg1.win 6).blk t).view.read (Elt Ideal)
      (Cert.Sage.layer (V c main_v42) (V c main_v20) (V c main_arg1) (V c main_arg6) (V c main_v43) (V c main_arg8)) := by
  show (cfg1.win 6).cut (grid1.coords t) ((dat1 V c).after 6 t) = _
  rw [after1_6]
  unfold out1_6
  rw [View.canon_unit_zero zero_off1]
  simp only [View.ld_unit_zero (S := S5000x1) zero_off1, View.ld_unit_zero (S := S1x16) zero_off1]
  rw [whole1_3 V c t, whole1_4 V c t, whole1_5 V c t]
  obtain ⟨e0, e1⟩ := index1_6 t
  funext j
  rw [View.read_apply]
  refine point1 _ _ _ _ _ _ _ _ _ t.val (rows1_0 V c t) (rows1_1 V c t) (rows1_2 V c t) j _ ?_ ?_
  · show win1_6.index t 0 * 5000 + 1 * (j 0).val = 5000 * t.val + (j 0).val; rw [e0]; omega
  · show win1_6.index t 1 * 16 + 1 * (j 1).val = (j 1).val; rw [e1]; omega

/-- An index of the result array is in point t's block iff each coordinate is in the block's range on its axis. -/
theorem mem_blk1 (t : Fin cfg1.N) (i : S200000x16.Idx) :
    i ∈ ((cfg1.win 6).blk t).view.set ↔ ∀ a : Fin 2, win1_6.index t a * S5000x16.size a ≤ (i a).val ∧ (i a).val < win1_6.index t a * S5000x16.size a + S5000x16.size a := by
  show i ∈ ((View.whole main_v44).slice (win1_6.rect t)).set ↔ _
  rw [View.set_slice_whole, Rect.mem_set_unit]
  exact Iff.rfl

/-- Row r of the result is in the block of point r / 5000. -/
theorem cover1 (i : S200000x16.Idx) :
    ∃ t : Fin cfg1.N, (cfg1.win 6).flush t = true ∧ i ∈ ((cfg1.win 6).blk t).view.set := by
  have hi0 : (i 0).val < 200000 := (i 0).isLt
  have hi1 : (i 1).val < 16 := (i 1).isLt
  have ht : (i 0).val / 5000 < 40 := by omega
  refine ⟨⟨(i 0).val / 5000, ht⟩, flush1_6 _, ?_⟩
  rw [mem_blk1]
  obtain ⟨e0, e1⟩ := index1_6 ⟨(i 0).val / 5000, ht⟩
  intro a
  match a with
  | ⟨0, _⟩ =>
    show win1_6.index ⟨(i 0).val / 5000, ht⟩ 0 * 5000 ≤ (i 0).val ∧ (i 0).val < win1_6.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ 1 * 16 ≤ (i 1).val ∧ (i 1).val < win1_6.index ⟨(i 0).val / 5000, ht⟩ 1 * 16 + 16
    rw [e1]; omega

/-- After region 1 its result array is the layer of the operands as the region found them. -/
theorem region1 (c : Dev nD) : (dat1 (F := Ideal) V c).arrAt 6 cfg1.N
    = Cert.Sage.layer (V c main_v42) (V c main_v20) (V c main_arg1) (V c main_arg6) (V c main_v43) (V c main_arg8) :=
  (dat1 (F := Ideal) V c).arrAt_eq_of_cover 6 _ (fun t _ => flushed1 V c t) cover1

end Cert.KernelRegions

end
-- ==== Proof.Region2.lean ====
/-
  Region 2, from blocks to the array.

  The region's grid has 40 points; point t loads rows 5000·t … 5000·t + 4999 of the three row-blocked operands
  (summed neighbour features, reciprocal neighbour counts, own features) and all of every weight operand, and stores
  one block of 5000 rows of the result.  Entry (p, q) of the stored block is entry (5000·t + p, q) of the layer of the WHOLE
  operands, because an entry of a layer depends only on its own row of the row-blocked operands;
  the 40 blocks tile the 200000 rows, so after the region the result array is that function of the operands as the
  region found them.
-/
import proofs.«181867_j54949811585206_2_alg».proof.Proof.Gen.KernelIdeal.Frame
import proofs.«181867_j54949811585206_2_alg».proof.Proof.Spec
import proofs.«181867_j54949811585206_2_alg».proof.Proof.Body
import Idealize.ShloMosaic.Lib.Pipeline.Value
import Idealize.ShloMosaic.Lib.ValueIdx

noncomputable section

namespace Cert.KernelRegions

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_off2 : (![0, 0] : Fin 2 → Nat) = fun _ => 0 := funext fun a => by fin_cases a <;> rfl

/-! ## The index maps over the grid: a row-blocked window is at block (t, 0), a weight window at block (0, 0) -/

theorem index2_0 : ∀ t : Fin cfg2.N, win2_0.index t (0 : Fin 2) = t.val ∧ win2_0.index t (1 : Fin 2) = 0 :=
  (by decide +kernel : ∀ t : Fin grid2.N, _)
theorem index2_1 : ∀ t : Fin cfg2.N, win2_1.index t (0 : Fin 2) = t.val ∧ win2_1.index t (1 : Fin 2) = 0 :=
  (by decide +kernel : ∀ t : Fin grid2.N, _)
theorem index2_2 : ∀ t : Fin cfg2.N, win2_2.index t (0 : Fin 2) = t.val ∧ win2_2.index t (1 : Fin 2) = 0 :=
  (by decide +kernel : ∀ t : Fin grid2.N, _)
theorem index2_6 : ∀ t : Fin cfg2.N, win2_6.index t (0 : Fin 2) = t.val ∧ win2_6.index t (1 : Fin 2) = 0 :=
  (by decide +kernel : ∀ t : Fin grid2.N, _)
theorem index2_3 : ∀ t : Fin cfg2.N, win2_3.index t (0 : Fin 2) = 0 ∧ win2_3.index t (1 : Fin 2) = 0 :=
  (by decide +kernel : ∀ t : Fin grid2.N, _)
theorem index2_4 : ∀ t : Fin cfg2.N, win2_4.index t (0 : Fin 2) = 0 ∧ win2_4.index t (1 : Fin 2) = 0 :=
  (by decide +kernel : ∀ t : Fin grid2.N, _)
theorem index2_5 : ∀ t : Fin cfg2.N, win2_5.index t (0 : Fin 2) = 0 ∧ win2_5.index t (1 : Fin 2) = 0 :=
  (by decide +kernel : ∀ t : Fin grid2.N, _)

/-! ## One point -/

/-- Entry (p, q) of what a point stores is entry (5000·n + p, q) of the layer of any arrays whose rows
    5000·n … 5000·n + 4999 are the loaded blocks. -/
theorem point2 (x0 : Vec Ideal S5000x16 .f32) (x1 : Vec Ideal S5000x1 .f32) (x2 : Vec Ideal S5000x16 .f32) (x3 : Vec Ideal S16x16 .f32) (x4 : Vec Ideal S1x16 .f32) (x5 : Vec Ideal S16x16 .f32)
    (A0 : Cert.Sage.Mat 200000 16) (A1 : Cert.Sage.Mat 200000 1) (A2 : Cert.Sage.Mat 200000 16) (n : Nat)
    (h0 : ∀ (y : S5000x16.Idx) (i : S200000x16.Idx), (i 0).val = 5000 * n + (y 0).val → (i 1).val = (y 1).val → x0 y = A0 i)
    (h1 : ∀ (y : S5000x1.Idx) (i : S200000x1.Idx), (i 0).val = 5000 * n + (y 0).val → (i 1).val = (y 1).val → x1 y = A1 i)
    (h2 : ∀ (y : S5000x16.Idx) (i : S200000x16.Idx), (i 0).val = 5000 * n + (y 0).val → (i 1).val = (y 1).val → x2 y = A2 i)
    (j : S5000x16.Idx) (i : S200000x16.Idx) (hi0 : (i 0).val = 5000 * n + (j 0).val) (hi1 : (i 1).val = (j 1).val) :
    k2_pay1 (F := Ideal) x0 x1 x3 x4 x2 x5 j = Cert.Sage.layer A0 A1 A2 x3 x4 x5 i := by
  obtain ⟨p, q, rfl⟩ : ∃ (p : Fin 5000) (q : Fin 16), j = ix2 p q := ⟨j 0, j 1, eq_ix2 j⟩
  obtain ⟨p', q', rfl⟩ : ∃ (p' : Fin 200000) (q' : Fin 16), i = ix2 p' q' := ⟨i 0, i 1, eq_ix2 i⟩
  obtain rfl : q' = q := Fin.ext hi1
  rw [Cert.KernelBody.pay2, Cert.Sage.layer_ix2]
  exact Cert.Sage.layerAt_congr x0 x1 x2 A0 A1 A2 x3 x4 x5 p p' q'
    (fun k => h0 (ix2 p k) (ix2 p' k) hi0 rfl) (h1 (ix2 p 0) (ix2 p' 0) hi0 rfl)
    (fun k => h2 (ix2 p k) (ix2 p' k) hi0 rfl)

/-! ## The loaded blocks as rows of the arrays the region found -/

/-- Window 0's block at point t is rows 5000·t … 5000·t + 4999 of its array (the summed neighbour features). -/
theorem rows2_0 (c : Dev nD) (t : Fin cfg2.N) (y : S5000x16.Idx) (i : S200000x16.Idx)
    (hi0 : (i 0).val = 5000 * t.val + (y 0).val) (hi1 : (i 1).val = (y 1).val) :
    (iblk2 (F := Ideal) V c 0 t : Vec Ideal S5000x16 .f32) y = (V c main_v54 : S200000x16.Idx → Elt Ideal .f32) i := by
  obtain ⟨e0, e1⟩ := index2_0 t
  unfold iblk2
  rw [View.read_apply]
  show V c main_v54 _ = V c main_v54 _
  congr 1
  funext a
  apply Fin.ext
  match a with
  | ⟨0, _⟩ => show win2_0.index t 0 * 5000 + 1 * (y 0).val = (i 0).val; rw [e0, hi0]; omega
  | ⟨1, _⟩ => show win2_0.index t 1 * 16 + 1 * (y 1).val = (i 1).val; rw [e1, hi1]; omega

/-- Window 1's block at point t is rows 5000·t … 5000·t + 4999 of its array (the reciprocal neighbour counts). -/
theorem rows2_1 (c : Dev nD) (t : Fin cfg2.N) (y : S5000x1.Idx) (i : S200000x1.Idx)
    (hi0 : (i 0).val = 5000 * t.val + (y 0).val) (hi1 : (i 1).val = (y 1).val) :
    (iblk2 (F := Ideal) V c 1 t : Vec Ideal S5000x1 .f32) y = (V c main_v15 : S200000x1.Idx → Elt Ideal .f32) i := by
  obtain ⟨e0, e1⟩ := index2_1 t
  unfold iblk2
  rw [View.read_apply]
  show V c main_v15 _ = V c main_v15 _
  congr 1
  funext a
  apply Fin.ext
  match a with
  | ⟨0, _⟩ => show win2_1.index t 0 * 5000 + 1 * (y 0).val = (i 0).val; rw [e0, hi0]; omega
  | ⟨1, _⟩ => show win2_1.index t 1 * 1 + 1 * (y 1).val = (i 1).val; rw [e1, hi1]; omega

/-- Window 2's block at point t is rows 5000·t … 5000·t + 4999 of its array (the nodes' own features). -/
theorem rows2_2 (c : Dev nD) (t : Fin cfg2.N) (y : S5000x16.Idx) (i : S200000x16.Idx)
    (hi0 : (i 0).val = 5000 * t.val + (y 0).val) (hi1 : (i 1).val = (y 1).val) :
    (iblk2 (F := Ideal) V c 2 t : Vec Ideal S5000x16 .f32) y = (V c main_v32 : S200000x16.Idx → Elt Ideal .f32) i := by
  obtain ⟨e0, e1⟩ := index2_2 t
  unfold iblk2
  rw [View.read_apply]
  show V c main_v32 _ = V c main_v32 _
  congr 1
  funext a
  apply Fin.ext
  match a with
  | ⟨0, _⟩ => show win2_2.index t 0 * 5000 + 1 * (y 0).val = (i 0).val; rw [e0, hi0]; omega
  | ⟨1, _⟩ => show win2_2.index t 1 * 16 + 1 * (y 1).val = (i 1).val; rw [e1, hi1]; omega

/-- Window 3's block at any point is its whole array (the neighbour weights). -/
theorem whole2_3 (c : Dev nD) (t : Fin cfg2.N) :
    (iblk2 (F := Ideal) V c 3 t : Vec Ideal S16x16 .f32) = (V c main_arg9 : S16x16.Idx → Elt Ideal .f32) := by
  obtain ⟨e0, e1⟩ := index2_3 t
  funext y
  unfold iblk2
  rw [View.read_apply]
  show V c main_arg9 _ = V c main_arg9 _
  congr 1
  funext a
  apply Fin.ext
  match a with
  | ⟨0, _⟩ => show win2_3.index t 0 * 16 + 1 * (y 0).val = (y 0).val; rw [e0]; omega
  | ⟨1, _⟩ => show win2_3.index t 1 * 16 + 1 * (y 1).val = (y 1).val; rw [e1]; omega

/-- Window 4's block at any point is its whole array (the bias row). -/
theorem whole2_4 (c : Dev nD) (t : Fin cfg2.N) :
    (iblk2 (F := Ideal) V c 4 t : Vec Ideal S1x16 .f32) = (V c main_v55 : S1x16.Idx → Elt Ideal .f32) := by
  obtain ⟨e0, e1⟩ := index2_4 t
  funext y
  unfold iblk2
  rw [View.read_apply]
  show V c main_v55 _ = V c main_v55 _
  congr 1
  funext a
  apply Fin.ext
  match a with
  | ⟨0, _⟩ => show win2_4.index t 0 * 1 + 1 * (y 0).val = (y 0).val; rw [e0]; omega
  | ⟨1, _⟩ => show win2_4.index t 1 * 16 + 1 * (y 1).val = (y 1).val; rw [e1]; omega

/-- Window 5's block at any point is its whole array (the own-feature weights). -/
theorem whole2_5 (c : Dev nD) (t : Fin cfg2.N) :
    (iblk2 (F := Ideal) V c 5 t : Vec Ideal S16x16 .f32) = (V c main_arg11 : S16x16.Idx → Elt Ideal .f32) := by
  obtain ⟨e0, e1⟩ := index2_5 t
  funext y
  unfold iblk2
  rw [View.read_apply]
  show V c main_arg11 _ = V c main_arg11 _
  congr 1
  funext a
  apply Fin.ext
  match a with
  | ⟨0, _⟩ => show win2_5.index t 0 * 16 + 1 * (y 0).val = (y 0).val; rw [e0]; omega
  | ⟨1, _⟩ => show win2_5.index t 1 * 16 + 1 * (y 1).val = (y 1).val; rw [e1]; omega

/-! ## What a point writes back, the cover, the array after the region -/

/-- What point t writes back is block t of the layer of the operands as the region found them. -/
theorem flushed2 (c : Dev nD) (t : Fin cfg2.N) :
    (dat2 (F := Ideal) V c).flushed 6 t = ((cfg2.win 6).blk t).view.read (Elt Ideal)
      (Cert.Sage.layer (V c main_v54) (V c main_v15) (V c main_v32) (V c main_arg9) (V c main_v55) (V c main_arg11)) := by
  show (cfg2.win 6).cut (grid2.coords t) ((dat2 V c).after 6 t) = _
  rw [after2_6]
  unfold out2_6
  rw [View.canon_unit_zero zero_off2]
  simp only [View.ld_unit_zero (S := S5000x16) zero_off2, View.ld_unit_zero (S := S5000x1) zero_off2, View.ld_unit_zero (S := S16x16) zero_off2, View.ld_unit_zero (S := S1x16) zero_off2]
  rw [whole2_3 V c t, whole2_4 V c t, whole2_5 V c t]
  obtain ⟨e0, e1⟩ := index2_6 t
  funext j
  rw [View.read_apply]
  refine point2 _ _ _ _ _ _ _ _ _ t.val (rows2_0 V c t) (rows2_1 V c t) (rows2_2 V c t) j _ ?_ ?_
  · show win2_6.index t 0 * 5000 + 1 * (j 0).val = 5000 * t.val + (j 0).val; rw [e0]; omega
  · show win2_6.index t 1 * 16 + 1 * (j 1).val = (j 1).val; rw [e1]; omega

/-- An index of the result array is in point t's block iff each coordinate is in the block's range on its axis. -/
theorem mem_blk2 (t : Fin cfg2.N) (i : S200000x16.Idx) :
    i ∈ ((cfg2.win 6).blk t).view.set ↔ ∀ a : Fin 2, win2_6.index t a * S5000x16.size a ≤ (i a).val ∧ (i a).val < win2_6.index t a * S5000x16.size a + S5000x16.size a := by
  show i ∈ ((View.whole main_v56).slice (win2_6.rect t)).set ↔ _
  rw [View.set_slice_whole, Rect.mem_set_unit]
  exact Iff.rfl

/-- Row r of the result is in the block of point r / 5000. -/
theorem cover2 (i : S200000x16.Idx) :
    ∃ t : Fin cfg2.N, (cfg2.win 6).flush t = true ∧ i ∈ ((cfg2.win 6).blk t).view.set := by
  have hi0 : (i 0).val < 200000 := (i 0).isLt
  have hi1 : (i 1).val < 16 := (i 1).isLt
  have ht : (i 0).val / 5000 < 40 := by omega
  refine ⟨⟨(i 0).val / 5000, ht⟩, flush2_6 _, ?_⟩
  rw [mem_blk2]
  obtain ⟨e0, e1⟩ := index2_6 ⟨(i 0).val / 5000, ht⟩
  intro a
  match a with
  | ⟨0, _⟩ =>
    show win2_6.index ⟨(i 0).val / 5000, ht⟩ 0 * 5000 ≤ (i 0).val ∧ (i 0).val < win2_6.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win2_6.index ⟨(i 0).val / 5000, ht⟩ 1 * 16 ≤ (i 1).val ∧ (i 1).val < win2_6.index ⟨(i 0).val / 5000, ht⟩ 1 * 16 + 16
    rw [e1]; omega

/-- After region 2 its result array is the layer of the operands as the region found them. -/
theorem region2 (c : Dev nD) : (dat2 (F := Ideal) V c).arrAt 6 cfg2.N
    = Cert.Sage.layer (V c main_v54) (V c main_v15) (V c main_v32) (V c main_arg9) (V c main_v55) (V c main_arg11) :=
  (dat2 (F := Ideal) V c).arrAt_eq_of_cover 6 _ (fun t _ => flushed2 V c t) cover2

end Cert.KernelRegions

end
-- ==== Proof.Region3.lean ====
/-
  Region 3, from blocks to the array.

  The region's grid has 40 points; point t loads rows 5000·t … 5000·t + 4999 of the three row-blocked operands
  (summed neighbour features, reciprocal neighbour counts, own features) and all of every weight operand, and stores
  one block of 5000 rows of the result.  Entry (p, q) of the stored block is entry (5000·t + p, q) of the layer of the WHOLE
  operands, because an entry of a layer depends only on its own row of the row-blocked operands;
  the 40 blocks tile the 200000 rows, so after the region the result array is that function of the operands as the
  region found them.
-/
import proofs.«181867_j54949811585206_2_alg».proof.Proof.Gen.KernelIdeal.Frame
import proofs.«181867_j54949811585206_2_alg».proof.Proof.Spec
import proofs.«181867_j54949811585206_2_alg».proof.Proof.Body
import Idealize.ShloMosaic.Lib.Pipeline.Value
import Idealize.ShloMosaic.Lib.ValueIdx

noncomputable section

namespace Cert.KernelRegions

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_off3 : (![0, 0] : Fin 2 → Nat) = fun _ => 0 := funext fun a => by fin_cases a <;> rfl

/-! ## The index maps over the grid: a row-blocked window is at block (t, 0), a weight window at block (0, 0) -/

theorem index3_0 : ∀ t : Fin cfg3.N, win3_0.index t (0 : Fin 2) = t.val ∧ win3_0.index t (1 : Fin 2) = 0 :=
  (by decide +kernel : ∀ t : Fin grid3.N, _)
theorem index3_1 : ∀ t : Fin cfg3.N, win3_1.index t (0 : Fin 2) = t.val ∧ win3_1.index t (1 : Fin 2) = 0 :=
  (by decide +kernel : ∀ t : Fin grid3.N, _)
theorem index3_2 : ∀ t : Fin cfg3.N, win3_2.index t (0 : Fin 2) = t.val ∧ win3_2.index t (1 : Fin 2) = 0 :=
  (by decide +kernel : ∀ t : Fin grid3.N, _)
theorem index3_6 : ∀ t : Fin cfg3.N, win3_6.index t (0 : Fin 2) = t.val ∧ win3_6.index t (1 : Fin 2) = 0 :=
  (by decide +kernel : ∀ t : Fin grid3.N, _)
theorem index3_3 : ∀ t : Fin cfg3.N, win3_3.index t (0 : Fin 2) = 0 ∧ win3_3.index t (1 : Fin 2) = 0 :=
  (by decide +kernel : ∀ t : Fin grid3.N, _)
theorem index3_4 : ∀ t : Fin cfg3.N, win3_4.index t (0 : Fin 2) = 0 ∧ win3_4.index t (1 : Fin 2) = 0 :=
  (by decide +kernel : ∀ t : Fin grid3.N, _)
theorem index3_5 : ∀ t : Fin cfg3.N, win3_5.index t (0 : Fin 2) = 0 ∧ win3_5.index t (1 : Fin 2) = 0 :=
  (by decide +kernel : ∀ t : Fin grid3.N, _)

/-! ## One point -/

/-- Entry (p, q) of what a point stores is entry (5000·n + p, q) of the layer of any arrays whose rows
    5000·n … 5000·n + 4999 are the loaded blocks. -/
theorem point3 (x0 : Vec Ideal S5000x16 .f32) (x1 : Vec Ideal S5000x1 .f32) (x2 : Vec Ideal S5000x16 .f32) (x3 : Vec Ideal S16x16 .f32) (x4 : Vec Ideal S1x16 .f32) (x5 : Vec Ideal S16x16 .f32)
    (A0 : Cert.Sage.Mat 200000 16) (A1 : Cert.Sage.Mat 200000 1) (A2 : Cert.Sage.Mat 200000 16) (n : Nat)
    (h0 : ∀ (y : S5000x16.Idx) (i : S200000x16.Idx), (i 0).val = 5000 * n + (y 0).val → (i 1).val = (y 1).val → x0 y = A0 i)
    (h1 : ∀ (y : S5000x1.Idx) (i : S200000x1.Idx), (i 0).val = 5000 * n + (y 0).val → (i 1).val = (y 1).val → x1 y = A1 i)
    (h2 : ∀ (y : S5000x16.Idx) (i : S200000x16.Idx), (i 0).val = 5000 * n + (y 0).val → (i 1).val = (y 1).val → x2 y = A2 i)
    (j : S5000x16.Idx) (i : S200000x16.Idx) (hi0 : (i 0).val = 5000 * n + (j 0).val) (hi1 : (i 1).val = (j 1).val) :
    k3_pay1 (F := Ideal) x0 x1 x3 x4 x2 x5 j = Cert.Sage.layer A0 A1 A2 x3 x4 x5 i := by
  obtain ⟨p, q, rfl⟩ : ∃ (p : Fin 5000) (q : Fin 16), j = ix2 p q := ⟨j 0, j 1, eq_ix2 j⟩
  obtain ⟨p', q', rfl⟩ : ∃ (p' : Fin 200000) (q' : Fin 16), i = ix2 p' q' := ⟨i 0, i 1, eq_ix2 i⟩
  obtain rfl : q' = q := Fin.ext hi1
  rw [Cert.KernelBody.pay3, Cert.Sage.layer_ix2]
  exact Cert.Sage.layerAt_congr x0 x1 x2 A0 A1 A2 x3 x4 x5 p p' q'
    (fun k => h0 (ix2 p k) (ix2 p' k) hi0 rfl) (h1 (ix2 p 0) (ix2 p' 0) hi0 rfl)
    (fun k => h2 (ix2 p k) (ix2 p' k) hi0 rfl)

/-! ## The loaded blocks as rows of the arrays the region found -/

/-- Window 0's block at point t is rows 5000·t … 5000·t + 4999 of its array (the summed neighbour features). -/
theorem rows3_0 (c : Dev nD) (t : Fin cfg3.N) (y : S5000x16.Idx) (i : S200000x16.Idx)
    (hi0 : (i 0).val = 5000 * t.val + (y 0).val) (hi1 : (i 1).val = (y 1).val) :
    (iblk3 (F := Ideal) V c 0 t : Vec Ideal S5000x16 .f32) y = (V c main_v66 : S200000x16.Idx → Elt Ideal .f32) i := by
  obtain ⟨e0, e1⟩ := index3_0 t
  unfold iblk3
  rw [View.read_apply]
  show V c main_v66 _ = V c main_v66 _
  congr 1
  funext a
  apply Fin.ext
  match a with
  | ⟨0, _⟩ => show win3_0.index t 0 * 5000 + 1 * (y 0).val = (i 0).val; rw [e0, hi0]; omega
  | ⟨1, _⟩ => show win3_0.index t 1 * 16 + 1 * (y 1).val = (i 1).val; rw [e1, hi1]; omega

/-- Window 1's block at point t is rows 5000·t … 5000·t + 4999 of its array (the reciprocal neighbour counts). -/
theorem rows3_1 (c : Dev nD) (t : Fin cfg3.N) (y : S5000x1.Idx) (i : S200000x1.Idx)
    (hi0 : (i 0).val = 5000 * t.val + (y 0).val) (hi1 : (i 1).val = (y 1).val) :
    (iblk3 (F := Ideal) V c 1 t : Vec Ideal S5000x1 .f32) y = (V c main_v20 : S200000x1.Idx → Elt Ideal .f32) i := by
  obtain ⟨e0, e1⟩ := index3_1 t
  unfold iblk3
  rw [View.read_apply]
  show V c main_v20 _ = V c main_v20 _
  congr 1
  funext a
  apply Fin.ext
  match a with
  | ⟨0, _⟩ => show win3_1.index t 0 * 5000 + 1 * (y 0).val = (i 0).val; rw [e0, hi0]; omega
  | ⟨1, _⟩ => show win3_1.index t 1 * 1 + 1 * (y 1).val = (i 1).val; rw [e1, hi1]; omega

/-- Window 2's block at point t is rows 5000·t … 5000·t + 4999 of its array (the nodes' own features). -/
theorem rows3_2 (c : Dev nD) (t : Fin cfg3.N) (y : S5000x16.Idx) (i : S200000x16.Idx)
    (hi0 : (i 0).val = 5000 * t.val + (y 0).val) (hi1 : (i 1).val = (y 1).val) :
    (iblk3 (F := Ideal) V c 2 t : Vec Ideal S5000x16 .f32) y = (V c main_v44 : S200000x16.Idx → Elt Ideal .f32) i := by
  obtain ⟨e0, e1⟩ := index3_2 t
  unfold iblk3
  rw [View.read_apply]
  show V c main_v44 _ = V c main_v44 _
  congr 1
  funext a
  apply Fin.ext
  match a with
  | ⟨0, _⟩ => show win3_2.index t 0 * 5000 + 1 * (y 0).val = (i 0).val; rw [e0, hi0]; omega
  | ⟨1, _⟩ => show win3_2.index t 1 * 16 + 1 * (y 1).val = (i 1).val; rw [e1, hi1]; omega

/-- Window 3's block at any point is its whole array (the neighbour weights). -/
theorem whole3_3 (c : Dev nD) (t : Fin cfg3.N) :
    (iblk3 (F := Ideal) V c 3 t : Vec Ideal S16x16 .f32) = (V c main_arg12 : S16x16.Idx → Elt Ideal .f32) := by
  obtain ⟨e0, e1⟩ := index3_3 t
  funext y
  unfold iblk3
  rw [View.read_apply]
  show V c main_arg12 _ = V c main_arg12 _
  congr 1
  funext a
  apply Fin.ext
  match a with
  | ⟨0, _⟩ => show win3_3.index t 0 * 16 + 1 * (y 0).val = (y 0).val; rw [e0]; omega
  | ⟨1, _⟩ => show win3_3.index t 1 * 16 + 1 * (y 1).val = (y 1).val; rw [e1]; omega

/-- Window 4's block at any point is its whole array (the bias row). -/
theorem whole3_4 (c : Dev nD) (t : Fin cfg3.N) :
    (iblk3 (F := Ideal) V c 4 t : Vec Ideal S1x16 .f32) = (V c main_v67 : S1x16.Idx → Elt Ideal .f32) := by
  obtain ⟨e0, e1⟩ := index3_4 t
  funext y
  unfold iblk3
  rw [View.read_apply]
  show V c main_v67 _ = V c main_v67 _
  congr 1
  funext a
  apply Fin.ext
  match a with
  | ⟨0, _⟩ => show win3_4.index t 0 * 1 + 1 * (y 0).val = (y 0).val; rw [e0]; omega
  | ⟨1, _⟩ => show win3_4.index t 1 * 16 + 1 * (y 1).val = (y 1).val; rw [e1]; omega

/-- Window 5's block at any point is its whole array (the own-feature weights). -/
theorem whole3_5 (c : Dev nD) (t : Fin cfg3.N) :
    (iblk3 (F := Ideal) V c 5 t : Vec Ideal S16x16 .f32) = (V c main_arg14 : S16x16.Idx → Elt Ideal .f32) := by
  obtain ⟨e0, e1⟩ := index3_5 t
  funext y
  unfold iblk3
  rw [View.read_apply]
  show V c main_arg14 _ = V c main_arg14 _
  congr 1
  funext a
  apply Fin.ext
  match a with
  | ⟨0, _⟩ => show win3_5.index t 0 * 16 + 1 * (y 0).val = (y 0).val; rw [e0]; omega
  | ⟨1, _⟩ => show win3_5.index t 1 * 16 + 1 * (y 1).val = (y 1).val; rw [e1]; omega

/-! ## What a point writes back, the cover, the array after the region -/

/-- What point t writes back is block t of the layer of the operands as the region found them. -/
theorem flushed3 (c : Dev nD) (t : Fin cfg3.N) :
    (dat3 (F := Ideal) V c).flushed 6 t = ((cfg3.win 6).blk t).view.read (Elt Ideal)
      (Cert.Sage.layer (V c main_v66) (V c main_v20) (V c main_v44) (V c main_arg12) (V c main_v67) (V c main_arg14)) := by
  show (cfg3.win 6).cut (grid3.coords t) ((dat3 V c).after 6 t) = _
  rw [after3_6]
  unfold out3_6
  rw [View.canon_unit_zero zero_off3]
  simp only [View.ld_unit_zero (S := S5000x16) zero_off3, View.ld_unit_zero (S := S5000x1) zero_off3, View.ld_unit_zero (S := S16x16) zero_off3, View.ld_unit_zero (S := S1x16) zero_off3]
  rw [whole3_3 V c t, whole3_4 V c t, whole3_5 V c t]
  obtain ⟨e0, e1⟩ := index3_6 t
  funext j
  rw [View.read_apply]
  refine point3 _ _ _ _ _ _ _ _ _ t.val (rows3_0 V c t) (rows3_1 V c t) (rows3_2 V c t) j _ ?_ ?_
  · show win3_6.index t 0 * 5000 + 1 * (j 0).val = 5000 * t.val + (j 0).val; rw [e0]; omega
  · show win3_6.index t 1 * 16 + 1 * (j 1).val = (j 1).val; rw [e1]; omega

/-- An index of the result array is in point t's block iff each coordinate is in the block's range on its axis. -/
theorem mem_blk3 (t : Fin cfg3.N) (i : S200000x16.Idx) :
    i ∈ ((cfg3.win 6).blk t).view.set ↔ ∀ a : Fin 2, win3_6.index t a * S5000x16.size a ≤ (i a).val ∧ (i a).val < win3_6.index t a * S5000x16.size a + S5000x16.size a := by
  show i ∈ ((View.whole main_v68).slice (win3_6.rect t)).set ↔ _
  rw [View.set_slice_whole, Rect.mem_set_unit]
  exact Iff.rfl

/-- Row r of the result is in the block of point r / 5000. -/
theorem cover3 (i : S200000x16.Idx) :
    ∃ t : Fin cfg3.N, (cfg3.win 6).flush t = true ∧ i ∈ ((cfg3.win 6).blk t).view.set := by
  have hi0 : (i 0).val < 200000 := (i 0).isLt
  have hi1 : (i 1).val < 16 := (i 1).isLt
  have ht : (i 0).val / 5000 < 40 := by omega
  refine ⟨⟨(i 0).val / 5000, ht⟩, flush3_6 _, ?_⟩
  rw [mem_blk3]
  obtain ⟨e0, e1⟩ := index3_6 ⟨(i 0).val / 5000, ht⟩
  intro a
  match a with
  | ⟨0, _⟩ =>
    show win3_6.index ⟨(i 0).val / 5000, ht⟩ 0 * 5000 ≤ (i 0).val ∧ (i 0).val < win3_6.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win3_6.index ⟨(i 0).val / 5000, ht⟩ 1 * 16 ≤ (i 1).val ∧ (i 1).val < win3_6.index ⟨(i 0).val / 5000, ht⟩ 1 * 16 + 16
    rw [e1]; omega

/-- After region 3 its result array is the layer of the operands as the region found them. -/
theorem region3 (c : Dev nD) : (dat3 (F := Ideal) V c).arrAt 6 cfg3.N
    = Cert.Sage.layer (V c main_v66) (V c main_v20) (V c main_v44) (V c main_arg12) (V c main_v67) (V c main_arg14) :=
  (dat3 (F := Ideal) V c).arrAt_eq_of_cover 6 _ (fun t _ => flushed3 V c t) cover3

end Cert.KernelRegions

end
-- ==== Proof.Region4.lean ====
/-
  Region 4, from blocks to the array.

  The region's grid has 40 points; point t loads rows 5000·t … 5000·t + 4999 of the three row-blocked operands
  (summed neighbour features, reciprocal neighbour counts, own features) and all of every weight operand, and stores
  one block of 5000 rows of the result.  Row p of the stored block is row 5000·t + p of the last stage of the layer of the WHOLE
  operands, because a row of the last stage depends only on that row of the layer, and an entry of a layer only on its
  own row of the row-blocked operands;
  the 40 blocks tile the 200000 rows, so after the region the result array is that function of the operands as the
  region found them.
-/
import proofs.«181867_j54949811585206_2_alg».proof.Proof.Gen.KernelIdeal.Frame
import proofs.«181867_j54949811585206_2_alg».proof.Proof.Spec
import proofs.«181867_j54949811585206_2_alg».proof.Proof.Body
import Idealize.ShloMosaic.Lib.Pipeline.Value
import Idealize.ShloMosaic.Lib.ValueIdx

noncomputable section

namespace Cert.KernelRegions

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_off4 : (![0, 0] : Fin 2 → Nat) = fun _ => 0 := funext fun a => by fin_cases a <;> rfl

/-! ## The index maps over the grid: a row-blocked window is at block (t, 0), a weight window at block (0, 0) -/

theorem index4_0 : ∀ t : Fin cfg4.N, win4_0.index t (0 : Fin 2) = t.val ∧ win4_0.index t (1 : Fin 2) = 0 :=
  (by decide +kernel : ∀ t : Fin grid4.N, _)
theorem index4_1 : ∀ t : Fin cfg4.N, win4_1.index t (0 : Fin 2) = t.val ∧ win4_1.index t (1 : Fin 2) = 0 :=
  (by decide +kernel : ∀ t : Fin grid4.N, _)
theorem index4_2 : ∀ t : Fin cfg4.N, win4_2.index t (0 : Fin 2) = t.val ∧ win4_2.index t (1 : Fin 2) = 0 :=
  (by decide +kernel : ∀ t : Fin grid4.N, _)
theorem index4_8 : ∀ t : Fin cfg4.N, win4_8.index t (0 : Fin 2) = t.val ∧ win4_8.index t (1 : Fin 2) = 0 :=
  (by decide +kernel : ∀ t : Fin grid4.N, _)
theorem index4_3 : ∀ t : Fin cfg4.N, win4_3.index t (0 : Fin 2) = 0 ∧ win4_3.index t (1 : Fin 2) = 0 :=
  (by decide +kernel : ∀ t : Fin grid4.N, _)
theorem index4_4 : ∀ t : Fin cfg4.N, win4_4.index t (0 : Fin 2) = 0 ∧ win4_4.index t (1 : Fin 2) = 0 :=
  (by decide +kernel : ∀ t : Fin grid4.N, _)
theorem index4_5 : ∀ t : Fin cfg4.N, win4_5.index t (0 : Fin 2) = 0 ∧ win4_5.index t (1 : Fin 2) = 0 :=
  (by decide +kernel : ∀ t : Fin grid4.N, _)
theorem index4_6 : ∀ t : Fin cfg4.N, win4_6.index t (0 : Fin 2) = 0 ∧ win4_6.index t (1 : Fin 2) = 0 :=
  (by decide +kernel : ∀ t : Fin grid4.N, _)
theorem index4_7 : ∀ t : Fin cfg4.N, win4_7.index t (0 : Fin 2) = 0 ∧ win4_7.index t (1 : Fin 2) = 0 :=
  (by decide +kernel : ∀ t : Fin grid4.N, _)

/-! ## One point -/

/-- Row p of what a point stores is row 5000·n + p of the last stage of the layer of any arrays whose rows
    5000·n … 5000·n + 4999 are the loaded blocks. -/
theorem point4 (x0 : Vec Ideal S5000x16 .f32) (x1 : Vec Ideal S5000x1 .f32) (x2 : Vec Ideal S5000x16 .f32) (x3 : Vec Ideal S16x16 .f32) (x4 : Vec Ideal S1x16 .f32) (x5 : Vec Ideal S16x16 .f32) (x6 : Vec Ideal S16x1 .f32) (x7 : Vec Ideal S1x1 .f32)
    (A0 : Cert.Sage.Mat 200000 16) (A1 : Cert.Sage.Mat 200000 1) (A2 : Cert.Sage.Mat 200000 16) (n : Nat)
    (h0 : ∀ (y : S5000x16.Idx) (i : S200000x16.Idx), (i 0).val = 5000 * n + (y 0).val → (i 1).val = (y 1).val → x0 y = A0 i)
    (h1 : ∀ (y : S5000x1.Idx) (i : S200000x1.Idx), (i 0).val = 5000 * n + (y 0).val → (i 1).val = (y 1).val → x1 y = A1 i)
    (h2 : ∀ (y : S5000x16.Idx) (i : S200000x16.Idx), (i 0).val = 5000 * n + (y 0).val → (i 1).val = (y 1).val → x2 y = A2 i)
    (j : S5000x1.Idx) (i : S200000x1.Idx) (hi0 : (i 0).val = 5000 * n + (j 0).val) (hi1 : (i 1).val = (j 1).val) :
    k4_pay1 (F := Ideal) x0 x1 x3 x4 x2 x5 x6 x7 j = Cert.Sage.headCol A0 A1 A2 x3 x4 x5 x6 x7 i := by
  obtain ⟨p, q, rfl⟩ : ∃ (p : Fin 5000) (q : Fin 1), j = ix2 p q := ⟨j 0, j 1, eq_ix2 j⟩
  obtain ⟨p', q', rfl⟩ : ∃ (p' : Fin 200000) (q' : Fin 1), i = ix2 p' q' := ⟨i 0, i 1, eq_ix2 i⟩
  rw [Cert.KernelBody.pay4, Cert.Sage.headCol_ix2]
  refine Cert.Sage.headAt_congr (Cert.Sage.layer x0 x1 x2 x3 x4 x5) (Cert.Sage.layer A0 A1 A2 x3 x4 x5) x6 x7 p p' fun r => ?_
  rw [Cert.Sage.layer_ix2, Cert.Sage.layer_ix2]
  exact Cert.Sage.layerAt_congr x0 x1 x2 A0 A1 A2 x3 x4 x5 p p' r
    (fun k => h0 (ix2 p k) (ix2 p' k) hi0 rfl) (h1 (ix2 p 0) (ix2 p' 0) hi0 rfl)
    (fun k => h2 (ix2 p k) (ix2 p' k) hi0 rfl)

/-! ## The loaded blocks as rows of the arrays the region found -/

/-- Window 0's block at point t is rows 5000·t … 5000·t + 4999 of its array (the summed neighbour features). -/
theorem rows4_0 (c : Dev nD) (t : Fin cfg4.N) (y : S5000x16.Idx) (i : S200000x16.Idx)
    (hi0 : (i 0).val = 5000 * t.val + (y 0).val) (hi1 : (i 1).val = (y 1).val) :
    (iblk4 (F := Ideal) V c 0 t : Vec Ideal S5000x16 .f32) y = (V c main_v78 : S200000x16.Idx → Elt Ideal .f32) i := by
  obtain ⟨e0, e1⟩ := index4_0 t
  unfold iblk4
  rw [View.read_apply]
  show V c main_v78 _ = V c main_v78 _
  congr 1
  funext a
  apply Fin.ext
  match a with
  | ⟨0, _⟩ => show win4_0.index t 0 * 5000 + 1 * (y 0).val = (i 0).val; rw [e0, hi0]; omega
  | ⟨1, _⟩ => show win4_0.index t 1 * 16 + 1 * (y 1).val = (i 1).val; rw [e1, hi1]; omega

/-- Window 1's block at point t is rows 5000·t … 5000·t + 4999 of its array (the reciprocal neighbour counts). -/
theorem rows4_1 (c : Dev nD) (t : Fin cfg4.N) (y : S5000x1.Idx) (i : S200000x1.Idx)
    (hi0 : (i 0).val = 5000 * t.val + (y 0).val) (hi1 : (i 1).val = (y 1).val) :
    (iblk4 (F := Ideal) V c 1 t : Vec Ideal S5000x1 .f32) y = (V c main_v15 : S200000x1.Idx → Elt Ideal .f32) i := by
  obtain ⟨e0, e1⟩ := index4_1 t
  unfold iblk4
  rw [View.read_apply]
  show V c main_v15 _ = V c main_v15 _
  congr 1
  funext a
  apply Fin.ext
  match a with
  | ⟨0, _⟩ => show win4_1.index t 0 * 5000 + 1 * (y 0).val = (i 0).val; rw [e0, hi0]; omega
  | ⟨1, _⟩ => show win4_1.index t 1 * 1 + 1 * (y 1).val = (i 1).val; rw [e1, hi1]; omega

/-- Window 2's block at point t is rows 5000·t … 5000·t + 4999 of its array (the nodes' own features). -/
theorem rows4_2 (c : Dev nD) (t : Fin cfg4.N) (y : S5000x16.Idx) (i : S200000x16.Idx)
    (hi0 : (i 0).val = 5000 * t.val + (y 0).val) (hi1 : (i 1).val = (y 1).val) :
    (iblk4 (F := Ideal) V c 2 t : Vec Ideal S5000x16 .f32) y = (V c main_v56 : S200000x16.Idx → Elt Ideal .f32) i := by
  obtain ⟨e0, e1⟩ := index4_2 t
  unfold iblk4
  rw [View.read_apply]
  show V c main_v56 _ = V c main_v56 _
  congr 1
  funext a
  apply Fin.ext
  match a with
  | ⟨0, _⟩ => show win4_2.index t 0 * 5000 + 1 * (y 0).val = (i 0).val; rw [e0, hi0]; omega
  | ⟨1, _⟩ => show win4_2.index t 1 * 16 + 1 * (y 1).val = (i 1).val; rw [e1, hi1]; omega

/-- Window 3's block at any point is its whole array (the neighbour weights). -/
theorem whole4_3 (c : Dev nD) (t : Fin cfg4.N) :
    (iblk4 (F := Ideal) V c 3 t : Vec Ideal S16x16 .f32) = (V c main_arg15 : S16x16.Idx → Elt Ideal .f32) := by
  obtain ⟨e0, e1⟩ := index4_3 t
  funext y
  unfold iblk4
  rw [View.read_apply]
  show V c main_arg15 _ = V c main_arg15 _
  congr 1
  funext a
  apply Fin.ext
  match a with
  | ⟨0, _⟩ => show win4_3.index t 0 * 16 + 1 * (y 0).val = (y 0).val; rw [e0]; omega
  | ⟨1, _⟩ => show win4_3.index t 1 * 16 + 1 * (y 1).val = (y 1).val; rw [e1]; omega

/-- Window 4's block at any point is its whole array (the bias row). -/
theorem whole4_4 (c : Dev nD) (t : Fin cfg4.N) :
    (iblk4 (F := Ideal) V c 4 t : Vec Ideal S1x16 .f32) = (V c main_v79 : S1x16.Idx → Elt Ideal .f32) := by
  obtain ⟨e0, e1⟩ := index4_4 t
  funext y
  unfold iblk4
  rw [View.read_apply]
  show V c main_v79 _ = V c main_v79 _
  congr 1
  funext a
  apply Fin.ext
  match a with
  | ⟨0, _⟩ => show win4_4.index t 0 * 1 + 1 * (y 0).val = (y 0).val; rw [e0]; omega
  | ⟨1, _⟩ => show win4_4.index t 1 * 16 + 1 * (y 1).val = (y 1).val; rw [e1]; omega

/-- Window 5's block at any point is its whole array (the own-feature weights). -/
theorem whole4_5 (c : Dev nD) (t : Fin cfg4.N) :
    (iblk4 (F := Ideal) V c 5 t : Vec Ideal S16x16 .f32) = (V c main_arg17 : S16x16.Idx → Elt Ideal .f32) := by
  obtain ⟨e0, e1⟩ := index4_5 t
  funext y
  unfold iblk4
  rw [View.read_apply]
  show V c main_arg17 _ = V c main_arg17 _
  congr 1
  funext a
  apply Fin.ext
  match a with
  | ⟨0, _⟩ => show win4_5.index t 0 * 16 + 1 * (y 0).val = (y 0).val; rw [e0]; omega
  | ⟨1, _⟩ => show win4_5.index t 1 * 16 + 1 * (y 1).val = (y 1).val; rw [e1]; omega

/-- Window 6's block at any point is its whole array (the last stage's column). -/
theorem whole4_6 (c : Dev nD) (t : Fin cfg4.N) :
    (iblk4 (F := Ideal) V c 6 t : Vec Ideal S16x1 .f32) = (V c main_arg21 : S16x1.Idx → Elt Ideal .f32) := by
  obtain ⟨e0, e1⟩ := index4_6 t
  funext y
  unfold iblk4
  rw [View.read_apply]
  show V c main_arg21 _ = V c main_arg21 _
  congr 1
  funext a
  apply Fin.ext
  match a with
  | ⟨0, _⟩ => show win4_6.index t 0 * 16 + 1 * (y 0).val = (y 0).val; rw [e0]; omega
  | ⟨1, _⟩ => show win4_6.index t 1 * 1 + 1 * (y 1).val = (y 1).val; rw [e1]; omega

/-- Window 7's block at any point is its whole array (the last stage's bias). -/
theorem whole4_7 (c : Dev nD) (t : Fin cfg4.N) :
    (iblk4 (F := Ideal) V c 7 t : Vec Ideal S1x1 .f32) = (V c main_v80 : S1x1.Idx → Elt Ideal .f32) := by
  obtain ⟨e0, e1⟩ := index4_7 t
  funext y
  unfold iblk4
  rw [View.read_apply]
  show V c main_v80 _ = V c main_v80 _
  congr 1
  funext a
  apply Fin.ext
  match a with
  | ⟨0, _⟩ => show win4_7.index t 0 * 1 + 1 * (y 0).val = (y 0).val; rw [e0]; omega
  | ⟨1, _⟩ => show win4_7.index t 1 * 1 + 1 * (y 1).val = (y 1).val; rw [e1]; omega

/-! ## What a point writes back, the cover, the array after the region -/

/-- What point t writes back is block t of the last stage of the layer of the operands as the region found them. -/
theorem flushed4 (c : Dev nD) (t : Fin cfg4.N) :
    (dat4 (F := Ideal) V c).flushed 8 t = ((cfg4.win 8).blk t).view.read (Elt Ideal)
      (Cert.Sage.headCol (V c main_v78) (V c main_v15) (V c main_v56) (V c main_arg15) (V c main_v79) (V c main_arg17) (V c main_arg21) (V c main_v80)) := by
  show (cfg4.win 8).cut (grid4.coords t) ((dat4 V c).after 8 t) = _
  rw [after4_8]
  unfold out4_8
  rw [View.canon_unit_zero zero_off4]
  simp only [View.ld_unit_zero (S := S5000x16) zero_off4, View.ld_unit_zero (S := S5000x1) zero_off4, View.ld_unit_zero (S := S16x16) zero_off4, View.ld_unit_zero (S := S1x16) zero_off4, View.ld_unit_zero (S := S16x1) zero_off4, View.ld_unit_zero (S := S1x1) zero_off4]
  rw [whole4_3 V c t, whole4_4 V c t, whole4_5 V c t, whole4_6 V c t, whole4_7 V c t]
  obtain ⟨e0, e1⟩ := index4_8 t
  funext j
  rw [View.read_apply]
  refine point4 _ _ _ _ _ _ _ _ _ _ _ t.val (rows4_0 V c t) (rows4_1 V c t) (rows4_2 V c t) j _ ?_ ?_
  · show win4_8.index t 0 * 5000 + 1 * (j 0).val = 5000 * t.val + (j 0).val; rw [e0]; omega
  · show win4_8.index t 1 * 1 + 1 * (j 1).val = (j 1).val; rw [e1]; omega

/-- An index of the result array is in point t's block iff each coordinate is in the block's range on its axis. -/
theorem mem_blk4 (t : Fin cfg4.N) (i : S200000x1.Idx) :
    i ∈ ((cfg4.win 8).blk t).view.set ↔ ∀ a : Fin 2, win4_8.index t a * S5000x1.size a ≤ (i a).val ∧ (i a).val < win4_8.index t a * S5000x1.size a + S5000x1.size a := by
  show i ∈ ((View.whole main_v81).slice (win4_8.rect t)).set ↔ _
  rw [View.set_slice_whole, Rect.mem_set_unit]
  exact Iff.rfl

/-- Row r of the result is in the block of point r / 5000. -/
theorem cover4 (i : S200000x1.Idx) :
    ∃ t : Fin cfg4.N, (cfg4.win 8).flush t = true ∧ i ∈ ((cfg4.win 8).blk t).view.set := by
  have hi0 : (i 0).val < 200000 := (i 0).isLt
  have hi1 : (i 1).val < 1 := (i 1).isLt
  have ht : (i 0).val / 5000 < 40 := by omega
  refine ⟨⟨(i 0).val / 5000, ht⟩, flush4_8 _, ?_⟩
  rw [mem_blk4]
  obtain ⟨e0, e1⟩ := index4_8 ⟨(i 0).val / 5000, ht⟩
  intro a
  match a with
  | ⟨0, _⟩ =>
    show win4_8.index ⟨(i 0).val / 5000, ht⟩ 0 * 5000 ≤ (i 0).val ∧ (i 0).val < win4_8.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win4_8.index ⟨(i 0).val / 5000, ht⟩ 1 * 1 ≤ (i 1).val ∧ (i 1).val < win4_8.index ⟨(i 0).val / 5000, ht⟩ 1 * 1 + 1
    rw [e1]; omega

/-- After region 4 its result array is the last stage of the layer of the operands as the region found them. -/
theorem region4 (c : Dev nD) : (dat4 (F := Ideal) V c).arrAt 8 cfg4.N
    = Cert.Sage.headCol (V c main_v78) (V c main_v15) (V c main_v56) (V c main_arg15) (V c main_v79) (V c main_arg17) (V c main_arg21) (V c main_v80) :=
  (dat4 (F := Ideal) V c).arrAt_eq_of_cover 8 _ (fun t _ => flushed4 V c t) cover4

end Cert.KernelRegions

end
-- ==== Proof.RefLayers.lean ====
/-
  The reference program, layer by layer, at the exact values.

  Each of its five layers is the chain  multiply by the reciprocal counts, product with `Wl`, add the bias row,
  product of the node's own features with `Wr`, add, clip below at zero;  read at an entry (p, q) that chain is the
  specification's `layerAt`, the two products being plain sums over the contracted axis.  The program's last lines
  (one more product, a bias, a reshape to a vector, and  1 / (1 + e^(-y))  written out as negate, exponential, add and
  divide) are the specification's `headAt`: the written-out quotient is the logistic function on every extended real.
-/
import proofs.«181867_j54949811585206_2_alg».proof.Proof.Gen.ReferenceIdeal.Read
import proofs.«181867_j54949811585206_2_alg».proof.Proof.Spec

noncomputable section

namespace Cert.RefLayers

open Idealize.ShloMosaic Idealize.ShloMosaic.ValueIdx Cert.ReferenceIdeal Cert.ReferenceIdeal.Read

variable (x0 x1 : Vec Ideal S200000x1 .f32) (x2 : IVec S2x6400000 32) (x3 : Vec Ideal S1x16 .f32) (x4 : Vec Ideal S16 .f32)
  (x5 x6 : Vec Ideal S1x16 .f32) (x7 : Vec Ideal S16 .f32) (x8 : Vec Ideal S1x16 .f32) (x9 : Vec Ideal S16x16 .f32)
  (x10 : Vec Ideal S16 .f32) (x11 x12 : Vec Ideal S16x16 .f32) (x13 : Vec Ideal S16 .f32) (x14 x15 : Vec Ideal S16x16 .f32)
  (x16 : Vec Ideal S16 .f32) (x17 : Vec Ideal S16x16 .f32) (x21 : Vec Ideal S16x1 .f32) (x22 : Vec Ideal S1 .f32)

theorem layer1a :
    val_main_v38 (F := Ideal) x0 x1 x2 x3 x4 x5
      = Cert.Sage.layer (val_main_v30 (F := Ideal) x1 x2) (val_main_v15 (F := Ideal) x2) x0 x3 (val_main_v33 (F := Ideal) x4) x5 := by
  funext i
  obtain ⟨p, q, rfl⟩ : ∃ (p : Fin 200000) (q : Fin 16), i = ix2 p q := ⟨i 0, i 1, eq_ix2 i⟩
  have el : ∀ k : Fin 1, lidx_main_v32 (ix2 p q) k = ix2 p k := fun k =>
    funext fun a => Fin.ext (by match a with | ⟨0, _⟩ => rfl | ⟨1, _⟩ => rfl)
  have er : ∀ k : Fin 1, ridx_main_v32 (ix2 p q) k = ix2 k q := fun k =>
    funext fun a => Fin.ext (by match a with | ⟨0, _⟩ => rfl | ⟨1, _⟩ => rfl)
  have el' : ∀ k : Fin 1, lidx_main_v36 (ix2 p q) k = ix2 p k := fun k =>
    funext fun a => Fin.ext (by match a with | ⟨0, _⟩ => rfl | ⟨1, _⟩ => rfl)
  have er' : ∀ k : Fin 1, ridx_main_v36 (ix2 p q) k = ix2 k q := fun k =>
    funext fun a => Fin.ext (by match a with | ⟨0, _⟩ => rfl | ⟨1, _⟩ => rfl)
  have eb : idx_main_v34 (ix2 p q) = ix2 0 q :=
    funext fun a => Fin.ext (by match a with | ⟨0, _⟩ => rfl | ⟨1, _⟩ => rfl)
  have h1 : ∀ k : Fin 1, val_main_v31 (F := Ideal) x1 x2 (lidx_main_v32 (ix2 p q) k) * x3 (ridx_main_v32 (ix2 p q) k)
      = (val_main_v30 (F := Ideal) x1 x2 (ix2 p k) * val_main_v15 (F := Ideal) x2 (ix2 p 0)) * x3 (ix2 k q) := fun k => by
    obtain rfl : k = 0 := Subsingleton.elim k 0
    rw [el 0, er 0, val_main_v31_apply]
    rfl
  have h2 : ∀ k : Fin 1, x0 (lidx_main_v36 (ix2 p q) k) * x5 (ridx_main_v36 (ix2 p q) k)
      = x0 (ix2 p k) * x5 (ix2 k q) := fun k => by
    rw [el' k, er' k]
  rw [Cert.Sage.layer_ix2, val_main_v38_apply, val_main_v37_apply, val_main_v35_apply, val_main_v32_apply,
    val_main_v36_apply, val_main_v34_apply, val_main_call0_v0_apply, val_main_call0_cst_apply, eb,
    Finset.sum_congr rfl (fun k _ => h1 k), Finset.sum_congr rfl (fun k _ => h2 k)]
  rfl

theorem layer1b :
    val_main_v56 (F := Ideal) x0 x1 x2 x6 x7 x8
      = Cert.Sage.layer (val_main_v48 (F := Ideal) x0 x2) (val_main_v20 (F := Ideal) x2) x1 x6 (val_main_v51 (F := Ideal) x7) x8 := by
  funext i
  obtain ⟨p, q, rfl⟩ : ∃ (p : Fin 200000) (q : Fin 16), i = ix2 p q := ⟨i 0, i 1, eq_ix2 i⟩
  have el : ∀ k : Fin 1, lidx_main_v50 (ix2 p q) k = ix2 p k := fun k =>
    funext fun a => Fin.ext (by match a with | ⟨0, _⟩ => rfl | ⟨1, _⟩ => rfl)
  have er : ∀ k : Fin 1, ridx_main_v50 (ix2 p q) k = ix2 k q := fun k =>
    funext fun a => Fin.ext (by match a with | ⟨0, _⟩ => rfl | ⟨1, _⟩ => rfl)
  have el' : ∀ k : Fin 1, lidx_main_v54 (ix2 p q) k = ix2 p k := fun k =>
    funext fun a => Fin.ext (by match a with | ⟨0, _⟩ => rfl | ⟨1, _⟩ => rfl)
  have er' : ∀ k : Fin 1, ridx_main_v54 (ix2 p q) k = ix2 k q := fun k =>
    funext fun a => Fin.ext (by match a with | ⟨0, _⟩ => rfl | ⟨1, _⟩ => rfl)
  have eb : idx_main_v52 (ix2 p q) = ix2 0 q :=
    funext fun a => Fin.ext (by match a with | ⟨0, _⟩ => rfl | ⟨1, _⟩ => rfl)
  have h1 : ∀ k : Fin 1, val_main_v49 (F := Ideal) x0 x2 (lidx_main_v50 (ix2 p q) k) * x6 (ridx_main_v50 (ix2 p q) k)
      = (val_main_v48 (F := Ideal) x0 x2 (ix2 p k) * val_main_v20 (F := Ideal) x2 (ix2 p 0)) * x6 (ix2 k q) := fun k => by
    obtain rfl : k = 0 := Subsingleton.elim k 0
    rw [el 0, er 0, val_main_v49_apply]
    rfl
  have h2 : ∀ k : Fin 1, x1 (lidx_main_v54 (ix2 p q) k) * x8 (ridx_main_v54 (ix2 p q) k)
      = x1 (ix2 p k) * x8 (ix2 k q) := fun k => by
    rw [el' k, er' k]
  rw [Cert.Sage.layer_ix2, val_main_v56_apply, val_main_v55_apply, val_main_v53_apply, val_main_v50_apply,
    val_main_v54_apply, val_main_v52_apply, val_main_call1_v0_apply, val_main_call1_cst_apply, eb,
    Finset.sum_congr rfl (fun k _ => h1 k), Finset.sum_congr rfl (fun k _ => h2 k)]
  rfl

theorem layer2a :
    val_main_v75 (F := Ideal) x0 x1 x2 x3 x4 x5 x6 x7 x8 x9 x10 x11
      = Cert.Sage.layer (val_main_v66 (F := Ideal) x0 x1 x2 x6 x7 x8) (val_main_v15 (F := Ideal) x2)
          (val_main_v38 (F := Ideal) x0 x1 x2 x3 x4 x5) x9 (val_main_v70 (F := Ideal) x10) x11 := by
  funext i
  obtain ⟨p, q, rfl⟩ : ∃ (p : Fin 200000) (q : Fin 16), i = ix2 p q := ⟨i 0, i 1, eq_ix2 i⟩
  have el : ∀ k : Fin 16, lidx_main_v69 (ix2 p q) k = ix2 p k := fun k =>
    funext fun a => Fin.ext (by match a with | ⟨0, _⟩ => rfl | ⟨1, _⟩ => rfl)
  have er : ∀ k : Fin 16, ridx_main_v69 (ix2 p q) k = ix2 k q := fun k =>
    funext fun a => Fin.ext (by match a with | ⟨0, _⟩ => rfl | ⟨1, _⟩ => rfl)
  have el' : ∀ k : Fin 16, lidx_main_v73 (ix2 p q) k = ix2 p k := fun k =>
    funext fun a => Fin.ext (by match a with | ⟨0, _⟩ => rfl | ⟨1, _⟩ => rfl)
  have er' : ∀ k : Fin 16, ridx_main_v73 (ix2 p q) k = ix2 k q := fun k =>
    funext fun a => Fin.ext (by match a with | ⟨0, _⟩ => rfl | ⟨1, _⟩ => rfl)
  have eb : idx_main_v71 (ix2 p q) = ix2 0 q :=
    funext fun a => Fin.ext (by match a with | ⟨0, _⟩ => rfl | ⟨1, _⟩ => rfl)
  have ec : ∀ k : Fin 16, idx_main_v67 (ix2 p k) = ix2 p 0 := fun k =>
    funext fun a => Fin.ext (by match a with | ⟨0, _⟩ => rfl | ⟨1, _⟩ => rfl)
  have h1 : ∀ k : Fin 16, val_main_v68 (F := Ideal) x0 x1 x2 x6 x7 x8 (lidx_main_v69 (ix2 p q) k) * x9 (ridx_main_v69 (ix2 p q) k)
      = (val_main_v66 (F := Ideal) x0 x1 x2 x6 x7 x8 (ix2 p k) * val_main_v15 (F := Ideal) x2 (ix2 p 0)) * x9 (ix2 k q) := fun k => by
    rw [el k, er k, val_main_v68_apply, val_main_v67_apply, ec k]
    rfl
  have h2 : ∀ k : Fin 16, val_main_v38 (F := Ideal) x0 x1 x2 x3 x4 x5 (lidx_main_v73 (ix2 p q) k) * x11 (ridx_main_v73 (ix2 p q) k)
      = val_main_v38 (F := Ideal) x0 x1 x2 x3 x4 x5 (ix2 p k) * x11 (ix2 k q) := fun k => by
    rw [el' k, er' k]
  rw [Cert.Sage.layer_ix2, val_main_v75_apply, val_main_v74_apply, val_main_v72_apply, val_main_v69_apply,
    val_main_v73_apply, val_main_v71_apply, val_main_call2_v0_apply, val_main_call2_cst_apply, eb,
    Finset.sum_congr rfl (fun k _ => h1 k), Finset.sum_congr rfl (fun k _ => h2 k)]
  rfl

theorem layer2b :
    val_main_v94 (F := Ideal) x0 x1 x2 x3 x4 x5 x6 x7 x8 x12 x13 x14
      = Cert.Sage.layer (val_main_v85 (F := Ideal) x0 x1 x2 x3 x4 x5) (val_main_v20 (F := Ideal) x2)
          (val_main_v56 (F := Ideal) x0 x1 x2 x6 x7 x8) x12 (val_main_v89 (F := Ideal) x13) x14 := by
  funext i
  obtain ⟨p, q, rfl⟩ : ∃ (p : Fin 200000) (q : Fin 16), i = ix2 p q := ⟨i 0, i 1, eq_ix2 i⟩
  have el : ∀ k : Fin 16, lidx_main_v88 (ix2 p q) k = ix2 p k := fun k =>
    funext fun a => Fin.ext (by match a with | ⟨0, _⟩ => rfl | ⟨1, _⟩ => rfl)
  have er : ∀ k : Fin 16, ridx_main_v88 (ix2 p q) k = ix2 k q := fun k =>
    funext fun a => Fin.ext (by match a with | ⟨0, _⟩ => rfl | ⟨1, _⟩ => rfl)
  have el' : ∀ k : Fin 16, lidx_main_v92 (ix2 p q) k = ix2 p k := fun k =>
    funext fun a => Fin.ext (by match a with | ⟨0, _⟩ => rfl | ⟨1, _⟩ => rfl)
  have er' : ∀ k : Fin 16, ridx_main_v92 (ix2 p q) k = ix2 k q := fun k =>
    funext fun a => Fin.ext (by match a with | ⟨0, _⟩ => rfl | ⟨1, _⟩ => rfl)
  have eb : idx_main_v90 (ix2 p q) = ix2 0 q :=
    funext fun a => Fin.ext (by match a with | ⟨0, _⟩ => rfl | ⟨1, _⟩ => rfl)
  have ec : ∀ k : Fin 16, idx_main_v86 (ix2 p k) = ix2 p 0 := fun k =>
    funext fun a => Fin.ext (by match a with | ⟨0, _⟩ => rfl | ⟨1, _⟩ => rfl)
  have h1 : ∀ k : Fin 16, val_main_v87 (F := Ideal) x0 x1 x2 x3 x4 x5 (lidx_main_v88 (ix2 p q) k) * x12 (ridx_main_v88 (ix2 p q) k)
      = (val_main_v85 (F := Ideal) x0 x1 x2 x3 x4 x5 (ix2 p k) * val_main_v20 (F := Ideal) x2 (ix2 p 0)) * x12 (ix2 k q) := fun k => by
    rw [el k, er k, val_main_v87_apply, val_main_v86_apply, ec k]
    rfl
  have h2 : ∀ k : Fin 16, val_main_v56 (F := Ideal) x0 x1 x2 x6 x7 x8 (lidx_main_v92 (ix2 p q) k) * x14 (ridx_main_v92 (ix2 p q) k)
      = val_main_v56 (F := Ideal) x0 x1 x2 x6 x7 x8 (ix2 p k) * x14 (ix2 k q) := fun k => by
    rw [el' k, er' k]
  rw [Cert.Sage.layer_ix2, val_main_v94_apply, val_main_v93_apply, val_main_v91_apply, val_main_v88_apply,
    val_main_v92_apply, val_main_v90_apply, val_main_call3_v0_apply, val_main_call3_cst_apply, eb,
    Finset.sum_congr rfl (fun k _ => h1 k), Finset.sum_congr rfl (fun k _ => h2 k)]
  rfl

/-- The quotient  1 / (1 + e^(-y))  written with the program's negate, exponential, add and divide is the logistic function. -/
theorem logistic_written (y : Ideal .f32) :
    FloatOps.hostDivf (1 : Ideal .f32) (FloatOps.addf 1 (FloatOps.hostUnary .exp (FloatOps.hostNegf y))) = Ideal.logistic y := rfl

/-- The last layer (the one the program's last lines start from), in the same form as the other four. -/
theorem layer3a :
    val_main_v113 (F := Ideal) x0 x1 x2 x3 x4 x5 x6 x7 x8 x9 x10 x11 x12 x13 x14 x15 x16 x17
      = Cert.Sage.layer (val_main_v104 (F := Ideal) x0 x1 x2 x3 x4 x5 x6 x7 x8 x12 x13 x14) (val_main_v15 (F := Ideal) x2)
          (val_main_v75 (F := Ideal) x0 x1 x2 x3 x4 x5 x6 x7 x8 x9 x10 x11) x15 (val_main_v108 (F := Ideal) x16) x17 := by
  funext i
  obtain ⟨p, q, rfl⟩ : ∃ (p : Fin 200000) (q : Fin 16), i = ix2 p q := ⟨i 0, i 1, eq_ix2 i⟩
  have el : ∀ k : Fin 16, lidx_main_v107 (ix2 p q) k = ix2 p k := fun k =>
    funext fun a => Fin.ext (by match a with | ⟨0, _⟩ => rfl | ⟨1, _⟩ => rfl)
  have er : ∀ k : Fin 16, ridx_main_v107 (ix2 p q) k = ix2 k q := fun k =>
    funext fun a => Fin.ext (by match a with | ⟨0, _⟩ => rfl | ⟨1, _⟩ => rfl)
  have el' : ∀ k : Fin 16, lidx_main_v111 (ix2 p q) k = ix2 p k := fun k =>
    funext fun a => Fin.ext (by match a with | ⟨0, _⟩ => rfl | ⟨1, _⟩ => rfl)
  have er' : ∀ k : Fin 16, ridx_main_v111 (ix2 p q) k = ix2 k q := fun k =>
    funext fun a => Fin.ext (by match a with | ⟨0, _⟩ => rfl | ⟨1, _⟩ => rfl)
  have eb : idx_main_v109 (ix2 p q) = ix2 0 q :=
    funext fun a => Fin.ext (by match a with | ⟨0, _⟩ => rfl | ⟨1, _⟩ => rfl)
  have ec : ∀ k : Fin 16, idx_main_v105 (ix2 p k) = ix2 p 0 := fun k =>
    funext fun a => Fin.ext (by match a with | ⟨0, _⟩ => rfl | ⟨1, _⟩ => rfl)
  have h1 : ∀ k : Fin 16, val_main_v106 (F := Ideal) x0 x1 x2 x3 x4 x5 x6 x7 x8 x12 x13 x14 (lidx_main_v107 (ix2 p q) k) * x15 (ridx_main_v107 (ix2 p q) k)
      = (val_main_v104 (F := Ideal) x0 x1 x2 x3 x4 x5 x6 x7 x8 x12 x13 x14 (ix2 p k) * val_main_v15 (F := Ideal) x2 (ix2 p 0)) * x15 (ix2 k q) := fun k => by
    rw [el k, er k, val_main_v106_apply, val_main_v105_apply, ec k]
    rfl
  have h2 : ∀ k : Fin 16, val_main_v75 (F := Ideal) x0 x1 x2 x3 x4 x5 x6 x7 x8 x9 x10 x11 (lidx_main_v111 (ix2 p q) k) * x17 (ridx_main_v111 (ix2 p q) k)
      = val_main_v75 (F := Ideal) x0 x1 x2 x3 x4 x5 x6 x7 x8 x9 x10 x11 (ix2 p k) * x17 (ix2 k q) := fun k => by
    rw [el' k, er' k]
  rw [Cert.Sage.layer_ix2, val_main_v113_apply, val_main_v112_apply, val_main_v110_apply, val_main_v107_apply,
    val_main_v111_apply, val_main_v109_apply, val_main_call4_v0_apply, val_main_call4_cst_apply, eb,
    Finset.sum_congr rfl (fun k _ => h1 k), Finset.sum_congr rfl (fun k _ => h2 k)]
  rfl

theorem head :
    val_main_v124 (F := Ideal) x0 x1 x2 x3 x4 x5 x6 x7 x8 x9 x10 x11 x12 x13 x14 x15 x16 x17 x21 x22
      = Cert.Sage.headVec (val_main_v104 (F := Ideal) x0 x1 x2 x3 x4 x5 x6 x7 x8 x12 x13 x14) (val_main_v15 (F := Ideal) x2)
          (val_main_v75 (F := Ideal) x0 x1 x2 x3 x4 x5 x6 x7 x8 x9 x10 x11) x15 (val_main_v108 (F := Ideal) x16) x17 x21
          (val_main_v115 (F := Ideal) x22) := by
  funext i
  obtain ⟨p, rfl⟩ : ∃ p : Fin 200000, i = ix1 p := ⟨i 0, eq_ix1 i⟩
  have e118 : idx_main_v118 (ix1 p) = ix2 p (0 : Fin 1) :=
    funext fun a => Fin.ext (by match a with | ⟨0, _⟩ => exact Nat.div_one p.val | ⟨1, _⟩ => rfl)
  have el : ∀ k : Fin 16, lidx_main_v114 (ix2 p (0 : Fin 1)) k = ix2 p k := fun k =>
    funext fun a => Fin.ext (by match a with | ⟨0, _⟩ => rfl | ⟨1, _⟩ => rfl)
  have er : ∀ k : Fin 16, ridx_main_v114 (ix2 p (0 : Fin 1)) k = ix2 k (0 : Fin 1) := fun k =>
    funext fun a => Fin.ext (by match a with | ⟨0, _⟩ => rfl | ⟨1, _⟩ => rfl)
  have eb : idx_main_v116 (ix2 p (0 : Fin 1)) = ix2 (0 : Fin 1) (0 : Fin 1) :=
    funext fun a => Fin.ext (by match a with | ⟨0, _⟩ => rfl | ⟨1, _⟩ => rfl)
  have one : (FloatOps.ofBits .f32 0x3F800000#32 : Ideal .f32) = 1 := IdealRules.sign_bit.ideal_onePat .f32
  have hs : ∀ k : Fin 16, val_main_v113 (F := Ideal) x0 x1 x2 x3 x4 x5 x6 x7 x8 x9 x10 x11 x12 x13 x14 x15 x16 x17 (lidx_main_v114 (ix2 p (0 : Fin 1)) k) * x21 (ridx_main_v114 (ix2 p (0 : Fin 1)) k)
      = Cert.Sage.layer (val_main_v104 (F := Ideal) x0 x1 x2 x3 x4 x5 x6 x7 x8 x12 x13 x14) (val_main_v15 (F := Ideal) x2)
          (val_main_v75 (F := Ideal) x0 x1 x2 x3 x4 x5 x6 x7 x8 x9 x10 x11) x15 (val_main_v108 (F := Ideal) x16) x17 (ix2 p k) * x21 (ix2 k (0 : Fin 1)) := fun k => by
    rw [el k, er k, layer3a]
  rw [Cert.Sage.headVec_ix1, val_main_v124_apply, val_main_v123_apply, val_main_cst_21_apply, val_main_v122_apply,
    val_main_v121_apply, val_main_cst_20_apply, val_main_v120_apply, val_main_v119_apply, val_main_v118_apply, e118,
    val_main_v117_apply, val_main_v114_apply, val_main_v116_apply, eb, Finset.sum_congr rfl (fun k _ => hs k), one]
  exact logistic_written _

end Cert.RefLayers

end
-- ==== Proof.KernelValue.lean ====
/-
  The value of the idealized kernel program's result, stage by stage.

  The program alternates stretches of host operations (which build the neighbour sums by a gather and a
  scatter-add along the edge list, and once the reciprocal neighbour counts) with five kernel launches, each of
  which computes one layer from the arrays the host stretch before it left.  The reference program computes the same
  neighbour sums by the same host operations, in the same order, on the same operands, and each layer by host
  operations too.  So the buffers of the kernel program are followed here in the reference's own terms: after each
  host stretch the neighbour sum it built IS the reference's stage function of the arguments (the two are one term),
  after each launch the output array is the specification's layer of its operands, which is what the reference's
  layer stage is as well.  At the end the kernel program's result buffer holds the reference's last stage.

  A bias vector reaches a launch reshaped to a row, and reaches the reference's sum broadcast to a row: the same row.
-/
import proofs.«181867_j54949811585206_2_alg».proof.Proof.Gen.KernelIdeal.Frame
import proofs.«181867_j54949811585206_2_alg».proof.Proof.Gen.ReferenceIdeal.Read
import proofs.«181867_j54949811585206_2_alg».proof.Proof.Keep
import proofs.«181867_j54949811585206_2_alg».proof.Proof.Region0
import proofs.«181867_j54949811585206_2_alg».proof.Proof.Region1
import proofs.«181867_j54949811585206_2_alg».proof.Proof.Region2
import proofs.«181867_j54949811585206_2_alg».proof.Proof.Region3
import proofs.«181867_j54949811585206_2_alg».proof.Proof.Region4
import proofs.«181867_j54949811585206_2_alg».proof.Proof.RefLayers
import proofs.«181867_j54949811585206_2_alg».proof.Proof.Spec
import Idealize.ShloMosaic.Lib.ValueLayout
import Idealize.ShloMosaic.Lib.Pipeline.Value

set_option maxRecDepth 16384

noncomputable section

namespace Cert.KernelValue

open Cert.KernelIdeal Cert.KernelIdeal.Gen Cert.KernelKeep Cert.KernelRegions
open Idealize.ShloMosaic Idealize.ShloMosaic.TcCoe Idealize.SL.Sem Idealize.ShloMosaic.StableHlo Idealize.ShloMosaic.ValueIdx
open Cert.ReferenceIdeal.Read (val_main_v1 val_main_v3 val_main_v15 val_main_v20 val_main_v30 val_main_v33 val_main_v33_apply
  val_main_v38 val_main_v48 val_main_v51 val_main_v56 val_main_v66 val_main_v70 val_main_v75 val_main_v85 val_main_v89 val_main_v94
  val_main_v104 val_main_v108 val_main_v115 val_main_v115_apply val_main_v124)

/-! ## A vector laid out as a row: by a reshape, or by a broadcast along a new leading axis -/

theorem row_of_vec (x : (⟨S16, .f32⟩ : BufTy).Contents (Elt Ideal)) :
    shapeCast S1x16 x shapeCasts_S16_S1x16 = val_main_v33 (F := Ideal) x := by
  funext i
  obtain ⟨u, q, rfl⟩ : ∃ (u : Fin 1) (q : Fin 16), i = ix2 u q := ⟨i 0, i 1, eq_ix2 i⟩
  refine (shapeCast_a_1a_apply x _ u q).trans ?_
  refine ((val_main_v33_apply x (ix2 u q)).trans ?_).symm
  exact congrArg x (funext fun a => Fin.ext (by match a with | ⟨0, _⟩ => rfl))

theorem cell_of_vec (x : (⟨S1, .f32⟩ : BufTy).Contents (Elt Ideal)) :
    shapeCast S1x1 x shapeCasts_S1_S1x1 = val_main_v115 (F := Ideal) x := by
  funext i
  obtain ⟨u, q, rfl⟩ : ∃ (u : Fin 1) (q : Fin 1), i = ix2 u q := ⟨i 0, i 1, eq_ix2 i⟩
  refine (shapeCast_a_1a_apply x _ u q).trans ?_
  refine ((val_main_v115_apply x (ix2 u q)).trans ?_).symm
  have hq : q.val = 0 := by omega
  exact congrArg x (funext fun a => Fin.ext (by
    match a with
    | ⟨0, _⟩ =>
      show _ = q.val
      rw [hq]))

/-- A column read as a vector. -/
theorem vec_of_col (y : Cert.Sage.Mat 200000 1) (p : Fin 200000) :
    shapeCast S200000 y shapeCasts_S200000x1_S200000 (ix1 p) = y (ix2 p 0) :=
  shapeCast_apply y shapeCasts_S200000x1_S200000 (ix1 p) (ix2 p 0)
    (by rw [Shape.rowMajor_val_two, Shape.rowMajor_val_one]; show p.val * 1 + 0 = p.val; omega)

/-! ## Equal operands, equal layers -/

theorem layer_eq {N K H : Nat} {a a' : Cert.Sage.Mat N K} {i i' : Cert.Sage.Mat N 1} {x x' : Cert.Sage.Mat N K}
    {wl wl' : Cert.Sage.Mat K H} {b b' : Cert.Sage.Mat 1 H} {wr wr' : Cert.Sage.Mat K H}
    (h1 : a = a') (h2 : i = i') (h3 : x = x') (h4 : wl = wl') (h5 : b = b') (h6 : wr = wr') :
    Cert.Sage.layer a i x wl b wr = Cert.Sage.layer a' i' x' wl' b' wr' := by
  subst h1 h2 h3 h4 h5 h6; rfl

theorem headCol_eq {N K H : Nat} {a a' : Cert.Sage.Mat N K} {i i' : Cert.Sage.Mat N 1} {x x' : Cert.Sage.Mat N K}
    {wl wl' : Cert.Sage.Mat K H} {b b' : Cert.Sage.Mat 1 H} {wr wr' : Cert.Sage.Mat K H} {fw fw' : Cert.Sage.Mat H 1}
    {fb fb' : Cert.Sage.Mat 1 1}
    (h1 : a = a') (h2 : i = i') (h3 : x = x') (h4 : wl = wl') (h5 : b = b') (h6 : wr = wr') (h7 : fw = fw') (h8 : fb = fb') :
    Cert.Sage.headCol a i x wl b wr fw fb = Cert.Sage.headCol a' i' x' wl' b' wr' fw' fb' := by
  subst h1 h2 h3 h4 h5 h6 h7 h8; rfl

variable (m : (ℓ : Loc nD τ sig) → Buf (Elt Ideal) ℓ) (ρ : Dev nD → PrngReg) (c : Dev nD)

/-! ## Before the first launch: the edge endpoints, the reciprocal counts, the first neighbour sum -/

theorem v1_W1 : W1 m ρ c (Proc.devRef .tc main_v1) = val_main_v1 (F := Ideal) (m ((c : Thread nD τ).loc main_arg2)) := by
  show StableHlo.after hostOps0 (W0 m ρ c) (Proc.devRef .tc main_v1) = _
  after_results_simp
  rfl
theorem v3_W1 : W1 m ρ c (Proc.devRef .tc main_v3) = val_main_v3 (F := Ideal) (m ((c : Thread nD τ).loc main_arg2)) := by
  show StableHlo.after hostOps0 (W0 m ρ c) (Proc.devRef .tc main_v3) = _
  after_results_simp
  rfl
theorem v15_W1 : W1 m ρ c (Proc.devRef .tc main_v15) = val_main_v15 (F := Ideal) (m ((c : Thread nD τ).loc main_arg2)) := by
  show StableHlo.after hostOps0 (W0 m ρ c) (Proc.devRef .tc main_v15) = _
  after_results_simp
  rfl
theorem v20_W1 : W1 m ρ c (Proc.devRef .tc main_v20) = val_main_v20 (F := Ideal) (m ((c : Thread nD τ).loc main_arg2)) := by
  show StableHlo.after hostOps0 (W0 m ρ c) (Proc.devRef .tc main_v20) = _
  after_results_simp
  rfl
theorem v30_W1 : W1 m ρ c (Proc.devRef .tc main_v30) = val_main_v30 (F := Ideal) (m ((c : Thread nD τ).loc main_arg1)) (m ((c : Thread nD τ).loc main_arg2)) := by
  show StableHlo.after hostOps0 (W0 m ρ c) (Proc.devRef .tc main_v30) = _
  after_results_simp
  rfl
theorem v31_W1 : W1 m ρ c (Proc.devRef .tc main_v31) = val_main_v33 (F := Ideal) (m ((c : Thread nD τ).loc main_arg4)) := by
  show StableHlo.after hostOps0 (W0 m ρ c) (Proc.devRef .tc main_v31) = _
  after_results_simp
  exact row_of_vec _

/-- The first launch's output: the reference's first layer on the first node set. -/
theorem v32_W2 : W2 m ρ c (Proc.devRef .tc main_v32) = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 6).trans ((region0 (V1 m ρ) c).trans ?_)
  exact (layer_eq (v30_W1 m ρ c) (v15_W1 m ρ c) (arg0_W1 m ρ c) (arg3_W1 m ρ c) (v31_W1 m ρ c) (arg5_W1 m ρ c)).trans
    (Cert.RefLayers.layer1a _ _ _ _ _ _).symm

/-! ## Between the first and the second launch -/

theorem v42_W3 : W3 m ρ c (Proc.devRef .tc main_v42) = val_main_v48 (F := Ideal) (m ((c : Thread nD τ).loc main_arg0)) (m ((c : Thread nD τ).loc main_arg2)) := by
  show StableHlo.after hostOps1 (W2 m ρ c) (Proc.devRef .tc main_v42) = _
  after_results_simp
  rw [v1_W2 m ρ c, v3_W2 m ρ c, arg0_W2 m ρ c, v1_W1 m ρ c, v3_W1 m ρ c]
  rfl
theorem v43_W3 : W3 m ρ c (Proc.devRef .tc main_v43) = val_main_v51 (F := Ideal) (m ((c : Thread nD τ).loc main_arg7)) := by
  show StableHlo.after hostOps1 (W2 m ρ c) (Proc.devRef .tc main_v43) = _
  after_results_simp
  rw [arg7_W2 m ρ c]
  exact row_of_vec _

/-- The second launch's output: the reference's first layer on the second node set. -/
theorem v44_W4 : W4 m ρ c (Proc.devRef .tc main_v44) = val_main_v56 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) := by
  refine (W4_arr m ρ c 6).trans ((region1 (V3 m ρ) c).trans ?_)
  exact (layer_eq (v42_W3 m ρ c) ((v20_W3 m ρ c).trans (v20_W1 m ρ c)) (arg1_W3 m ρ c) (arg6_W3 m ρ c) (v43_W3 m ρ c)
    (arg8_W3 m ρ c)).trans (Cert.RefLayers.layer1b _ _ _ _ _ _).symm

/-! ## Between the second and the third launch -/

theorem v54_W5 : W5 m ρ c (Proc.devRef .tc main_v54) = val_main_v66 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) := by
  show StableHlo.after hostOps2 (W4 m ρ c) (Proc.devRef .tc main_v54) = _
  after_results_simp
  rw [v1_W4 m ρ c, v3_W4 m ρ c, v44_W4 m ρ c, v1_W1 m ρ c, v3_W1 m ρ c]
  rfl
theorem v55_W5 : W5 m ρ c (Proc.devRef .tc main_v55) = val_main_v70 (F := Ideal) (m ((c : Thread nD τ).loc main_arg10)) := by
  show StableHlo.after hostOps2 (W4 m ρ c) (Proc.devRef .tc main_v55) = _
  after_results_simp
  rw [arg10_W4 m ρ c]
  exact row_of_vec _

/-- The third launch's output: the reference's second layer on the first node set. -/
theorem v56_W6 : W6 m ρ c (Proc.devRef .tc main_v56) = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 6).trans ((region2 (V5 m ρ) c).trans ?_)
  exact (layer_eq (v54_W5 m ρ c) ((v15_W5 m ρ c).trans (v15_W1 m ρ c)) ((v32_W5 m ρ c).trans (v32_W2 m ρ c)) (arg9_W5 m ρ c)
    (v55_W5 m ρ c) (arg11_W5 m ρ c)).trans (Cert.RefLayers.layer2a _ _ _ _ _ _ _ _ _ _ _ _).symm

/-! ## Between the third and the fourth launch -/

theorem v66_W7 : W7 m ρ c (Proc.devRef .tc main_v66) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W6 m ρ c) (Proc.devRef .tc main_v66) = _
  after_results_simp
  rw [v1_W6 m ρ c, v3_W6 m ρ c, v32_W6 m ρ c, v32_W2 m ρ c, v1_W1 m ρ c, v3_W1 m ρ c]
  rfl
theorem v67_W7 : W7 m ρ c (Proc.devRef .tc main_v67) = val_main_v89 (F := Ideal) (m ((c : Thread nD τ).loc main_arg13)) := by
  show StableHlo.after hostOps3 (W6 m ρ c) (Proc.devRef .tc main_v67) = _
  after_results_simp
  rw [arg13_W6 m ρ c]
  exact row_of_vec _

/-- The fourth launch's output: the reference's second layer on the second node set. -/
theorem v68_W8 : W8 m ρ c (Proc.devRef .tc main_v68) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) := by
  refine (W8_arr m ρ c 6).trans ((region3 (V7 m ρ) c).trans ?_)
  exact (layer_eq (v66_W7 m ρ c) ((v20_W7 m ρ c).trans (v20_W1 m ρ c)) ((v44_W7 m ρ c).trans (v44_W4 m ρ c)) (arg12_W7 m ρ c)
    (v67_W7 m ρ c) (arg14_W7 m ρ c)).trans (Cert.RefLayers.layer2b _ _ _ _ _ _ _ _ _ _ _ _).symm

/-! ## Between the fourth and the last launch -/

theorem v78_W9 : W9 m ρ c (Proc.devRef .tc main_v78) = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) := by
  show StableHlo.after hostOps4 (W8 m ρ c) (Proc.devRef .tc main_v78) = _
  after_results_simp
  rw [v1_W8 m ρ c, v3_W8 m ρ c, v68_W8 m ρ c, v1_W1 m ρ c, v3_W1 m ρ c]
  rfl
theorem v79_W9 : W9 m ρ c (Proc.devRef .tc main_v79) = val_main_v108 (F := Ideal) (m ((c : Thread nD τ).loc main_arg16)) := by
  show StableHlo.after hostOps4 (W8 m ρ c) (Proc.devRef .tc main_v79) = _
  after_results_simp
  rw [arg16_W8 m ρ c]
  exact row_of_vec _
theorem v80_W9 : W9 m ρ c (Proc.devRef .tc main_v80) = val_main_v115 (F := Ideal) (m ((c : Thread nD τ).loc main_arg22)) := by
  show StableHlo.after hostOps4 (W8 m ρ c) (Proc.devRef .tc main_v80) = _
  after_results_simp
  rw [arg22_W8 m ρ c]
  exact cell_of_vec _

/-- The last launch's output column: the last layer and the last stage of its operands. -/
theorem v81_W10 : W10 m ρ c (Proc.devRef .tc main_v81)
    = Cert.Sage.headCol (val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14))) (val_main_v15 (F := Ideal) (m ((c : Thread nD τ).loc main_arg2)))
        (val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg15)) (val_main_v108 (F := Ideal) (m ((c : Thread nD τ).loc main_arg16))) (m ((c : Thread nD τ).loc main_arg17)) (m ((c : Thread nD τ).loc main_arg21))
        (val_main_v115 (F := Ideal) (m ((c : Thread nD τ).loc main_arg22))) := by
  refine (W10_arr m ρ c 8).trans ((region4 (V9 m ρ) c).trans ?_)
  exact headCol_eq (v78_W9 m ρ c) ((v15_W9 m ρ c).trans (v15_W1 m ρ c)) ((v56_W9 m ρ c).trans (v56_W6 m ρ c)) (arg15_W9 m ρ c)
    (v79_W9 m ρ c) (arg17_W9 m ρ c) (arg21_W9 m ρ c) (v80_W9 m ρ c)

/-! ## The result -/

/-- The result buffer, after the last reshape: the reference's last stage of the arguments. -/
theorem result : W11 m ρ c (Proc.devRef .tc main_v82) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg21)) (m ((c : Thread nD τ).loc main_arg22)) := by
  show StableHlo.after hostOps5 (W10 m ρ c) (Proc.devRef .tc main_v82) = _
  after_results_simp
  rw [v81_W10 m ρ c]
  refine Eq.trans ?_ (Cert.RefLayers.head _ _ _ _ _ _ _ _ _ _ _ _ _ _ _ _ _ _ _ _).symm
  funext i
  obtain ⟨p, rfl⟩ : ∃ p : Fin 200000, i = ix1 p := ⟨i 0, eq_ix1 i⟩
  exact vec_of_col _ p

end Cert.KernelValue

end
-- ==== Proof.lean ====
/-
  The certificate: a three-layer message-passing network on a bipartite graph, computed by five kernel launches
  among host gathers and scatter-adds, against the same network computed by host operations only.

  At the exact values both programs are the same function of the arguments.  The neighbour sums (a gather along one
  row of the edge list followed by a scatter-add along the other) and the reciprocal neighbour counts are built by
  the same host operations on the same operands in both programs.  A layer is, at row p and column q,

      max ( Σ_k (agg(p,k) · inv(p)) · Wl(k,q) + bl(q) + Σ_k x(p,k) · Wr(k,q) , 0 ):

  a kernel launch computes it block of 5000 rows by block (an entry depends only on its own row of the row-blocked
  operands, so the blocks assemble to the whole layer), its matrix products into a zero accumulator being plain
  sums and its changes of float format the identity; the reference computes it by two products, two sums and a
  clip.  The last launch adds a product with a column, a bias and the logistic function, which the reference writes
  out as  1 / (1 + e^(-y)):  the same function on every extended real.  No law is used that needs finiteness —
  nothing is redistributed —, so the precondition is never opened.

  The three frames: the two kernel programs' are the generated frame certificates; the reference's is its generated
  run with the result dropped.  The idealization rewrote no operation, so there is nothing to preserve.  The value
  claim: the kernel program's run with every buffer named, its result buffer followed back through the eleven
  segments to the reference's last stage of the arguments; the reference's run, whose result is that stage by the
  generated stage-by-stage reading.
-/
import proofs.«181867_j54949811585206_2_alg».proof.Defs
import proofs.«181867_j54949811585206_2_alg».proof.Proof.Gen.Kernel
import proofs.«181867_j54949811585206_2_alg».proof.Proof.Gen.Kernel.Frame
import proofs.«181867_j54949811585206_2_alg».proof.Proof.Gen.KernelIdeal
import proofs.«181867_j54949811585206_2_alg».proof.Proof.Gen.KernelIdeal.Frame
import proofs.«181867_j54949811585206_2_alg».proof.Proof.Gen.ReferenceIdeal
import proofs.«181867_j54949811585206_2_alg».proof.Proof.Gen.ReferenceIdeal.Run
import proofs.«181867_j54949811585206_2_alg».proof.Proof.Gen.ReferenceIdeal.Read
import proofs.«181867_j54949811585206_2_alg».proof.Proof.Gen.Pre_finite_inputs
import proofs.«181867_j54949811585206_2_alg».proof.Proof.KernelRun
import proofs.«181867_j54949811585206_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

section Frames

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program's run ends with its result buffer at the last stage of the fold of its segments, and with
    the argument arrays as launched. -/
theorem kernel_run (m : (ℓ : Loc Cert.KernelIdeal.nD Cert.KernelIdeal.τ Cert.KernelIdeal.sig) → Buf (Elt Ideal) ℓ)
    (ρ : Dev Cert.KernelIdeal.nD → PrngReg) :
    open Cert.KernelIdeal Cert.KernelIdeal.Gen in
    θ_run (defs (F := Ideal)) (onTc (τ := τ) (main (F := Ideal))) ⟨m, fun _ => 0, ρ⟩ (fun r => ∀ c : Dev nD,
      r.2.mem ((c.tc : Thread nD τ).loc main_v82) = W11 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) := by
  open Cert.KernelIdeal Cert.KernelIdeal.Gen in
  exact (θ_run defs _ _).mono (fun r h c =>
    ⟨h c _ (mem_uc main_v82 (by decide)),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c),
      (h c _ (mem_uc main_arg8 (by decide))).trans (W11_main_arg8 m ρ c),
      (h c _ (mem_uc main_arg9 (by decide))).trans (W11_main_arg9 m ρ c),
      (h c _ (mem_uc main_arg10 (by decide))).trans (W11_main_arg10 m ρ c),
      (h c _ (mem_uc main_arg11 (by decide))).trans (W11_main_arg11 m ρ c),
      (h c _ (mem_uc main_arg12 (by decide))).trans (W11_main_arg12 m ρ c),
      (h c _ (mem_uc main_arg13 (by decide))).trans (W11_main_arg13 m ρ c),
      (h c _ (mem_uc main_arg14 (by decide))).trans (W11_main_arg14 m ρ c),
      (h c _ (mem_uc main_arg15 (by decide))).trans (W11_main_arg15 m ρ c),
      (h c _ (mem_uc main_arg16 (by decide))).trans (W11_main_arg16 m ρ c),
      (h c _ (mem_uc main_arg17 (by decide))).trans (W11_main_arg17 m ρ c),
      (h c _ (mem_uc main_arg18 (by decide))).trans (W11_main_arg18 m ρ c),
      (h c _ (mem_uc main_arg19 (by decide))).trans (W11_main_arg19 m ρ c),
      (h c _ (mem_uc main_arg20 (by decide))).trans (W11_main_arg20 m ρ c),
      (h c _ (mem_uc main_arg21 (by decide))).trans (W11_main_arg21 m ρ c),
      (h c _ (mem_uc main_arg22 (by decide))).trans (W11_main_arg22 m ρ c)⟩)
    (Cert.KernelRun.run_all (F := Ideal) m ρ)

/-- Both programs end with the same result: the reference's last stage of the arguments. -/
theorem algebraic : Cert.algebraic_KernelIdeal_ReferenceIdeal := by
  intro m ρ m' ρ' _ hagree
  refine ⟨fun c => Cert.KernelIdeal.Gen.W11 m ρ c (Proc.devRef .tc Cert.KernelIdeal.main_v82), kernel_run m ρ, ?_⟩
  refine (θ_run Cert.ReferenceIdeal.defs _ _).mono (fun r h c => ⟨(h c).1.trans ?_, (h c).2⟩)
    (Cert.ReferenceIdeal.Value.run (F := Ideal) m' ρ')
  refine (Cert.ReferenceIdeal.Read.val_main_v124_eq m' c).trans ?_
  refine Eq.trans ?_ (Cert.KernelValue.result m ρ c).symm
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2]

end Frames

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
